-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v166)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v166) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S4x64 : Shape := ⟨2, ![4, 64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S4x64 : S_.BroadcastsInDim S4x64 (![] : Fin 0 → Fin S4x64.rank)
  reducesTo_S4x64_S_d0_1 : S4x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg16 : FVec F S4x64 .f32) (main_arg17 : FVec F S64x16 .f32) (main_arg18 : FVec F S16 .f32) (main_v63 : IVec S_ 1) (main_v67 : IVec S_ 1) : IVec S_ 1 :=
  let main_v68 : IVec S_ 1 := andi main_v63 main_v67
  let main_v69 : FVec F S4x64 .f32 := Host.absf main_arg16
  let main_cst_26 : FVec F S_ .f32 := constant S_ .f32 0x7F800000#32
  let main_v70 : FVec F S4x64 .f32 := broadcastInDim S4x64 ![] bcast_S_S4x64 main_cst_26
  let main_v71 : IVec S4x64 1 := cmpf .olt main_v69 main_v70
  let main_c_27 : IVec S_ 1 := constantI S_ 1 1#1
  let main_v72 : IVec S_ 1 := (fun x v => Host.reduce IntOp.andi x v reducesTo_S4x64_S_d0_1 h_S_) main_v71 main_c_27
  let main_v73 : IVec S_ 1 := andi main_v68 main_v72
  let main_v74 : FVec F S64x16 .f32 := Host.absf main_arg17
  let main_cst_28 : FVec F S_ .f32 := constant S_ .f32 0x7F800000#32
  let main_v75 : FVec F S64x16 .f32 := broadcastInDim S64x16 ![] bcast_S_S64x16 main_cst_28
  let main_v76 : IVec S64x16 1 := cmpf .olt main_v74 main_v75
  let main_c_29 : IVec S_ 1 := constantI S_ 1 1#1
  let main_v77 : IVec S_ 1 := (fun x v => Host.reduce IntOp.andi x v reducesTo_S64x16_S_d0_1 h_S_) main_v76 main_c_29
  let main_v78 : IVec S_ 1 := andi main_v73 main_v77
  let main_v79 : FVec F S16 .f32 := Host.absf main_arg18
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  main_v83

def fn_part3 {F : FTy → Type} [FloatOps F] (main_arg13 : FVec F S64 .f32) (main_arg14 : FVec F S64x64 .f32) (main_arg15 : FVec F S4x64 .f32) (main_arg16 : FVec F S4x64 .f32) (main_arg17 : FVec F S64x16 .f32) (main_arg18 : FVec F S16 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S4x64 .f32 := Host.absf main_arg15
  let main_cst_24 : FVec F S_ .f32 := constant S_ .f32 0x7F800000#32
  let main_v65 : FVec F S4x64 .f32 := broadcastInDim S4x64 ![] bcast_S_S4x64 main_cst_24
  let main_v66 : IVec S4x64 1 := cmpf .olt main_v64 main_v65
  let main_c_25 : IVec S_ 1 := constantI S_ 1 1#1
  let main_v67 : IVec S_ 1 := (fun x v => Host.reduce IntOp.andi x v reducesTo_S4x64_S_d0_1 h_S_) main_v66 main_c_25
  fn_part4 (F := F) main_arg16 main_arg17 main_arg18 main_v63 main_v67

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S4x64 .f32) (main_arg16 : FVec F S4x64 .f32) (main_arg17 : FVec F S64x16 .f32) (main_arg18 : FVec F S16 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_arg18 main_v48 main_v49 main_v50

def fn_part1 {F : FTy → Type} [FloatOps F] (main_arg6 : FVec F S64 .f32) (main_arg7 : FVec F S64x64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S4x64 .f32) (main_arg16 : FVec F S4x64 .f32) (main_arg17 : FVec F S64x16 .f32) (main_arg18 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S4x64 .f32) (main_arg16 : FVec F S4x64 .f32) (main_arg17 : FVec F S64x16 .f32) (main_arg18 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S4x64 : Shape := ⟨2, ![4, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S2000x64 : Shape := ⟨2, ![2000, 64]⟩
abbrev S2048x64 : Shape := ⟨2, ![2048, 64]⟩
abbrev S2048x1 : Shape := ⟨2, ![2048, 1]⟩
abbrev S1x16 : Shape := ⟨2, ![1, 16]⟩
abbrev S2048x16 : Shape := ⟨2, ![2048, 16]⟩

abbrev nBuf : Space → Nat
  | .hbm => 226
  | .vmem => 71
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x64, .f32⟩
  | 15 => ⟨S4x64, .f32⟩
  | 16 => ⟨S4x64, .f32⟩
  | 17 => ⟨S64x16, .f32⟩
  | 18 => ⟨S16, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x64, .f32⟩
  | 32 => ⟨S_, .f32⟩
  | 33 => ⟨S100000x64, .f32⟩
  | 34 => ⟨S1600000x1, .i32⟩
  | 35 => ⟨S100000x64, .f32⟩
  | 36 => ⟨S_, .f32⟩
  | 37 => ⟨S1600000x1, .f32⟩
  | 38 => ⟨S_, .f32⟩
  | 39 => ⟨S100000x1, .f32⟩
  | 40 => ⟨S1600000x1, .i32⟩
  | 41 => ⟨S100000x1, .f32⟩
  | 42 => ⟨S_, .f32⟩
  | 43 => ⟨S100000x1, .f32⟩
  | 44 => ⟨S100000x1, .f32⟩
  | 45 => ⟨S100000x64, .f32⟩
  | 46 => ⟨S100000x64, .f32⟩
  | 47 => ⟨S_, .f32⟩
  | 48 => ⟨S100000x1, .f32⟩
  | 49 => ⟨S100000x1, .i1⟩
  | 50 => ⟨S100000x1, .f32⟩
  | 51 => ⟨S1x64, .f32⟩
  | 52 => ⟨S100000x64, .f32⟩
  | 53 => ⟨S100000x64, .f32⟩
  | 54 => ⟨S100000x64, .f32⟩
  | 55 => ⟨S100000x64, .f32⟩
  | 56 => ⟨S_, .f32⟩
  | 57 => ⟨S64, .f32⟩
  | 58 => ⟨S_, .f32⟩
  | 59 => ⟨S64, .f32⟩
  | 60 => ⟨S64, .f32⟩
  | 61 => ⟨S1x64, .f32⟩
  | 62 => ⟨S100000x64, .f32⟩
  | 63 => ⟨S100000x64, .f32⟩
  | 64 => ⟨S100000x64, .f32⟩
  | 65 => ⟨S_, .f32⟩
  | 66 => ⟨S64, .f32⟩
  | 67 => ⟨S_, .f32⟩
  | 68 => ⟨S64, .f32⟩
  | 69 => ⟨S64, .f32⟩
  | 70 => ⟨S1x64, .f32⟩
  | 71 => ⟨S1x64, .f32⟩
  | 72 => ⟨S1x64, .f32⟩
  | 73 => ⟨S64, .f32⟩
  | 74 => ⟨S1x64, .f32⟩
  | 75 => ⟨S1x64, .f32⟩
  | 76 => ⟨S64, .f32⟩
  | 77 => ⟨S1x64, .f32⟩
  | 78 => ⟨S100000x64, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x64, .f32⟩
  | 88 => ⟨S_, .f32⟩
  | 89 => ⟨S100000x64, .f32⟩
  | 90 => ⟨S1600000x1, .i32⟩
  | 91 => ⟨S100000x64, .f32⟩
  | 92 => ⟨S_, .f32⟩
  | 93 => ⟨S1600000x1, .f32⟩
  | 94 => ⟨S_, .f32⟩
  | 95 => ⟨S100000x1, .f32⟩
  | 96 => ⟨S1600000x1, .i32⟩
  | 97 => ⟨S100000x1, .f32⟩
  | 98 => ⟨S_, .f32⟩
  | 99 => ⟨S100000x1, .f32⟩
  | 100 => ⟨S100000x1, .f32⟩
  | 101 => ⟨S100000x64, .f32⟩
  | 102 => ⟨S100000x64, .f32⟩
  | 103 => ⟨S_, .f32⟩
  | 104 => ⟨S100000x1, .f32⟩
  | 105 => ⟨S100000x1, .i1⟩
  | 106 => ⟨S100000x1, .f32⟩
  | 107 => ⟨S1x64, .f32⟩
  | 108 => ⟨S100000x64, .f32⟩
  | 109 => ⟨S_, .f32⟩
  | 110 => ⟨S64, .f32⟩
  | 111 => ⟨S_, .f32⟩
  | 112 => ⟨S64, .f32⟩
  | 113 => ⟨S64, .f32⟩
  | 114 => ⟨S1x64, .f32⟩
  | 115 => ⟨S100000x64, .f32⟩
  | 116 => ⟨S100000x64, .f32⟩
  | 117 => ⟨S100000x64, .f32⟩
  | 118 => ⟨S_, .f32⟩
  | 119 => ⟨S64, .f32⟩
  | 120 => ⟨S_, .f32⟩
  | 121 => ⟨S64, .f32⟩
  | 122 => ⟨S64, .f32⟩
  | 123 => ⟨S1x64, .f32⟩
  | 124 => ⟨S1x64, .f32⟩
  | 125 => ⟨S1x64, .f32⟩
  | 126 => ⟨S64, .f32⟩
  | 127 => ⟨S1x64, .f32⟩
  | _ => ⟨S100000x64, .f32⟩

abbrev hbmTy0_1 (i : Nat) : BufTy := match i % 128 with
  | 0 => ⟨S1x64, .f32⟩
  | 1 => ⟨S64, .f32⟩
  | 2 => ⟨S1x64, .f32⟩
  | 3 => ⟨S100000x64, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x64, .f32⟩
  | 13 => ⟨S_, .f32⟩
  | 14 => ⟨S100000x64, .f32⟩
  | 15 => ⟨S1600000x1, .i32⟩
  | 16 => ⟨S100000x64, .f32⟩
  | 17 => ⟨S1x64, .f32⟩
  | 18 => ⟨S1x64, .f32⟩
  | 19 => ⟨S100000x64, .f32⟩
  | 20 => ⟨S_, .f32⟩
  | 21 => ⟨S64, .f32⟩
  | 22 => ⟨S_, .f32⟩
  | 23 => ⟨S64, .f32⟩
  | 24 => ⟨S64, .f32⟩
  | 25 => ⟨S1x64, .f32⟩
  | 26 => ⟨S100000x64, .f32⟩
  | 27 => ⟨S100000x64, .f32⟩
  | 28 => ⟨S100000x64, .f32⟩
  | 29 => ⟨S_, .f32⟩
  | 30 => ⟨S64, .f32⟩
  | 31 => ⟨S_, .f32⟩
  | 32 => ⟨S64, .f32⟩
  | 33 => ⟨S64, .f32⟩
  | 34 => ⟨S1x64, .f32⟩
  | 35 => ⟨S1x64, .f32⟩
  | 36 => ⟨S1x64, .f32⟩
  | 37 => ⟨S64, .f32⟩
  | 38 => ⟨S1x64, .f32⟩
  | 39 => ⟨S1x64, .f32⟩
  | 40 => ⟨S64, .f32⟩
  | 41 => ⟨S1x64, .f32⟩
  | 42 => ⟨S100000x64, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S1x64, .f32⟩
  | 57 => ⟨S100000x64, .f32⟩
  | 58 => ⟨S_, .f32⟩
  | 59 => ⟨S64, .f32⟩
  | 60 => ⟨S_, .f32⟩
  | 61 => ⟨S64, .f32⟩
  | 62 => ⟨S64, .f32⟩
  | 63 => ⟨S1x64, .f32⟩
  | 64 => ⟨S100000x64, .f32⟩
  | 65 => ⟨S100000x64, .f32⟩
  | 66 => ⟨S100000x64, .f32⟩
  | 67 => ⟨S_, .f32⟩
  | 68 => ⟨S64, .f32⟩
  | 69 => ⟨S_, .f32⟩
  | 70 => ⟨S64, .f32⟩
  | 71 => ⟨S64, .f32⟩
  | 72 => ⟨S1x64, .f32⟩
  | 73 => ⟨S1x64, .f32⟩
  | 74 => ⟨S1x64, .f32⟩
  | 75 => ⟨S64, .f32⟩
  | 76 => ⟨S1x64, .f32⟩
  | 77 => ⟨S1x64, .f32⟩
  | 78 => ⟨S64, .f32⟩
  | 79 => ⟨S1x64, .f32⟩
  | 80 => ⟨S100000x64, .f32⟩
  | 81 => ⟨S_, .f32⟩
  | 82 => ⟨S2048x64, .f32⟩
  | 83 => ⟨S100000x1, .i32⟩
  | 84 => ⟨S2048x64, .f32⟩
  | 85 => ⟨S_, .f32⟩
  | 86 => ⟨S100000x1, .f32⟩
  | 87 => ⟨S_, .f32⟩
  | 88 => ⟨S2048x1, .f32⟩
  | 89 => ⟨S100000x1, .i32⟩
  | 90 => ⟨S2048x1, .f32⟩
  | 91 => ⟨S_, .f32⟩
  | 92 => ⟨S2048x1, .f32⟩
  | 93 => ⟨S2048x1, .f32⟩
  | 94 => ⟨S2048x64, .f32⟩
  | 95 => ⟨S2048x64, .f32⟩
  | 96 => ⟨S1x16, .f32⟩
  | 97 => ⟨S2048x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S64x64, .f32⟩
  | .local _ .vmem, ⟨37, _⟩ => ⟨S1x64, .f32⟩
  | .local _ .vmem, ⟨38, _⟩ => ⟨S64x64, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S1x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | .local _ .vmem, ⟨54, _⟩ => ⟨S64x64, .f32⟩
  | .local _ .vmem, ⟨55, _⟩ => ⟨S1x64, .f32⟩
  | .local _ .vmem, ⟨56, _⟩ => ⟨S64x64, .f32⟩
  | .local _ .vmem, ⟨57, _⟩ => ⟨S2000x64, .f32⟩
  | .local _ .vmem, ⟨58, _⟩ => ⟨S2000x64, .f32⟩
  | .local _ .vmem, ⟨59, _⟩ => ⟨S2000x64, .f32⟩
  | .local _ .vmem, ⟨60, _⟩ => ⟨S2000x64, .f32⟩
  | .local _ .vmem, ⟨61, _⟩ => ⟨S1x64, .f32⟩
  | .local _ .vmem, ⟨62, _⟩ => ⟨S1x64, .f32⟩
  | .local _ .vmem, ⟨63, _⟩ => ⟨S1x64, .f32⟩
  | .local _ .vmem, ⟨64, _⟩ => ⟨S1x64, .f32⟩
  | .local _ .vmem, ⟨65, _⟩ => ⟨S2000x64, .f32⟩
  | .local _ .vmem, ⟨66, _⟩ => ⟨S2000x64, .f32⟩
  | .local _ .vmem, ⟨67, _⟩ => ⟨S2048x64, .f32⟩
  | .local _ .vmem, ⟨68, _⟩ => ⟨S64x16, .f32⟩
  | .local _ .vmem, ⟨69, _⟩ => ⟨S1x16, .f32⟩
  | .local _ .vmem, ⟨70, _⟩ => ⟨S2048x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_5 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_12 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_14 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_15 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_16 : Ref sig .tc := ⟨.hbm, 109, rfl⟩
abbrev main_v72 : Ref sig .tc := ⟨.hbm, 110, rfl⟩
abbrev main_cst_17 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_18 : Ref sig .tc := ⟨.hbm, 118, rfl⟩
abbrev main_v79 : Ref sig .tc := ⟨.hbm, 119, rfl⟩
abbrev main_cst_19 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_c_20 : Ref sig .tc := ⟨.hbm, 132, rfl⟩
abbrev main_v91 : Ref sig .tc := ⟨.hbm, 133, rfl⟩
abbrev main_v92 : Ref sig .tc := ⟨.hbm, 134, rfl⟩
abbrev main_c_21 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_22 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_23 : Ref sig .tc := ⟨.hbm, 148, rfl⟩
abbrev main_v104 : Ref sig .tc := ⟨.hbm, 149, rfl⟩
abbrev main_cst_24 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_25 : Ref sig .tc := ⟨.hbm, 157, rfl⟩
abbrev main_v111 : Ref sig .tc := ⟨.hbm, 158, rfl⟩
abbrev main_cst_26 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_c_27 : Ref sig .tc := ⟨.hbm, 171, rfl⟩
abbrev main_v123 : Ref sig .tc := ⟨.hbm, 172, rfl⟩
abbrev main_v124 : Ref sig .tc := ⟨.hbm, 173, rfl⟩
abbrev main_c_28 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_29 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_30 : Ref sig .tc := ⟨.hbm, 186, rfl⟩
abbrev main_v135 : Ref sig .tc := ⟨.hbm, 187, rfl⟩
abbrev main_cst_31 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_32 : Ref sig .tc := ⟨.hbm, 195, rfl⟩
abbrev main_v142 : Ref sig .tc := ⟨.hbm, 196, rfl⟩
abbrev main_cst_33 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_cst_34 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_35 : Ref sig .tc := ⟨.hbm, 213, rfl⟩
abbrev main_v157 : Ref sig .tc := ⟨.hbm, 214, rfl⟩
abbrev main_cst_36 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_cst_37 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg5_0 : Ref sig .tc := ⟨.vmem, 57, rfl⟩
abbrev cc6_stg5_1 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg2_0 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg5_0 : Ref sig .tc := ⟨.vmem, 65, rfl⟩
abbrev cc7_stg5_1 : Ref sig .tc := ⟨.vmem, 66, rfl⟩
abbrev cc8_stg0_0 : Ref sig .tc := ⟨.vmem, 67, rfl⟩
abbrev cc8_stg1_0 : Ref sig .tc := ⟨.vmem, 68, rfl⟩
abbrev cc8_stg2_0 : Ref sig .tc := ⟨.vmem, 69, rfl⟩
abbrev cc8_stg3_0 : Ref sig .tc := ⟨.vmem, 70, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem3_0 : DmaSem sig := 55
abbrev cc6_sem4_0 : DmaSem sig := 56
abbrev cc6_sem5_0 : DmaSem sig := 57
abbrev cc6_sem5_1 : DmaSem sig := 58
abbrev cc7_sem0_0 : DmaSem sig := 59
abbrev cc7_sem0_1 : DmaSem sig := 60
abbrev cc7_sem1_0 : DmaSem sig := 61
abbrev cc7_sem2_0 : DmaSem sig := 62
abbrev cc7_sem3_0 : DmaSem sig := 63
abbrev cc7_sem4_0 : DmaSem sig := 64
abbrev cc7_sem5_0 : DmaSem sig := 65
abbrev cc7_sem5_1 : DmaSem sig := 66
abbrev cc8_sem0_0 : DmaSem sig := 67
abbrev cc8_sem1_0 : DmaSem sig := 68
abbrev cc8_sem2_0 : DmaSem sig := 69
abbrev cc8_sem3_0 : DmaSem sig := 70

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S2048x64 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S64x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x16 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S2048x16 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  reducesTo_S100000x64_S64_d0 : S100000x64.ReducesTo [0] S64
  h_S_ : 0 < S_.numel
  bcast_S_S64 : S_.BroadcastsInDim S64 (![] : Fin 0 → Fin S64.rank)
  shapeCasts_S64_S1x64 : S64.ShapeCasts S1x64
  slices_S4x64_S1x64_0_0 : S4x64.Slices ![0, 0] S1x64
  shapeCasts_S1x64_S64 : S1x64.ShapeCasts S64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S4x64_S1x64_1_0 : S4x64.Slices ![1, 0] S1x64
  slices_S4x64_S1x64_2_0 : S4x64.Slices ![2, 0] S1x64
  slices_S4x64_S1x64_3_0 : S4x64.Slices ![3, 0] S1x64
  bcast_S_S2048x64 : S_.BroadcastsInDim S2048x64 (![] : Fin 0 → Fin S2048x64.rank)
  bcast_S100000_S100000x1_0 : S100000.BroadcastsInDim S100000x1 (![0] : Fin 1 → Fin S100000x1.rank)
  bcast_S_S2048x1 : S_.BroadcastsInDim S2048x1 (![] : Fin 0 → Fin S2048x1.rank)
  bcast_S2048x1_S2048x64_0_1 : S2048x1.BroadcastsInDim S2048x64 (![0, 1] : Fin 2 → Fin S2048x64.rank)
  shapeCasts_S16_S1x16 : S16.ShapeCasts S1x16
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S2048x16_S2048x16_0_0 : ∀ a, (![0, 0] : Fin 2 → Nat) a + S2048x16.size a ≤ S2048x16.size a
  h_S2048x16 : 0 < S2048x16.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S2000x64_S64x64_S2000x64_1_0_0_1_n_n_wf : DotDims.WF S2000x64 S64x64 S2000x64 [1] [0] [0] [1] [] []
  scatter_S2048x64_S100000x1_S100000x64_1_0_0_1_wf : ScatterDims.WF S2048x64 S100000x1 S100000x64 [1] [0] [0] 1
  scatter_S2048x1_S100000x1_S100000x1_1_0_0_1_wf : ScatterDims.WF S2048x1 S100000x1 S100000x1 [1] [0] [0] 1
  dot_S2048x64_S64x16_S2048x16_1_0_0_1_n_n_wf : DotDims.WF S2048x64 S64x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S100000x64.size a
  hwx3_5 : ∀ i : grid3.Coords, EltTy.bits .f32 = 32 ∨ (Rect.block (s := S100000x64) S2000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x64.size a ≤ S100000x64.size a
  hwx4_6 : ∀ i : grid4.Coords, EltTy.bits .f32 = 32 ∨ (Rect.block (s := S100000x64) S2000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x64.size a ≤ S100000x64.size a
  hwx5_5 : ∀ i : grid5.Coords, EltTy.bits .f32 = 32 ∨ (Rect.block (s := S100000x64) S2000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S100000x64.size a
  hwx6_1 : ∀ i : grid6.Coords, EltTy.bits .f32 = 32 ∨ (Rect.block (s := S100000x64) S2000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x64.size a ≤ S100000x64.size a
  hwx6_5 : ∀ i : grid6.Coords, EltTy.bits .f32 = 32 ∨ (Rect.block (s := S100000x64) S2000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S100000x64.size a
  hwx7_0 : ∀ i : grid7.Coords, EltTy.bits .f32 = 32 ∨ (Rect.block (s := S100000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x64.size a ≤ S100000x64.size a
  hwx7_5 : ∀ i : grid7.Coords, EltTy.bits .f32 = 32 ∨ (Rect.block (s := S100000x64) S2000x64.size (cc7_transform_5 i) (hinb7_5 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S2048x64.size a ≤ S2048x64.size a
  hwx8_0 : ∀ i : grid8.Coords, EltTy.bits .f32 = 32 ∨ (Rect.block (s := S2048x64) S2048x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x16.size a ≤ S64x16.size a
  hwx8_1 : ∀ i : grid8.Coords, EltTy.bits .f32 = 32 ∨ (Rect.block (s := S64x16) S64x16.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x16.size a ≤ S1x16.size a
  hwx8_2 : ∀ i : grid8.Coords, EltTy.bits .f32 = 32 ∨ (Rect.block (s := S1x16) S1x16.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S2048x16.size a ≤ S2048x16.size a
  hwx8_3 : ∀ i : grid8.Coords, EltTy.bits .f32 = 32 ∨ (Rect.block (s := S2048x16) S2048x16.size (cc8_transform_3 i) (hinb8_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def scatter_S2048x1_S100000x1_S100000x1_1_0_0_1 : ScatterDims S2048x1 S100000x1 S100000x1 where
  updateWindowDims := [1]
  insertedWindowDims := [0]
  scatterDimsToOperandDims := [0]
  indexVectorDim := 1
  wf := scatter_S2048x1_S100000x1_S100000x1_1_0_0_1_wf
def dot_S2048x64_S64x16_S2048x16_1_0_0_1_n_n : DotDims S2048x64 S64x16 S2048x16 where
  lhsContracting := [1]
  rhsContracting := [0]
  lhsNonContracting := [0]
  rhsNonContracting := [1]
  lhsBatch := []
  rhsBatch := []
  wf := dot_S2048x64_S64x16_S2048x16_1_0_0_1_n_n_wf

abbrev win0_0 : Pipeline.Window sig grid0 :=
  Pipeline.Window.ofSpec (Memref.whole main_v21) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v66) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v71) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v90) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v90) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v100) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v101) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v102) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v103) S2000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v103) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v114) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v115) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v118) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v121) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v122) S2000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v132) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v122) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg12) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v133) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg14) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v134) S2000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v134) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v145) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v146) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v149) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v152) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v153) S2000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v164) S2048x64.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg17) S64x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v165) S1x16.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v166) S2048x16.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S4x64 : Shape := ⟨2, ![4, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S2048x64 : Shape := ⟨2, ![2048, 64]⟩
abbrev S2048x1 : Shape := ⟨2, ![2048, 1]⟩
abbrev S2048x16 : Shape := ⟨2, ![2048, 16]⟩
abbrev S1x16 : Shape := ⟨2, ![1, 16]⟩

abbrev nBuf : Space → Nat
  | .hbm => 350
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x64, .f32⟩
  | 15 => ⟨S4x64, .f32⟩
  | 16 => ⟨S4x64, .f32⟩
  | 17 => ⟨S64x16, .f32⟩
  | 18 => ⟨S16, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x64, .f32⟩
  | 32 => ⟨S_, .f32⟩
  | 33 => ⟨S100000x64, .f32⟩
  | 34 => ⟨S1600000x1, .i32⟩
  | 35 => ⟨S100000x64, .f32⟩
  | 36 => ⟨S_, .f32⟩
  | 37 => ⟨S1600000x1, .f32⟩
  | 38 => ⟨S_, .f32⟩
  | 39 => ⟨S100000x1, .f32⟩
  | 40 => ⟨S1600000x1, .i32⟩
  | 41 => ⟨S100000x1, .f32⟩
  | 42 => ⟨S_, .f32⟩
  | 43 => ⟨S100000x1, .f32⟩
  | 44 => ⟨S100000x1, .f32⟩
  | 45 => ⟨S100000x64, .f32⟩
  | 46 => ⟨S100000x64, .f32⟩
  | 47 => ⟨S_, .f32⟩
  | 48 => ⟨S100000x1, .f32⟩
  | 49 => ⟨S100000x1, .i1⟩
  | 50 => ⟨S100000x1, .f32⟩
  | 51 => ⟨S100000x64, .f32⟩
  | 52 => ⟨S1x64, .f32⟩
  | 53 => ⟨S100000x64, .f32⟩
  | 54 => ⟨S100000x64, .f32⟩
  | 55 => ⟨S100000x64, .f32⟩
  | 56 => ⟨S100000x64, .f32⟩
  | 57 => ⟨S1x64, .f32⟩
  | 58 => ⟨S64, .f32⟩
  | 59 => ⟨S1x64, .f32⟩
  | 60 => ⟨S64, .f32⟩
  | 61 => ⟨S_, .f32⟩
  | 62 => ⟨S64, .f32⟩
  | 63 => ⟨S_, .f32⟩
  | 64 => ⟨S64, .f32⟩
  | 65 => ⟨S64, .f32⟩
  | 66 => ⟨S1x64, .f32⟩
  | 67 => ⟨S100000x64, .f32⟩
  | 68 => ⟨S100000x64, .f32⟩
  | 69 => ⟨S100000x64, .f32⟩
  | 70 => ⟨S_, .f32⟩
  | 71 => ⟨S64, .f32⟩
  | 72 => ⟨S_, .f32⟩
  | 73 => ⟨S64, .f32⟩
  | 74 => ⟨S64, .f32⟩
  | 75 => ⟨S1x64, .f32⟩
  | 76 => ⟨S100000x64, .f32⟩
  | 77 => ⟨S100000x64, .f32⟩
  | 78 => ⟨S_, .f32⟩
  | 79 => ⟨S64, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .i1⟩
  | 94 => ⟨S_, .f32⟩
  | 95 => ⟨S100000x64, .f32⟩
  | 96 => ⟨S100000x64, .i1⟩
  | 97 => ⟨S_, .f32⟩
  | 98 => ⟨S_, .f32⟩
  | 99 => ⟨S100000x64, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S100000x64, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x64, .f32⟩
  | 115 => ⟨S_, .f32⟩
  | 116 => ⟨S100000x64, .f32⟩
  | 117 => ⟨S1600000x1, .i32⟩
  | 118 => ⟨S100000x64, .f32⟩
  | 119 => ⟨S_, .f32⟩
  | 120 => ⟨S1600000x1, .f32⟩
  | 121 => ⟨S_, .f32⟩
  | 122 => ⟨S100000x1, .f32⟩
  | 123 => ⟨S1600000x1, .i32⟩
  | 124 => ⟨S100000x1, .f32⟩
  | 125 => ⟨S_, .f32⟩
  | 126 => ⟨S100000x1, .f32⟩
  | 127 => ⟨S100000x1, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S100000x1, .f32⟩
  | 4 => ⟨S100000x1, .i1⟩
  | 5 => ⟨S100000x1, .f32⟩
  | 6 => ⟨S100000x64, .f32⟩
  | 7 => ⟨S1x64, .f32⟩
  | 8 => ⟨S100000x64, .f32⟩
  | 9 => ⟨S100000x64, .f32⟩
  | 10 => ⟨S100000x64, .f32⟩
  | 11 => ⟨S100000x64, .f32⟩
  | 12 => ⟨S1x64, .f32⟩
  | 13 => ⟨S64, .f32⟩
  | 14 => ⟨S1x64, .f32⟩
  | 15 => ⟨S64, .f32⟩
  | 16 => ⟨S_, .f32⟩
  | 17 => ⟨S64, .f32⟩
  | 18 => ⟨S_, .f32⟩
  | 19 => ⟨S64, .f32⟩
  | 20 => ⟨S64, .f32⟩
  | 21 => ⟨S1x64, .f32⟩
  | 22 => ⟨S100000x64, .f32⟩
  | 23 => ⟨S100000x64, .f32⟩
  | 24 => ⟨S100000x64, .f32⟩
  | 25 => ⟨S_, .f32⟩
  | 26 => ⟨S64, .f32⟩
  | 27 => ⟨S_, .f32⟩
  | 28 => ⟨S64, .f32⟩
  | 29 => ⟨S64, .f32⟩
  | 30 => ⟨S1x64, .f32⟩
  | 31 => ⟨S100000x64, .f32⟩
  | 32 => ⟨S100000x64, .f32⟩
  | 33 => ⟨S_, .f32⟩
  | 34 => ⟨S64, .f32⟩
  | 35 => ⟨S64, .f32⟩
  | 36 => ⟨S64, .f32⟩
  | 37 => ⟨S1x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S1x64, .f32⟩
  | 44 => ⟨S100000x64, .f32⟩
  | 45 => ⟨S100000x64, .f32⟩
  | 46 => ⟨S_, .f32⟩
  | 47 => ⟨S100000x64, .f32⟩
  | 48 => ⟨S100000x64, .i1⟩
  | 49 => ⟨S_, .f32⟩
  | 50 => ⟨S100000x64, .f32⟩
  | 51 => ⟨S100000x64, .i1⟩
  | 52 => ⟨S_, .f32⟩
  | 53 => ⟨S_, .f32⟩
  | 54 => ⟨S100000x64, .f32⟩
  | 55 => ⟨S100000x64, .f32⟩
  | 56 => ⟨S100000x64, .f32⟩
  | 57 => ⟨S_, .f32⟩
  | 58 => ⟨S100000x64, .f32⟩
  | 59 => ⟨S100000x64, .f32⟩
  | 60 => ⟨S100000x64, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S_, .f32⟩
  | 71 => ⟨S100000x64, .f32⟩
  | 72 => ⟨S1600000x1, .i32⟩
  | 73 => ⟨S100000x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S1x64, .f32⟩
  | 87 => ⟨S64, .f32⟩
  | 88 => ⟨S1x64, .f32⟩
  | 89 => ⟨S64, .f32⟩
  | 90 => ⟨S_, .f32⟩
  | 91 => ⟨S64, .f32⟩
  | 92 => ⟨S_, .f32⟩
  | 93 => ⟨S64, .f32⟩
  | 94 => ⟨S64, .f32⟩
  | 95 => ⟨S1x64, .f32⟩
  | 96 => ⟨S100000x64, .f32⟩
  | 97 => ⟨S100000x64, .f32⟩
  | 98 => ⟨S100000x64, .f32⟩
  | 99 => ⟨S_, .f32⟩
  | 100 => ⟨S64, .f32⟩
  | 101 => ⟨S_, .f32⟩
  | 102 => ⟨S64, .f32⟩
  | 103 => ⟨S64, .f32⟩
  | 104 => ⟨S1x64, .f32⟩
  | 105 => ⟨S100000x64, .f32⟩
  | 106 => ⟨S100000x64, .f32⟩
  | 107 => ⟨S_, .f32⟩
  | 108 => ⟨S64, .f32⟩
  | 109 => ⟨S64, .f32⟩
  | 110 => ⟨S64, .f32⟩
  | 111 => ⟨S1x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S100000x64, .f32⟩
  | 122 => ⟨S100000x64, .i1⟩
  | 123 => ⟨S_, .f32⟩
  | 124 => ⟨S100000x64, .f32⟩
  | 125 => ⟨S100000x64, .i1⟩
  | 126 => ⟨S_, .f32⟩
  | 127 => ⟨S_, .f32⟩
  | _ => ⟨S100000x64, .f32⟩

abbrev hbmTy0_2 (i : Nat) : BufTy := match i % 128 with
  | 0 => ⟨S100000x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S100000x64, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x64, .f32⟩
  | 16 => ⟨S_, .f32⟩
  | 17 => ⟨S100000x64, .f32⟩
  | 18 => ⟨S1600000x1, .i32⟩
  | 19 => ⟨S100000x64, .f32⟩
  | 20 => ⟨S100000x64, .f32⟩
  | 21 => ⟨S1x64, .f32⟩
  | 22 => ⟨S100000x64, .f32⟩
  | 23 => ⟨S100000x64, .f32⟩
  | 24 => ⟨S100000x64, .f32⟩
  | 25 => ⟨S100000x64, .f32⟩
  | 26 => ⟨S1x64, .f32⟩
  | 27 => ⟨S64, .f32⟩
  | 28 => ⟨S1x64, .f32⟩
  | 29 => ⟨S64, .f32⟩
  | 30 => ⟨S_, .f32⟩
  | 31 => ⟨S64, .f32⟩
  | 32 => ⟨S_, .f32⟩
  | 33 => ⟨S64, .f32⟩
  | 34 => ⟨S64, .f32⟩
  | 35 => ⟨S1x64, .f32⟩
  | 36 => ⟨S100000x64, .f32⟩
  | 37 => ⟨S100000x64, .f32⟩
  | 38 => ⟨S100000x64, .f32⟩
  | 39 => ⟨S_, .f32⟩
  | 40 => ⟨S64, .f32⟩
  | 41 => ⟨S_, .f32⟩
  | 42 => ⟨S64, .f32⟩
  | 43 => ⟨S64, .f32⟩
  | 44 => ⟨S1x64, .f32⟩
  | 45 => ⟨S100000x64, .f32⟩
  | 46 => ⟨S100000x64, .f32⟩
  | 47 => ⟨S_, .f32⟩
  | 48 => ⟨S64, .f32⟩
  | 49 => ⟨S64, .f32⟩
  | 50 => ⟨S64, .f32⟩
  | 51 => ⟨S1x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S_, .f32⟩
  | 61 => ⟨S100000x64, .f32⟩
  | 62 => ⟨S100000x64, .i1⟩
  | 63 => ⟨S_, .f32⟩
  | 64 => ⟨S100000x64, .f32⟩
  | 65 => ⟨S100000x64, .i1⟩
  | 66 => ⟨S_, .f32⟩
  | 67 => ⟨S_, .f32⟩
  | 68 => ⟨S100000x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .f32⟩
  | 76 => ⟨S2048x64, .f32⟩
  | 77 => ⟨S100000x1, .i32⟩
  | 78 => ⟨S2048x64, .f32⟩
  | 79 => ⟨S_, .f32⟩
  | 80 => ⟨S100000x1, .f32⟩
  | 81 => ⟨S_, .f32⟩
  | 82 => ⟨S2048x1, .f32⟩
  | 83 => ⟨S100000x1, .i32⟩
  | 84 => ⟨S2048x1, .f32⟩
  | 85 => ⟨S_, .f32⟩
  | 86 => ⟨S2048x1, .f32⟩
  | 87 => ⟨S2048x1, .f32⟩
  | 88 => ⟨S2048x64, .f32⟩
  | 89 => ⟨S2048x64, .f32⟩
  | 90 => ⟨S2048x16, .f32⟩
  | 91 => ⟨S1x16, .f32⟩
  | 92 => ⟨S2048x16, .f32⟩
  | 93 => ⟨S2048x16, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_9 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call0_cst : Ref sig .tc := ⟨.hbm, 91, rfl⟩
abbrev main_call0_v0 : Ref sig .tc := ⟨.hbm, 92, rfl⟩
abbrev main_call0_v1 : Ref sig .tc := ⟨.hbm, 93, rfl⟩
abbrev main_call0_cst_0 : Ref sig .tc := ⟨.hbm, 94, rfl⟩
abbrev main_call0_v2 : Ref sig .tc := ⟨.hbm, 95, rfl⟩
abbrev main_call0_v3 : Ref sig .tc := ⟨.hbm, 96, rfl⟩
abbrev main_call0_cst_1 : Ref sig .tc := ⟨.hbm, 97, rfl⟩
abbrev main_call0_call0_v0 : Ref sig .tc := ⟨.hbm, 98, rfl⟩
abbrev main_call0_call0_v1 : Ref sig .tc := ⟨.hbm, 99, rfl⟩
abbrev main_call0_v4 : Ref sig .tc := ⟨.hbm, 100, rfl⟩
abbrev main_call0_v5 : Ref sig .tc := ⟨.hbm, 101, rfl⟩
abbrev main_call0_cst_2 : Ref sig .tc := ⟨.hbm, 102, rfl⟩
abbrev main_call0_v6 : Ref sig .tc := ⟨.hbm, 103, rfl⟩
abbrev main_call0_v7 : Ref sig .tc := ⟨.hbm, 104, rfl⟩
abbrev main_v60 : Ref sig .tc := ⟨.hbm, 105, rfl⟩
abbrev main_c_10 : Ref sig .tc := ⟨.hbm, 106, rfl⟩
abbrev main_v61 : Ref sig .tc := ⟨.hbm, 107, rfl⟩
abbrev main_v62 : Ref sig .tc := ⟨.hbm, 108, rfl⟩
abbrev main_c_11 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_12 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_13 : Ref sig .tc := ⟨.hbm, 119, rfl⟩
abbrev main_v71 : Ref sig .tc := ⟨.hbm, 120, rfl⟩
abbrev main_cst_14 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_cst_15 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_16 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_17 : Ref sig .tc := ⟨.hbm, 144, rfl⟩
abbrev main_v92 : Ref sig .tc := ⟨.hbm, 145, rfl⟩
abbrev main_cst_18 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_19 : Ref sig .tc := ⟨.hbm, 153, rfl⟩
abbrev main_v99 : Ref sig .tc := ⟨.hbm, 154, rfl⟩
abbrev main_cst_20 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_cst_21 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_call1_cst : Ref sig .tc := ⟨.hbm, 174, rfl⟩
abbrev main_call1_v0 : Ref sig .tc := ⟨.hbm, 175, rfl⟩
abbrev main_call1_v1 : Ref sig .tc := ⟨.hbm, 176, rfl⟩
abbrev main_call1_cst_0 : Ref sig .tc := ⟨.hbm, 177, rfl⟩
abbrev main_call1_v2 : Ref sig .tc := ⟨.hbm, 178, rfl⟩
abbrev main_call1_v3 : Ref sig .tc := ⟨.hbm, 179, rfl⟩
abbrev main_call1_cst_1 : Ref sig .tc := ⟨.hbm, 180, rfl⟩
abbrev main_call1_call0_v0 : Ref sig .tc := ⟨.hbm, 181, rfl⟩
abbrev main_call1_call0_v1 : Ref sig .tc := ⟨.hbm, 182, rfl⟩
abbrev main_call1_v4 : Ref sig .tc := ⟨.hbm, 183, rfl⟩
abbrev main_call1_v5 : Ref sig .tc := ⟨.hbm, 184, rfl⟩
abbrev main_call1_cst_2 : Ref sig .tc := ⟨.hbm, 185, rfl⟩
abbrev main_call1_v6 : Ref sig .tc := ⟨.hbm, 186, rfl⟩
abbrev main_call1_v7 : Ref sig .tc := ⟨.hbm, 187, rfl⟩
abbrev main_v117 : Ref sig .tc := ⟨.hbm, 188, rfl⟩
abbrev main_c_22 : Ref sig .tc := ⟨.hbm, 189, rfl⟩
abbrev main_v118 : Ref sig .tc := ⟨.hbm, 190, rfl⟩
abbrev main_v119 : Ref sig .tc := ⟨.hbm, 191, rfl⟩
abbrev main_c_23 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_cst_24 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_call2_cst : Ref sig .tc := ⟨.hbm, 207, rfl⟩
abbrev main_call2_v0 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_cst_25 : Ref sig .tc := ⟨.hbm, 218, rfl⟩
abbrev main_v142 : Ref sig .tc := ⟨.hbm, 219, rfl⟩
abbrev main_cst_26 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_cst_27 : Ref sig .tc := ⟨.hbm, 227, rfl⟩
abbrev main_v149 : Ref sig .tc := ⟨.hbm, 228, rfl⟩
abbrev main_cst_28 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_cst_29 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_call3_cst : Ref sig .tc := ⟨.hbm, 248, rfl⟩
abbrev main_call3_v0 : Ref sig .tc := ⟨.hbm, 249, rfl⟩
abbrev main_call3_v1 : Ref sig .tc := ⟨.hbm, 250, rfl⟩
abbrev main_call3_cst_0 : Ref sig .tc := ⟨.hbm, 251, rfl⟩
abbrev main_call3_v2 : Ref sig .tc := ⟨.hbm, 252, rfl⟩
abbrev main_call3_v3 : Ref sig .tc := ⟨.hbm, 253, rfl⟩
abbrev main_call3_cst_1 : Ref sig .tc := ⟨.hbm, 254, rfl⟩
abbrev main_call3_call0_v0 : Ref sig .tc := ⟨.hbm, 255, rfl⟩
abbrev main_call3_call0_v1 : Ref sig .tc := ⟨.hbm, 256, rfl⟩
abbrev main_call3_v4 : Ref sig .tc := ⟨.hbm, 257, rfl⟩
abbrev main_call3_v5 : Ref sig .tc := ⟨.hbm, 258, rfl⟩
abbrev main_call3_cst_2 : Ref sig .tc := ⟨.hbm, 259, rfl⟩
abbrev main_call3_v6 : Ref sig .tc := ⟨.hbm, 260, rfl⟩
abbrev main_call3_v7 : Ref sig .tc := ⟨.hbm, 261, rfl⟩
abbrev main_v167 : Ref sig .tc := ⟨.hbm, 262, rfl⟩
abbrev main_c_30 : Ref sig .tc := ⟨.hbm, 263, rfl⟩
abbrev main_v168 : Ref sig .tc := ⟨.hbm, 264, rfl⟩
abbrev main_v169 : Ref sig .tc := ⟨.hbm, 265, rfl⟩
abbrev main_c_31 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_v174 : Ref sig .tc := ⟨.hbm, 271, rfl⟩
abbrev main_cst_32 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_cst_33 : Ref sig .tc := ⟨.hbm, 286, rfl⟩
abbrev main_v188 : Ref sig .tc := ⟨.hbm, 287, rfl⟩
abbrev main_cst_34 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_cst_35 : Ref sig .tc := ⟨.hbm, 295, rfl⟩
abbrev main_v195 : Ref sig .tc := ⟨.hbm, 296, rfl⟩
abbrev main_cst_36 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_v200 : Ref sig .tc := ⟨.hbm, 302, rfl⟩
abbrev main_cst_37 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_call4_cst : Ref sig .tc := ⟨.hbm, 316, rfl⟩
abbrev main_call4_v0 : Ref sig .tc := ⟨.hbm, 317, rfl⟩
abbrev main_call4_v1 : Ref sig .tc := ⟨.hbm, 318, rfl⟩
abbrev main_call4_cst_0 : Ref sig .tc := ⟨.hbm, 319, rfl⟩
abbrev main_call4_v2 : Ref sig .tc := ⟨.hbm, 320, rfl⟩
abbrev main_call4_v3 : Ref sig .tc := ⟨.hbm, 321, rfl⟩
abbrev main_call4_cst_1 : Ref sig .tc := ⟨.hbm, 322, rfl⟩
abbrev main_call4_call0_v0 : Ref sig .tc := ⟨.hbm, 323, rfl⟩
abbrev main_call4_call0_v1 : Ref sig .tc := ⟨.hbm, 324, rfl⟩
abbrev main_call4_v4 : Ref sig .tc := ⟨.hbm, 325, rfl⟩
abbrev main_call4_v5 : Ref sig .tc := ⟨.hbm, 326, rfl⟩
abbrev main_call4_cst_2 : Ref sig .tc := ⟨.hbm, 327, rfl⟩
abbrev main_call4_v6 : Ref sig .tc := ⟨.hbm, 328, rfl⟩
abbrev main_call4_v7 : Ref sig .tc := ⟨.hbm, 329, rfl⟩
abbrev main_v213 : Ref sig .tc := ⟨.hbm, 330, rfl⟩
abbrev main_cst_38 : Ref sig .tc := ⟨.hbm, 331, rfl⟩
abbrev main_v214 : Ref sig .tc := ⟨.hbm, 332, rfl⟩
abbrev main_v215 : Ref sig .tc := ⟨.hbm, 333, rfl⟩
abbrev main_v216 : Ref sig .tc := ⟨.hbm, 334, rfl⟩
abbrev main_cst_39 : Ref sig .tc := ⟨.hbm, 335, rfl⟩
abbrev main_v217 : Ref sig .tc := ⟨.hbm, 336, rfl⟩
abbrev main_cst_40 : Ref sig .tc := ⟨.hbm, 337, rfl⟩
abbrev main_v218 : Ref sig .tc := ⟨.hbm, 338, rfl⟩
abbrev main_v219 : Ref sig .tc := ⟨.hbm, 339, rfl⟩
abbrev main_v220 : Ref sig .tc := ⟨.hbm, 340, rfl⟩
abbrev main_cst_41 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩
abbrev main_v224 : Ref sig .tc := ⟨.hbm, 345, rfl⟩
abbrev main_v225 : Ref sig .tc := ⟨.hbm, 346, rfl⟩
abbrev main_v226 : Ref sig .tc := ⟨.hbm, 347, rfl⟩
abbrev main_v227 : Ref sig .tc := ⟨.hbm, 348, rfl⟩
abbrev main_v228 : Ref sig .tc := ⟨.hbm, 349, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64_S1x64_0_0 : S4x64.Slices ![0, 0] S1x64
  shapeCasts_S1x64_S64 : S1x64.ShapeCasts S64
  reducesTo_S100000x64_S64_d0 : S100000x64.ReducesTo [0] S64
  h_S_ : 0 < S_.numel
  bcast_S_S64 : S_.BroadcastsInDim S64 (![] : Fin 0 → Fin S64.rank)
  slices_S4x64_S1x64_1_0 : S4x64.Slices ![1, 0] S1x64
  slices_S4x64_S1x64_2_0 : S4x64.Slices ![2, 0] S1x64
  slices_S4x64_S1x64_3_0 : S4x64.Slices ![3, 0] S1x64
  bcast_S_S2048x64 : S_.BroadcastsInDim S2048x64 (![] : Fin 0 → Fin S2048x64.rank)
  bcast_S100000_S100000x1_0 : S100000.BroadcastsInDim S100000x1 (![0] : Fin 1 → Fin S100000x1.rank)
  bcast_S_S2048x1 : S_.BroadcastsInDim S2048x1 (![] : Fin 0 → Fin S2048x1.rank)
  bcast_S2048x1_S2048x64_0_1 : S2048x1.BroadcastsInDim S2048x64 (![0, 1] : Fin 2 → Fin S2048x64.rank)
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x64_S100000x64_1_0_0_1_n_n_wf : DotDims.WF S100000x64 S64x64 S100000x64 [1] [0] [0] [1] [] []
  scatter_S2048x64_S100000x1_S100000x64_1_0_0_1_wf : ScatterDims.WF S2048x64 S100000x1 S100000x64 [1] [0] [0] 1
  scatter_S2048x1_S100000x1_S100000x1_1_0_0_1_wf : ScatterDims.WF S2048x1 S100000x1 S100000x1 [1] [0] [0] 1
  dot_S2048x64_S64x16_S2048x16_1_0_0_1_n_n_wf : DotDims.WF S2048x64 S64x16 S2048x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def scatter_S2048x1_S100000x1_S100000x1_1_0_0_1 : ScatterDims S2048x1 S100000x1 S100000x1 where
  updateWindowDims := [1]
  insertedWindowDims := [0]
  scatterDimsToOperandDims := [0]
  indexVectorDim := 1
  wf := scatter_S2048x1_S100000x1_S100000x1_1_0_0_1_wf
def dot_S2048x64_S64x16_S2048x16_1_0_0_1_n_n : DotDims S2048x64 S64x16 S2048x16 where
  lhsContracting := [1]
  rhsContracting := [0]
  lhsNonContracting := [0]
  rhsNonContracting := [1]
  lhsBatch := []
  rhsBatch := []
  wf := dot_S2048x64_S64x16_S2048x16_1_0_0_1_n_n_wf

class Facts : Prop extends Facts₀ where

variable [Facts]
-- ==== Proof.KRun.lean ====
/-
  The idealized kernel program's run with its RESULT named. The program is nine tiled regions among stretches of
  host operations; the buffer contents at each of the eighteen boundaries are a fold from the launch memory
  (a stretch applies its operations, a region replaces its arrays by what its write-backs leave). Every weakly
  fair execution ends with every unscoped buffer at the last boundary's contents; read at the result buffer this
  names the program's [2048, 16] result, and read at the arguments it gives them back as launched.
-/
import proofs.«175823_j87351044866594_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, faultless, with the result buffer at the last boundary's contents
    and the argument arrays as launched. -/
theorem run_value : θ_run defs (onTc (τ := τ) (main (F := F))) ⟨m, fun _ => 0, ρ⟩ (fun r => ∀ c : Dev nD,
      r.2.mem ((c.tc : Thread nD τ).loc main_v166) = W18 m ρ c (Proc.devRef .tc main_v166)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v166 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c),
       (h c _ (mem_uc main_arg18 (by decide))).trans (W18_main_arg18 m ρ c)⟩)

end Cert.KernelIdeal.KRun

end
-- ==== Proof.RefOps.lean ====
import proofs.«175823_j87351044866594_1_alg».proof.Proof.Gen.ReferenceIdeal
import Idealize.ShloMosaic.Lib.StableHlo.Run

/-! The operations of the reference's @main, as a table: its 268 own host operations in program order,
    as 14 consecutive literal lists p0, p1, ... (statement numbers from 0; the calls of @elu and @relu, at statements
    72, 141, 160, 199, 253, are not operations of @main and end a list), and beside each list pK the list wK of the
    references its operations write, in the same order. No proof here. -/

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- @main's statements 0 … 37. -/
abbrev p0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_1 (constant S_ .f32 0x3F800000#32),
    StableHlo.unary main_cst_1 main_v14 (broadcastInDim S1600000x1 ![] bcast_S_S1600000x1 : (⟨S_, .f32⟩ : BufTy).Contents (Elt F) → (⟨S1600000x1, .f32⟩ : BufTy).Contents (Elt F)),
    StableHlo.nullary main_cst_2 (constant S_ .f32 0x00000000#32),
    StableHlo.unary main_cst_2 main_v15 (broadcastInDim S100000x1 ![] bcast_S_S100000x1 : (⟨S_, .f32⟩ : BufTy).Contents (Elt F) → (⟨S100000x1, .f32⟩ : BufTy).Contents (Elt F)),
    StableHlo.unary main_v3 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.nullary main_cst_3 (constant S_ .f32 0x3F800000#32),
    StableHlo.unary main_cst_3 main_v18 (broadcastInDim S100000x1 ![] bcast_S_S100000x1 : (⟨S_, .f32⟩ : BufTy).Contents (Elt F) → (⟨S100000x1, .f32⟩ : BufTy).Contents (Elt F)),
    StableHlo.binary main_v17 main_v18 main_v19 (maximumf : (⟨S100000x1, .f32⟩ : BufTy).Contents (Elt F) → (⟨S100000x1, .f32⟩ : BufTy).Contents (Elt F) → (⟨S100000x1, .f32⟩ : BufTy).Contents (Elt F)),
    StableHlo.unary main_v19 main_v20 (broadcastInDim S100000x64 ![0, 1] bcast_S100000x1_S100000x64_0_1 : (⟨S100000x1, .f32⟩ : BufTy).Contents (Elt F) → (⟨S100000x64, .f32⟩ : BufTy).Contents (Elt F)),
    StableHlo.binary main_v13 main_v20 main_v21 (Host.divf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x00000000#32),
    StableHlo.unary main_cst_4 main_v22 (broadcastInDim S100000x1 ![] bcast_S_S100000x1 : (⟨S_, .f32⟩ : BufTy).Contents (Elt F) → (⟨S100000x1, .f32⟩ : BufTy).Contents (Elt F)),
    StableHlo.binary main_v17 main_v22 main_v23 (cmpf .ogt : (⟨S100000x1, .f32⟩ : BufTy).Contents (Elt F) → (⟨S100000x1, .f32⟩ : BufTy).Contents (Elt F) → (⟨S100000x1, .i1⟩ : BufTy).Contents (Elt F)),
    StableHlo.unary main_v23 main_v24 (uitofp .f32 : (⟨S100000x1, .i1⟩ : BufTy).Contents (Elt F) → (⟨S100000x1, .f32⟩ : BufTy).Contents (Elt F)),
    StableHlo.binary main_v21 main_arg3 main_v25 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S100000x64 ![0, 1] bcast_S1x64_S100000x64_0_1 : (⟨S1x64, .f32⟩ : BufTy).Contents (Elt F) → (⟨S100000x64, .f32⟩ : BufTy).Contents (Elt F)),
    StableHlo.unary main_v24 main_v28 (broadcastInDim S100000x64 ![0, 1] bcast_S100000x1_S100000x64_0_1 : (⟨S100000x1, .f32⟩ : BufTy).Contents (Elt F) → (⟨S100000x64, .f32⟩ : BufTy).Contents (Elt F)),
    StableHlo.binary main_v27 main_v28 main_v29 (mulf : (⟨S100000x64, .f32⟩ : BufTy).Contents (Elt F) → (⟨S100000x64, .f32⟩ : BufTy).Contents (Elt F) → (⟨S100000x64, .f32⟩ : BufTy).Contents (Elt F)),
    StableHlo.binary main_v25 main_v29 main_v30 (addf : (⟨S100000x64, .f32⟩ : BufTy).Contents (Elt F) → (⟨S100000x64, .f32⟩ : BufTy).Contents (Elt F) → (⟨S100000x64, .f32⟩ : BufTy).Contents (Elt F)) ]

/-- What statements 0 … 37 write. -/
abbrev w0 : List (Ref sig .tc) :=
  [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_cst_4, main_v22, main_v23, main_v24, main_v25, main_v26, main_v27, main_v28, main_v29, main_v30]

/-- @main's statements 38 … 59. -/
abbrev p1 : List (HloOp τ sig (Elt F)) :=
  [ StableHlo.unary main_arg15 main_v31 ((extractStridedSlice S1x64 ![0, 0] · slices_S4x64_S1x64_0_0) : (⟨S4x64, .f32⟩ : BufTy).Contents (Elt F) → (⟨S1x64, .f32⟩ : BufTy).Contents (Elt F)),
    StableHlo.reshape main_v31 main_v32 rfl shapeCasts_S1x64_S64,
    StableHlo.unary main_arg16 main_v33 ((extractStridedSlice S1x64 ![0, 0] · slices_S4x64_S1x64_0_0) : (⟨S4x64, .f32⟩ : BufTy).Contents (Elt F) → (⟨S1x64, .f32⟩ : BufTy).Contents (Elt F)),
    StableHlo.reshape main_v33 main_v34 rfl shapeCasts_S1x64_S64,
    StableHlo.nullary main_cst_5 (constant S_ .f32 0x00000000#32),
    StableHlo.binary main_v30 main_cst_5 main_v35 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_6 (constant S_ .f32 0x47C35000#32),
    StableHlo.unary main_cst_6 main_v36 (broadcastInDim S64 ![] bcast_S_S64 : (⟨S_, .f32⟩ : BufTy).Contents (Elt F) → (⟨S64, .f32⟩ : BufTy).Contents (Elt F)),
    StableHlo.binary main_v35 main_v36 main_v37 (Host.divf : (⟨S64, .f32⟩ : BufTy).Contents (Elt F) → (⟨S64, .f32⟩ : BufTy).Contents (Elt F) → (⟨S64, .f32⟩ : BufTy).Contents (Elt F)),
    StableHlo.unary main_v37 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S100000x64 ![0, 1] bcast_S1x64_S100000x64_0_1 : (⟨S1x64, .f32⟩ : BufTy).Contents (Elt F) → (⟨S100000x64, .f32⟩ : BufTy).Contents (Elt F)),
    StableHlo.binary main_v30 main_v39 main_v40 (subf : (⟨S100000x64, .f32⟩ : BufTy).Contents (Elt F) → (⟨S100000x64, .f32⟩ : BufTy).Contents (Elt F) → (⟨S100000x64, .f32⟩ : BufTy).Contents (Elt F)),
    StableHlo.binary main_v40 main_v40 main_v41 (mulf : (⟨S100000x64, .f32⟩ : BufTy).Contents (Elt F) → (⟨S100000x64, .f32⟩ : BufTy).Contents (Elt F) → (⟨S100000x64, .f32⟩ : BufTy).Contents (Elt F)),
    StableHlo.nullary main_cst_7 (constant S_ .f32 0x00000000#32),
    StableHlo.binary main_v41 main_cst_7 main_v42 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_8 (constant S_ .f32 0x47C35000#32),
    StableHlo.unary main_cst_8 main_v43 (broadcastInDim S64 ![] bcast_S_S64 : (⟨S_, .f32⟩ : BufTy).Contents (Elt F) → (⟨S64, .f32⟩ : BufTy).Contents (Elt F)),
    StableHlo.binary main_v42 main_v43 main_v44 (Host.divf : (⟨S64, .f32⟩ : BufTy).Contents (Elt F) → (⟨S64, .f32⟩ : BufTy).Contents (Elt F) → (⟨S64, .f32⟩ : BufTy).Contents (Elt F)),
    StableHlo.unary main_v37 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v30 main_v46 main_v47 (subf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3727C5AC#32) ]

/-- What statements 38 … 59 write. -/
abbrev w1 : List (Ref sig .tc) :=
  [main_v31, main_v32, main_v33, main_v34, main_cst_5, main_v35, main_cst_6, main_v36, main_v37, main_v38, main_v39, main_v40, main_v41, main_cst_7, main_v42, main_cst_8, main_v43, main_v44, main_v45, main_v46, main_v47, main_cst_9]

/-- @main's statements 60 … 71. -/
abbrev p2 : List (HloOp τ sig (Elt F)) :=
  [ StableHlo.unary main_cst_9 main_v48 (broadcastInDim S64 ![] bcast_S_S64 : (⟨S_, .f32⟩ : BufTy).Contents (Elt F) → (⟨S64, .f32⟩ : BufTy).Contents (Elt F)),
    StableHlo.binary main_v44 main_v48 main_v49 (addf : (⟨S64, .f32⟩ : BufTy).Contents (Elt F) → (⟨S64, .f32⟩ : BufTy).Contents (Elt F) → (⟨S64, .f32⟩ : BufTy).Contents (Elt F)),
    StableHlo.unary main_v49 main_v50 (Host.rsqrt : (⟨S64, .f32⟩ : BufTy).Contents (Elt F) → (⟨S64, .f32⟩ : BufTy).Contents (Elt F)),
    StableHlo.unary main_v50 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S100000x64 ![0, 1] bcast_S1x64_S100000x64_0_1 : (⟨S1x64, .f32⟩ : BufTy).Contents (Elt F) → (⟨S100000x64, .f32⟩ : BufTy).Contents (Elt F)),
    StableHlo.binary main_v47 main_v52 main_v53 (mulf : (⟨S100000x64, .f32⟩ : BufTy).Contents (Elt F) → (⟨S100000x64, .f32⟩ : BufTy).Contents (Elt F) → (⟨S100000x64, .f32⟩ : BufTy).Contents (Elt F)),
    StableHlo.unary main_v32 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S100000x64 ![0, 1] bcast_S1x64_S100000x64_0_1 : (⟨S1x64, .f32⟩ : BufTy).Contents (Elt F) → (⟨S100000x64, .f32⟩ : BufTy).Contents (Elt F)),
    StableHlo.binary main_v53 main_v55 main_v56 (mulf : (⟨S100000x64, .f32⟩ : BufTy).Contents (Elt F) → (⟨S100000x64, .f32⟩ : BufTy).Contents (Elt F) → (⟨S100000x64, .f32⟩ : BufTy).Contents (Elt F)),
    StableHlo.unary main_v34 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S100000x64 ![0, 1] bcast_S1x64_S100000x64_0_1 : (⟨S1x64, .f32⟩ : BufTy).Contents (Elt F) → (⟨S100000x64, .f32⟩ : BufTy).Contents (Elt F)),
    StableHlo.binary main_v56 main_v58 main_v59 (addf : (⟨S100000x64, .f32⟩ : BufTy).Contents (Elt F) → (⟨S100000x64, .f32⟩ : BufTy).Contents (Elt F) → (⟨S100000x64, .f32⟩ : BufTy).Contents (Elt F)) ]

/-- What statements 60 … 71 write. -/
abbrev w2 : List (Ref sig .tc) :=
  [main_v48, main_v49, main_v50, main_v51, main_v52, main_v53, main_v54, main_v55, main_v56, main_v57, main_v58, main_v59]

/-- @main's statements 73 … 106. -/
abbrev p3 : List (HloOp τ sig (Elt F)) :=
  [ StableHlo.nullary main_c_10 (constantI S_ 32 0#32),
    StableHlo.unary main_c_10 main_v61 (broadcastInDim S1600000 ![] bcast_S_S1600000 : (⟨S_, .i32⟩ : BufTy).Contents (Elt F) → (⟨S1600000, .i32⟩ : BufTy).Contents (Elt F)),
    StableHlo.binary main_v1 main_v61 main_v62 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v63 (broadcastInDim S1600000 ![] bcast_S_S1600000 : (⟨S_, .i32⟩ : BufTy).Contents (Elt F) → (⟨S1600000, .i32⟩ : BufTy).Contents (Elt F)),
    StableHlo.binary main_v1 main_v63 main_v64 (addi : (⟨S1600000, .i32⟩ : BufTy).Contents (Elt F) → (⟨S1600000, .i32⟩ : BufTy).Contents (Elt F) → (⟨S1600000, .i32⟩ : BufTy).Contents (Elt F)),
    StableHlo.ternary main_v62 main_v64 main_v1 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v65 main_v66 (broadcastInDim S1600000x1 ![0] bcast_S1600000_S1600000x1_0 : (⟨S1600000, .i32⟩ : BufTy).Contents (Elt F) → (⟨S1600000x1, .i32⟩ : BufTy).Contents (Elt F)),
    StableHlo.binary main_v60 main_v66 main_v67 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_12 (constant S_ .f32 0x00000000#32),
    StableHlo.unary main_cst_12 main_v68 (broadcastInDim S100000x64 ![] bcast_S_S100000x64 : (⟨S_, .f32⟩ : BufTy).Contents (Elt F) → (⟨S100000x64, .f32⟩ : BufTy).Contents (Elt F)),
    StableHlo.unary main_v3 main_v69 (broadcastInDim S1600000x1 ![0] bcast_S1600000_S1600000x1_0 : (⟨S1600000, .i32⟩ : BufTy).Contents (Elt F) → (⟨S1600000x1, .i32⟩ : BufTy).Contents (Elt F)),
    StableHlo.ternary main_v68 main_v69 main_v67 main_v70 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_13 (constant S_ .f32 0x3F800000#32),
    StableHlo.unary main_cst_13 main_v71 (broadcastInDim S1600000x1 ![] bcast_S_S1600000x1 : (⟨S_, .f32⟩ : BufTy).Contents (Elt F) → (⟨S1600000x1, .f32⟩ : BufTy).Contents (Elt F)),
    StableHlo.nullary main_cst_14 (constant S_ .f32 0x00000000#32),
    StableHlo.unary main_cst_14 main_v72 (broadcastInDim S100000x1 ![] bcast_S_S100000x1 : (⟨S_, .f32⟩ : BufTy).Contents (Elt F) → (⟨S100000x1, .f32⟩ : BufTy).Contents (Elt F)),
    StableHlo.unary main_v3 main_v73 (broadcastInDim S1600000x1 ![0] bcast_S1600000_S1600000x1_0 : (⟨S1600000, .i32⟩ : BufTy).Contents (Elt F) → (⟨S1600000x1, .i32⟩ : BufTy).Contents (Elt F)),
    StableHlo.ternary main_v72 main_v73 main_v71 main_v74 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.nullary main_cst_15 (constant S_ .f32 0x3F800000#32),
    StableHlo.unary main_cst_15 main_v75 (broadcastInDim S100000x1 ![] bcast_S_S100000x1 : (⟨S_, .f32⟩ : BufTy).Contents (Elt F) → (⟨S100000x1, .f32⟩ : BufTy).Contents (Elt F)),
    StableHlo.binary main_v74 main_v75 main_v76 (maximumf : (⟨S100000x1, .f32⟩ : BufTy).Contents (Elt F) → (⟨S100000x1, .f32⟩ : BufTy).Contents (Elt F) → (⟨S100000x1, .f32⟩ : BufTy).Contents (Elt F)),
    StableHlo.unary main_v76 main_v77 (broadcastInDim S100000x64 ![0, 1] bcast_S100000x1_S100000x64_0_1 : (⟨S100000x1, .f32⟩ : BufTy).Contents (Elt F) → (⟨S100000x64, .f32⟩ : BufTy).Contents (Elt F)),
    StableHlo.binary main_v70 main_v77 main_v78 (Host.divf : (⟨S100000x64, .f32⟩ : BufTy).Contents (Elt F) → (⟨S100000x64, .f32⟩ : BufTy).Contents (Elt F) → (⟨S100000x64, .f32⟩ : BufTy).Contents (Elt F)),
    StableHlo.nullary main_cst_16 (constant S_ .f32 0x00000000#32),
    StableHlo.unary main_cst_16 main_v79 (broadcastInDim S100000x1 ![] bcast_S_S100000x1 : (⟨S_, .f32⟩ : BufTy).Contents (Elt F) → (⟨S100000x1, .f32⟩ : BufTy).Contents (Elt F)),
    StableHlo.binary main_v74 main_v79 main_v80 (cmpf .ogt : (⟨S100000x1, .f32⟩ : BufTy).Contents (Elt F) → (⟨S100000x1, .f32⟩ : BufTy).Contents (Elt F) → (⟨S100000x1, .i1⟩ : BufTy).Contents (Elt F)),
    StableHlo.unary main_v80 main_v81 (uitofp .f32 : (⟨S100000x1, .i1⟩ : BufTy).Contents (Elt F) → (⟨S100000x1, .f32⟩ : BufTy).Contents (Elt F)),
    StableHlo.binary main_v78 main_arg5 main_v82 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S100000x64 ![0, 1] bcast_S1x64_S100000x64_0_1 : (⟨S1x64, .f32⟩ : BufTy).Contents (Elt F) → (⟨S100000x64, .f32⟩ : BufTy).Contents (Elt F)),
    StableHlo.binary main_v82 main_v84 main_v85 (addf : (⟨S100000x64, .f32⟩ : BufTy).Contents (Elt F) → (⟨S100000x64, .f32⟩ : BufTy).Contents (Elt F) → (⟨S100000x64, .f32⟩ : BufTy).Contents (Elt F)),
    StableHlo.binary main_v60 main_arg7 main_v86 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v85 main_v86 main_v87 (addf : (⟨S100000x64, .f32⟩ : BufTy).Contents (Elt F) → (⟨S100000x64, .f32⟩ : BufTy).Contents (Elt F) → (⟨S100000x64, .f32⟩ : BufTy).Contents (Elt F)) ]

/-- What statements 73 … 106 write. -/
abbrev w3 : List (Ref sig .tc) :=
  [main_c_10, main_v61, main_v62, main_c_11, main_v63, main_v64, main_v65, main_v66, main_v67, main_cst_12, main_v68, main_v69, main_v70, main_cst_13, main_v71, main_cst_14, main_v72, main_v73, main_v74, main_cst_15, main_v75, main_v76, main_v77, main_v78, main_cst_16, main_v79, main_v80, main_v81, main_v82, main_v83, main_v84, main_v85, main_v86, main_v87]

/-- @main's statements 107 … 119. -/
abbrev p4 : List (HloOp τ sig (Elt F)) :=
  [ StableHlo.unary main_arg15 main_v88 ((extractStridedSlice S1x64 ![1, 0] · slices_S4x64_S1x64_1_0) : (⟨S4x64, .f32⟩ : BufTy).Contents (Elt F) → (⟨S1x64, .f32⟩ : BufTy).Contents (Elt F)),
    StableHlo.reshape main_v88 main_v89 rfl shapeCasts_S1x64_S64,
    StableHlo.unary main_arg16 main_v90 ((extractStridedSlice S1x64 ![1, 0] · slices_S4x64_S1x64_1_0) : (⟨S4x64, .f32⟩ : BufTy).Contents (Elt F) → (⟨S1x64, .f32⟩ : BufTy).Contents (Elt F)),
    StableHlo.reshape main_v90 main_v91 rfl shapeCasts_S1x64_S64,
    StableHlo.nullary main_cst_17 (constant S_ .f32 0x00000000#32),
    StableHlo.binary main_v87 main_cst_17 main_v92 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_18 (constant S_ .f32 0x47C35000#32),
    StableHlo.unary main_cst_18 main_v93 (broadcastInDim S64 ![] bcast_S_S64 : (⟨S_, .f32⟩ : BufTy).Contents (Elt F) → (⟨S64, .f32⟩ : BufTy).Contents (Elt F)),
    StableHlo.binary main_v92 main_v93 main_v94 (Host.divf : (⟨S64, .f32⟩ : BufTy).Contents (Elt F) → (⟨S64, .f32⟩ : BufTy).Contents (Elt F) → (⟨S64, .f32⟩ : BufTy).Contents (Elt F)),
    StableHlo.unary main_v94 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S100000x64 ![0, 1] bcast_S1x64_S100000x64_0_1 : (⟨S1x64, .f32⟩ : BufTy).Contents (Elt F) → (⟨S100000x64, .f32⟩ : BufTy).Contents (Elt F)),
    StableHlo.binary main_v87 main_v96 main_v97 (subf : (⟨S100000x64, .f32⟩ : BufTy).Contents (Elt F) → (⟨S100000x64, .f32⟩ : BufTy).Contents (Elt F) → (⟨S100000x64, .f32⟩ : BufTy).Contents (Elt F)),
    StableHlo.binary main_v97 main_v97 main_v98 (mulf : (⟨S100000x64, .f32⟩ : BufTy).Contents (Elt F) → (⟨S100000x64, .f32⟩ : BufTy).Contents (Elt F) → (⟨S100000x64, .f32⟩ : BufTy).Contents (Elt F)) ]

/-- What statements 107 … 119 write. -/
abbrev w4 : List (Ref sig .tc) :=
  [main_v88, main_v89, main_v90, main_v91, main_cst_17, main_v92, main_cst_18, main_v93, main_v94, main_v95, main_v96, main_v97, main_v98]

/-- @main's statements 120 … 140. -/
abbrev p5 : List (HloOp τ sig (Elt F)) :=
  [ StableHlo.nullary main_cst_19 (constant S_ .f32 0x00000000#32),
    StableHlo.binary main_v98 main_cst_19 main_v99 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_20 (constant S_ .f32 0x47C35000#32),
    StableHlo.unary main_cst_20 main_v100 (broadcastInDim S64 ![] bcast_S_S64 : (⟨S_, .f32⟩ : BufTy).Contents (Elt F) → (⟨S64, .f32⟩ : BufTy).Contents (Elt F)),
    StableHlo.binary main_v99 main_v100 main_v101 (Host.divf : (⟨S64, .f32⟩ : BufTy).Contents (Elt F) → (⟨S64, .f32⟩ : BufTy).Contents (Elt F) → (⟨S64, .f32⟩ : BufTy).Contents (Elt F)),
    StableHlo.unary main_v94 main_v102 (broadcastInDim S1x64 ![1] bcast_S64_S1x64_1 : (⟨S64, .f32⟩ : BufTy).Contents (Elt F) → (⟨S1x64, .f32⟩ : BufTy).Contents (Elt F)),
    StableHlo.unary main_v102 main_v103 (broadcastInDim S100000x64 ![0, 1] bcast_S1x64_S100000x64_0_1 : (⟨S1x64, .f32⟩ : BufTy).Contents (Elt F) → (⟨S100000x64, .f32⟩ : BufTy).Contents (Elt F)),
    StableHlo.binary main_v87 main_v103 main_v104 (subf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x3727C5AC#32),
    StableHlo.unary main_cst_21 main_v105 (broadcastInDim S64 ![] bcast_S_S64 : (⟨S_, .f32⟩ : BufTy).Contents (Elt F) → (⟨S64, .f32⟩ : BufTy).Contents (Elt F)),
    StableHlo.binary main_v101 main_v105 main_v106 (addf : (⟨S64, .f32⟩ : BufTy).Contents (Elt F) → (⟨S64, .f32⟩ : BufTy).Contents (Elt F) → (⟨S64, .f32⟩ : BufTy).Contents (Elt F)),
    StableHlo.unary main_v106 main_v107 (Host.rsqrt : (⟨S64, .f32⟩ : BufTy).Contents (Elt F) → (⟨S64, .f32⟩ : BufTy).Contents (Elt F)),
    StableHlo.unary main_v107 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S100000x64 ![0, 1] bcast_S1x64_S100000x64_0_1 : (⟨S1x64, .f32⟩ : BufTy).Contents (Elt F) → (⟨S100000x64, .f32⟩ : BufTy).Contents (Elt F)),
    StableHlo.binary main_v104 main_v109 main_v110 (mulf : (⟨S100000x64, .f32⟩ : BufTy).Contents (Elt F) → (⟨S100000x64, .f32⟩ : BufTy).Contents (Elt F) → (⟨S100000x64, .f32⟩ : BufTy).Contents (Elt F)),
    StableHlo.unary main_v89 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S100000x64 ![0, 1] bcast_S1x64_S100000x64_0_1 : (⟨S1x64, .f32⟩ : BufTy).Contents (Elt F) → (⟨S100000x64, .f32⟩ : BufTy).Contents (Elt F)),
    StableHlo.binary main_v110 main_v112 main_v113 (mulf : (⟨S100000x64, .f32⟩ : BufTy).Contents (Elt F) → (⟨S100000x64, .f32⟩ : BufTy).Contents (Elt F) → (⟨S100000x64, .f32⟩ : BufTy).Contents (Elt F)),
    StableHlo.unary main_v91 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S100000x64 ![0, 1] bcast_S1x64_S100000x64_0_1 : (⟨S1x64, .f32⟩ : BufTy).Contents (Elt F) → (⟨S100000x64, .f32⟩ : BufTy).Contents (Elt F)),
    StableHlo.binary main_v113 main_v115 main_v116 (addf : (⟨S100000x64, .f32⟩ : BufTy).Contents (Elt F) → (⟨S100000x64, .f32⟩ : BufTy).Contents (Elt F) → (⟨S100000x64, .f32⟩ : BufTy).Contents (Elt F)) ]

/-- What statements 120 … 140 write. -/
abbrev w5 : List (Ref sig .tc) :=
  [main_cst_19, main_v99, main_cst_20, main_v100, main_v101, main_v102, main_v103, main_v104, main_cst_21, main_v105, main_v106, main_v107, main_v108, main_v109, main_v110, main_v111, main_v112, main_v113, main_v114, main_v115, main_v116]

/-- @main's statements 142 … 159. -/
abbrev p6 : List (HloOp τ sig (Elt F)) :=
  [ StableHlo.nullary main_c_22 (constantI S_ 32 0#32),
    StableHlo.unary main_c_22 main_v118 (broadcastInDim S1600000 ![] bcast_S_S1600000 : (⟨S_, .i32⟩ : BufTy).Contents (Elt F) → (⟨S1600000, .i32⟩ : BufTy).Contents (Elt F)),
    StableHlo.binary main_v1 main_v118 main_v119 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v120 (broadcastInDim S1600000 ![] bcast_S_S1600000 : (⟨S_, .i32⟩ : BufTy).Contents (Elt F) → (⟨S1600000, .i32⟩ : BufTy).Contents (Elt F)),
    StableHlo.binary main_v1 main_v120 main_v121 (addi : (⟨S1600000, .i32⟩ : BufTy).Contents (Elt F) → (⟨S1600000, .i32⟩ : BufTy).Contents (Elt F) → (⟨S1600000, .i32⟩ : BufTy).Contents (Elt F)),
    StableHlo.ternary main_v119 main_v121 main_v1 main_v122 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v122 main_v123 (broadcastInDim S1600000x1 ![0] bcast_S1600000_S1600000x1_0 : (⟨S1600000, .i32⟩ : BufTy).Contents (Elt F) → (⟨S1600000x1, .i32⟩ : BufTy).Contents (Elt F)),
    StableHlo.binary main_v117 main_v123 main_v124 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_24 (constant S_ .f32 0x00000000#32),
    StableHlo.unary main_cst_24 main_v125 (broadcastInDim S100000x64 ![] bcast_S_S100000x64 : (⟨S_, .f32⟩ : BufTy).Contents (Elt F) → (⟨S100000x64, .f32⟩ : BufTy).Contents (Elt F)),
    StableHlo.unary main_v3 main_v126 (broadcastInDim S1600000x1 ![0] bcast_S1600000_S1600000x1_0 : (⟨S1600000, .i32⟩ : BufTy).Contents (Elt F) → (⟨S1600000x1, .i32⟩ : BufTy).Contents (Elt F)),
    StableHlo.ternary main_v125 main_v126 main_v124 main_v127 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v117 main_v127 main_v128 (addf : (⟨S100000x64, .f32⟩ : BufTy).Contents (Elt F) → (⟨S100000x64, .f32⟩ : BufTy).Contents (Elt F) → (⟨S100000x64, .f32⟩ : BufTy).Contents (Elt F)),
    StableHlo.binary main_v128 main_arg8 main_v129 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S100000x64 ![0, 1] bcast_S1x64_S100000x64_0_1 : (⟨S1x64, .f32⟩ : BufTy).Contents (Elt F) → (⟨S100000x64, .f32⟩ : BufTy).Contents (Elt F)),
    StableHlo.binary main_v129 main_v131 main_v132 (addf : (⟨S100000x64, .f32⟩ : BufTy).Contents (Elt F) → (⟨S100000x64, .f32⟩ : BufTy).Contents (Elt F) → (⟨S100000x64, .f32⟩ : BufTy).Contents (Elt F)) ]

/-- What statements 142 … 159 write. -/
abbrev w6 : List (Ref sig .tc) :=
  [main_c_22, main_v118, main_v119, main_c_23, main_v120, main_v121, main_v122, main_v123, main_v124, main_cst_24, main_v125, main_v126, main_v127, main_v128, main_v129, main_v130, main_v131, main_v132]

/-- @main's statements 161 … 164. -/
abbrev p7 : List (HloOp τ sig (Elt F)) :=
  [ StableHlo.binary main_v133 main_arg10 main_v134 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg11 main_v135 (broadcastInDim S1x64 ![1] bcast_S64_S1x64_1 : (⟨S64, .f32⟩ : BufTy).Contents (Elt F) → (⟨S1x64, .f32⟩ : BufTy).Contents (Elt F)),
    StableHlo.unary main_v135 main_v136 (broadcastInDim S100000x64 ![0, 1] bcast_S1x64_S100000x64_0_1 : (⟨S1x64, .f32⟩ : BufTy).Contents (Elt F) → (⟨S100000x64, .f32⟩ : BufTy).Contents (Elt F)),
    StableHlo.binary main_v134 main_v136 main_v137 (addf : (⟨S100000x64, .f32⟩ : BufTy).Contents (Elt F) → (⟨S100000x64, .f32⟩ : BufTy).Contents (Elt F) → (⟨S100000x64, .f32⟩ : BufTy).Contents (Elt F)) ]

/-- What statements 161 … 164 write. -/
abbrev w7 : List (Ref sig .tc) :=
  [main_v134, main_v135, main_v136, main_v137]

/-- @main's statements 165 … 179. -/
abbrev p8 : List (HloOp τ sig (Elt F)) :=
  [ StableHlo.unary main_arg15 main_v138 ((extractStridedSlice S1x64 ![2, 0] · slices_S4x64_S1x64_2_0) : (⟨S4x64, .f32⟩ : BufTy).Contents (Elt F) → (⟨S1x64, .f32⟩ : BufTy).Contents (Elt F)),
    StableHlo.reshape main_v138 main_v139 rfl shapeCasts_S1x64_S64,
    StableHlo.unary main_arg16 main_v140 ((extractStridedSlice S1x64 ![2, 0] · slices_S4x64_S1x64_2_0) : (⟨S4x64, .f32⟩ : BufTy).Contents (Elt F) → (⟨S1x64, .f32⟩ : BufTy).Contents (Elt F)),
    StableHlo.reshape main_v140 main_v141 rfl shapeCasts_S1x64_S64,
    StableHlo.nullary main_cst_25 (constant S_ .f32 0x00000000#32),
    StableHlo.binary main_v137 main_cst_25 main_v142 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_26 (constant S_ .f32 0x47C35000#32),
    StableHlo.unary main_cst_26 main_v143 (broadcastInDim S64 ![] bcast_S_S64 : (⟨S_, .f32⟩ : BufTy).Contents (Elt F) → (⟨S64, .f32⟩ : BufTy).Contents (Elt F)),
    StableHlo.binary main_v142 main_v143 main_v144 (Host.divf : (⟨S64, .f32⟩ : BufTy).Contents (Elt F) → (⟨S64, .f32⟩ : BufTy).Contents (Elt F) → (⟨S64, .f32⟩ : BufTy).Contents (Elt F)),
    StableHlo.unary main_v144 main_v145 (broadcastInDim S1x64 ![1] bcast_S64_S1x64_1 : (⟨S64, .f32⟩ : BufTy).Contents (Elt F) → (⟨S1x64, .f32⟩ : BufTy).Contents (Elt F)),
    StableHlo.unary main_v145 main_v146 (broadcastInDim S100000x64 ![0, 1] bcast_S1x64_S100000x64_0_1 : (⟨S1x64, .f32⟩ : BufTy).Contents (Elt F) → (⟨S100000x64, .f32⟩ : BufTy).Contents (Elt F)),
    StableHlo.binary main_v137 main_v146 main_v147 (subf : (⟨S100000x64, .f32⟩ : BufTy).Contents (Elt F) → (⟨S100000x64, .f32⟩ : BufTy).Contents (Elt F) → (⟨S100000x64, .f32⟩ : BufTy).Contents (Elt F)),
    StableHlo.binary main_v147 main_v147 main_v148 (mulf : (⟨S100000x64, .f32⟩ : BufTy).Contents (Elt F) → (⟨S100000x64, .f32⟩ : BufTy).Contents (Elt F) → (⟨S100000x64, .f32⟩ : BufTy).Contents (Elt F)),
    StableHlo.nullary main_cst_27 (constant S_ .f32 0x00000000#32),
    StableHlo.binary main_v148 main_cst_27 main_v149 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ]

/-- What statements 165 … 179 write. -/
abbrev w8 : List (Ref sig .tc) :=
  [main_v138, main_v139, main_v140, main_v141, main_cst_25, main_v142, main_cst_26, main_v143, main_v144, main_v145, main_v146, main_v147, main_v148, main_cst_27, main_v149]

/-- @main's statements 180 … 198. -/
abbrev p9 : List (HloOp τ sig (Elt F)) :=
  [ StableHlo.nullary main_cst_28 (constant S_ .f32 0x47C35000#32),
    StableHlo.unary main_cst_28 main_v150 (broadcastInDim S64 ![] bcast_S_S64 : (⟨S_, .f32⟩ : BufTy).Contents (Elt F) → (⟨S64, .f32⟩ : BufTy).Contents (Elt F)),
    StableHlo.binary main_v149 main_v150 main_v151 (Host.divf : (⟨S64, .f32⟩ : BufTy).Contents (Elt F) → (⟨S64, .f32⟩ : BufTy).Contents (Elt F) → (⟨S64, .f32⟩ : BufTy).Contents (Elt F)),
    StableHlo.unary main_v144 main_v152 (broadcastInDim S1x64 ![1] bcast_S64_S1x64_1 : (⟨S64, .f32⟩ : BufTy).Contents (Elt F) → (⟨S1x64, .f32⟩ : BufTy).Contents (Elt F)),
    StableHlo.unary main_v152 main_v153 (broadcastInDim S100000x64 ![0, 1] bcast_S1x64_S100000x64_0_1 : (⟨S1x64, .f32⟩ : BufTy).Contents (Elt F) → (⟨S100000x64, .f32⟩ : BufTy).Contents (Elt F)),
    StableHlo.binary main_v137 main_v153 main_v154 (subf : (⟨S100000x64, .f32⟩ : BufTy).Contents (Elt F) → (⟨S100000x64, .f32⟩ : BufTy).Contents (Elt F) → (⟨S100000x64, .f32⟩ : BufTy).Contents (Elt F)),
    StableHlo.nullary main_cst_29 (constant S_ .f32 0x3727C5AC#32),
    StableHlo.unary main_cst_29 main_v155 (broadcastInDim S64 ![] bcast_S_S64 : (⟨S_, .f32⟩ : BufTy).Contents (Elt F) → (⟨S64, .f32⟩ : BufTy).Contents (Elt F)),
    StableHlo.binary main_v151 main_v155 main_v156 (addf : (⟨S64, .f32⟩ : BufTy).Contents (Elt F) → (⟨S64, .f32⟩ : BufTy).Contents (Elt F) → (⟨S64, .f32⟩ : BufTy).Contents (Elt F)),
    StableHlo.unary main_v156 main_v157 (Host.rsqrt : (⟨S64, .f32⟩ : BufTy).Contents (Elt F) → (⟨S64, .f32⟩ : BufTy).Contents (Elt F)),
    StableHlo.unary main_v157 main_v158 (broadcastInDim S1x64 ![1] bcast_S64_S1x64_1 : (⟨S64, .f32⟩ : BufTy).Contents (Elt F) → (⟨S1x64, .f32⟩ : BufTy).Contents (Elt F)),
    StableHlo.unary main_v158 main_v159 (broadcastInDim S100000x64 ![0, 1] bcast_S1x64_S100000x64_0_1 : (⟨S1x64, .f32⟩ : BufTy).Contents (Elt F) → (⟨S100000x64, .f32⟩ : BufTy).Contents (Elt F)),
    StableHlo.binary main_v154 main_v159 main_v160 (mulf : (⟨S100000x64, .f32⟩ : BufTy).Contents (Elt F) → (⟨S100000x64, .f32⟩ : BufTy).Contents (Elt F) → (⟨S100000x64, .f32⟩ : BufTy).Contents (Elt F)),
    StableHlo.unary main_v139 main_v161 (broadcastInDim S1x64 ![1] bcast_S64_S1x64_1 : (⟨S64, .f32⟩ : BufTy).Contents (Elt F) → (⟨S1x64, .f32⟩ : BufTy).Contents (Elt F)),
    StableHlo.unary main_v161 main_v162 (broadcastInDim S100000x64 ![0, 1] bcast_S1x64_S100000x64_0_1 : (⟨S1x64, .f32⟩ : BufTy).Contents (Elt F) → (⟨S100000x64, .f32⟩ : BufTy).Contents (Elt F)),
    StableHlo.binary main_v160 main_v162 main_v163 (mulf : (⟨S100000x64, .f32⟩ : BufTy).Contents (Elt F) → (⟨S100000x64, .f32⟩ : BufTy).Contents (Elt F) → (⟨S100000x64, .f32⟩ : BufTy).Contents (Elt F)),
    StableHlo.unary main_v141 main_v164 (broadcastInDim S1x64 ![1] bcast_S64_S1x64_1 : (⟨S64, .f32⟩ : BufTy).Contents (Elt F) → (⟨S1x64, .f32⟩ : BufTy).Contents (Elt F)),
    StableHlo.unary main_v164 main_v165 (broadcastInDim S100000x64 ![0, 1] bcast_S1x64_S100000x64_0_1 : (⟨S1x64, .f32⟩ : BufTy).Contents (Elt F) → (⟨S100000x64, .f32⟩ : BufTy).Contents (Elt F)),
    StableHlo.binary main_v163 main_v165 main_v166 (addf : (⟨S100000x64, .f32⟩ : BufTy).Contents (Elt F) → (⟨S100000x64, .f32⟩ : BufTy).Contents (Elt F) → (⟨S100000x64, .f32⟩ : BufTy).Contents (Elt F)) ]

/-- What statements 180 … 198 write. -/
abbrev w9 : List (Ref sig .tc) :=
  [main_cst_28, main_v150, main_v151, main_v152, main_v153, main_v154, main_cst_29, main_v155, main_v156, main_v157, main_v158, main_v159, main_v160, main_v161, main_v162, main_v163, main_v164, main_v165, main_v166]

/-- @main's statements 200 … 218. -/
abbrev p10 : List (HloOp τ sig (Elt F)) :=
  [ StableHlo.nullary main_c_30 (constantI S_ 32 0#32),
    StableHlo.unary main_c_30 main_v168 (broadcastInDim S1600000 ![] bcast_S_S1600000 : (⟨S_, .i32⟩ : BufTy).Contents (Elt F) → (⟨S1600000, .i32⟩ : BufTy).Contents (Elt F)),
    StableHlo.binary main_v1 main_v168 main_v169 (cmpi .slt : (⟨S1600000, .i32⟩ : BufTy).Contents (Elt F) → (⟨S1600000, .i32⟩ : BufTy).Contents (Elt F) → (⟨S1600000, .i1⟩ : BufTy).Contents (Elt F)),
    StableHlo.nullary main_c_31 (constantI S_ 32 100000#32),
    StableHlo.unary main_c_31 main_v170 (broadcastInDim S1600000 ![] bcast_S_S1600000 : (⟨S_, .i32⟩ : BufTy).Contents (Elt F) → (⟨S1600000, .i32⟩ : BufTy).Contents (Elt F)),
    StableHlo.binary main_v1 main_v170 main_v171 (addi : (⟨S1600000, .i32⟩ : BufTy).Contents (Elt F) → (⟨S1600000, .i32⟩ : BufTy).Contents (Elt F) → (⟨S1600000, .i32⟩ : BufTy).Contents (Elt F)),
    StableHlo.ternary main_v169 main_v171 main_v1 main_v172 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v172 main_v173 (broadcastInDim S1600000x1 ![0] bcast_S1600000_S1600000x1_0 : (⟨S1600000, .i32⟩ : BufTy).Contents (Elt F) → (⟨S1600000x1, .i32⟩ : BufTy).Contents (Elt F)),
    StableHlo.binary main_v167 main_v173 main_v174 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_32 (constant S_ .f32 0x00000000#32),
    StableHlo.unary main_cst_32 main_v175 (broadcastInDim S100000x64 ![] bcast_S_S100000x64 : (⟨S_, .f32⟩ : BufTy).Contents (Elt F) → (⟨S100000x64, .f32⟩ : BufTy).Contents (Elt F)),
    StableHlo.unary main_v3 main_v176 (broadcastInDim S1600000x1 ![0] bcast_S1600000_S1600000x1_0 : (⟨S1600000, .i32⟩ : BufTy).Contents (Elt F) → (⟨S1600000x1, .i32⟩ : BufTy).Contents (Elt F)),
    StableHlo.ternary main_v175 main_v176 main_v174 main_v177 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v177 main_arg12 main_v178 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg13 main_v179 (broadcastInDim S1x64 ![1] bcast_S64_S1x64_1 : (⟨S64, .f32⟩ : BufTy).Contents (Elt F) → (⟨S1x64, .f32⟩ : BufTy).Contents (Elt F)),
    StableHlo.unary main_v179 main_v180 (broadcastInDim S100000x64 ![0, 1] bcast_S1x64_S100000x64_0_1 : (⟨S1x64, .f32⟩ : BufTy).Contents (Elt F) → (⟨S100000x64, .f32⟩ : BufTy).Contents (Elt F)),
    StableHlo.binary main_v178 main_v180 main_v181 (addf : (⟨S100000x64, .f32⟩ : BufTy).Contents (Elt F) → (⟨S100000x64, .f32⟩ : BufTy).Contents (Elt F) → (⟨S100000x64, .f32⟩ : BufTy).Contents (Elt F)),
    StableHlo.binary main_v167 main_arg14 main_v182 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v181 main_v182 main_v183 (addf : (⟨S100000x64, .f32⟩ : BufTy).Contents (Elt F) → (⟨S100000x64, .f32⟩ : BufTy).Contents (Elt F) → (⟨S100000x64, .f32⟩ : BufTy).Contents (Elt F)) ]

/-- What statements 200 … 218 write. -/
abbrev w10 : List (Ref sig .tc) :=
  [main_c_30, main_v168, main_v169, main_c_31, main_v170, main_v171, main_v172, main_v173, main_v174, main_cst_32, main_v175, main_v176, main_v177, main_v178, main_v179, main_v180, main_v181, main_v182, main_v183]

/-- @main's statements 219 … 239. -/
abbrev p11 : List (HloOp τ sig (Elt F)) :=
  [ StableHlo.unary main_arg15 main_v184 ((extractStridedSlice S1x64 ![3, 0] · slices_S4x64_S1x64_3_0) : (⟨S4x64, .f32⟩ : BufTy).Contents (Elt F) → (⟨S1x64, .f32⟩ : BufTy).Contents (Elt F)),
    StableHlo.reshape main_v184 main_v185 rfl shapeCasts_S1x64_S64,
    StableHlo.unary main_arg16 main_v186 ((extractStridedSlice S1x64 ![3, 0] · slices_S4x64_S1x64_3_0) : (⟨S4x64, .f32⟩ : BufTy).Contents (Elt F) → (⟨S1x64, .f32⟩ : BufTy).Contents (Elt F)),
    StableHlo.reshape main_v186 main_v187 rfl shapeCasts_S1x64_S64,
    StableHlo.nullary main_cst_33 (constant S_ .f32 0x00000000#32),
    StableHlo.binary main_v183 main_cst_33 main_v188 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_34 (constant S_ .f32 0x47C35000#32),
    StableHlo.unary main_cst_34 main_v189 (broadcastInDim S64 ![] bcast_S_S64 : (⟨S_, .f32⟩ : BufTy).Contents (Elt F) → (⟨S64, .f32⟩ : BufTy).Contents (Elt F)),
    StableHlo.binary main_v188 main_v189 main_v190 (Host.divf : (⟨S64, .f32⟩ : BufTy).Contents (Elt F) → (⟨S64, .f32⟩ : BufTy).Contents (Elt F) → (⟨S64, .f32⟩ : BufTy).Contents (Elt F)),
    StableHlo.unary main_v190 main_v191 (broadcastInDim S1x64 ![1] bcast_S64_S1x64_1 : (⟨S64, .f32⟩ : BufTy).Contents (Elt F) → (⟨S1x64, .f32⟩ : BufTy).Contents (Elt F)),
    StableHlo.unary main_v191 main_v192 (broadcastInDim S100000x64 ![0, 1] bcast_S1x64_S100000x64_0_1 : (⟨S1x64, .f32⟩ : BufTy).Contents (Elt F) → (⟨S100000x64, .f32⟩ : BufTy).Contents (Elt F)),
    StableHlo.binary main_v183 main_v192 main_v193 (subf : (⟨S100000x64, .f32⟩ : BufTy).Contents (Elt F) → (⟨S100000x64, .f32⟩ : BufTy).Contents (Elt F) → (⟨S100000x64, .f32⟩ : BufTy).Contents (Elt F)),
    StableHlo.binary main_v193 main_v193 main_v194 (mulf : (⟨S100000x64, .f32⟩ : BufTy).Contents (Elt F) → (⟨S100000x64, .f32⟩ : BufTy).Contents (Elt F) → (⟨S100000x64, .f32⟩ : BufTy).Contents (Elt F)),
    StableHlo.nullary main_cst_35 (constant S_ .f32 0x00000000#32),
    StableHlo.binary main_v194 main_cst_35 main_v195 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_36 (constant S_ .f32 0x47C35000#32),
    StableHlo.unary main_cst_36 main_v196 (broadcastInDim S64 ![] bcast_S_S64 : (⟨S_, .f32⟩ : BufTy).Contents (Elt F) → (⟨S64, .f32⟩ : BufTy).Contents (Elt F)),
    StableHlo.binary main_v195 main_v196 main_v197 (Host.divf : (⟨S64, .f32⟩ : BufTy).Contents (Elt F) → (⟨S64, .f32⟩ : BufTy).Contents (Elt F) → (⟨S64, .f32⟩ : BufTy).Contents (Elt F)),
    StableHlo.unary main_v190 main_v198 (broadcastInDim S1x64 ![1] bcast_S64_S1x64_1 : (⟨S64, .f32⟩ : BufTy).Contents (Elt F) → (⟨S1x64, .f32⟩ : BufTy).Contents (Elt F)),
    StableHlo.unary main_v198 main_v199 (broadcastInDim S100000x64 ![0, 1] bcast_S1x64_S100000x64_0_1 : (⟨S1x64, .f32⟩ : BufTy).Contents (Elt F) → (⟨S100000x64, .f32⟩ : BufTy).Contents (Elt F)),
    StableHlo.binary main_v183 main_v199 main_v200 (subf : (⟨S100000x64, .f32⟩ : BufTy).Contents (Elt F) → (⟨S100000x64, .f32⟩ : BufTy).Contents (Elt F) → (⟨S100000x64, .f32⟩ : BufTy).Contents (Elt F)) ]

/-- What statements 219 … 239 write. -/
abbrev w11 : List (Ref sig .tc) :=
  [main_v184, main_v185, main_v186, main_v187, main_cst_33, main_v188, main_cst_34, main_v189, main_v190, main_v191, main_v192, main_v193, main_v194, main_cst_35, main_v195, main_cst_36, main_v196, main_v197, main_v198, main_v199, main_v200]

/-- @main's statements 240 … 252. -/
abbrev p12 : List (HloOp τ sig (Elt F)) :=
  [ StableHlo.nullary main_cst_37 (constant S_ .f32 0x3727C5AC#32),
    StableHlo.unary main_cst_37 main_v201 (broadcastInDim S64 ![] bcast_S_S64 : (⟨S_, .f32⟩ : BufTy).Contents (Elt F) → (⟨S64, .f32⟩ : BufTy).Contents (Elt F)),
    StableHlo.binary main_v197 main_v201 main_v202 (addf : (⟨S64, .f32⟩ : BufTy).Contents (Elt F) → (⟨S64, .f32⟩ : BufTy).Contents (Elt F) → (⟨S64, .f32⟩ : BufTy).Contents (Elt F)),
    StableHlo.unary main_v202 main_v203 (Host.rsqrt : (⟨S64, .f32⟩ : BufTy).Contents (Elt F) → (⟨S64, .f32⟩ : BufTy).Contents (Elt F)),
    StableHlo.unary main_v203 main_v204 (broadcastInDim S1x64 ![1] bcast_S64_S1x64_1 : (⟨S64, .f32⟩ : BufTy).Contents (Elt F) → (⟨S1x64, .f32⟩ : BufTy).Contents (Elt F)),
    StableHlo.unary main_v204 main_v205 (broadcastInDim S100000x64 ![0, 1] bcast_S1x64_S100000x64_0_1 : (⟨S1x64, .f32⟩ : BufTy).Contents (Elt F) → (⟨S100000x64, .f32⟩ : BufTy).Contents (Elt F)),
    StableHlo.binary main_v200 main_v205 main_v206 (mulf : (⟨S100000x64, .f32⟩ : BufTy).Contents (Elt F) → (⟨S100000x64, .f32⟩ : BufTy).Contents (Elt F) → (⟨S100000x64, .f32⟩ : BufTy).Contents (Elt F)),
    StableHlo.unary main_v185 main_v207 (broadcastInDim S1x64 ![1] bcast_S64_S1x64_1 : (⟨S64, .f32⟩ : BufTy).Contents (Elt F) → (⟨S1x64, .f32⟩ : BufTy).Contents (Elt F)),
    StableHlo.unary main_v207 main_v208 (broadcastInDim S100000x64 ![0, 1] bcast_S1x64_S100000x64_0_1 : (⟨S1x64, .f32⟩ : BufTy).Contents (Elt F) → (⟨S100000x64, .f32⟩ : BufTy).Contents (Elt F)),
    StableHlo.binary main_v206 main_v208 main_v209 (mulf : (⟨S100000x64, .f32⟩ : BufTy).Contents (Elt F) → (⟨S100000x64, .f32⟩ : BufTy).Contents (Elt F) → (⟨S100000x64, .f32⟩ : BufTy).Contents (Elt F)),
    StableHlo.unary main_v187 main_v210 (broadcastInDim S1x64 ![1] bcast_S64_S1x64_1 : (⟨S64, .f32⟩ : BufTy).Contents (Elt F) → (⟨S1x64, .f32⟩ : BufTy).Contents (Elt F)),
    StableHlo.unary main_v210 main_v211 (broadcastInDim S100000x64 ![0, 1] bcast_S1x64_S100000x64_0_1 : (⟨S1x64, .f32⟩ : BufTy).Contents (Elt F) → (⟨S100000x64, .f32⟩ : BufTy).Contents (Elt F)),
    StableHlo.binary main_v209 main_v211 main_v212 (addf : (⟨S100000x64, .f32⟩ : BufTy).Contents (Elt F) → (⟨S100000x64, .f32⟩ : BufTy).Contents (Elt F) → (⟨S100000x64, .f32⟩ : BufTy).Contents (Elt F)) ]

/-- What statements 240 … 252 write. -/
abbrev w12 : List (Ref sig .tc) :=
  [main_cst_37, main_v201, main_v202, main_v203, main_v204, main_v205, main_v206, main_v207, main_v208, main_v209, main_v210, main_v211, main_v212]

/-- @main's statements 254 … 272. -/
abbrev p13 : List (HloOp τ sig (Elt F)) :=
  [ StableHlo.nullary main_cst_38 (constant S_ .f32 0x00000000#32),
    StableHlo.unary main_cst_38 main_v214 (broadcastInDim S2048x64 ![] bcast_S_S2048x64 : (⟨S_, .f32⟩ : BufTy).Contents (Elt F) → (⟨S2048x64, .f32⟩ : BufTy).Contents (Elt F)),
    StableHlo.unary main_arg2 main_v215 (broadcastInDim S100000x1 ![0] bcast_S100000_S100000x1_0 : (⟨S100000, .i32⟩ : BufTy).Contents (Elt F) → (⟨S100000x1, .i32⟩ : BufTy).Contents (Elt F)),
    StableHlo.ternary main_v214 main_v215 main_v213 main_v216 ((fun x i u => Host.scatterAdd scatter_S2048x64_S100000x1_S100000x64_1_0_0_1 x i u) : (⟨S2048x64, .f32⟩ : BufTy).Contents (Elt F) → (⟨S100000x1, .i32⟩ : BufTy).Contents (Elt F) → (⟨S100000x64, .f32⟩ : BufTy).Contents (Elt F) → (⟨S2048x64, .f32⟩ : BufTy).Contents (Elt F)),
    StableHlo.nullary main_cst_39 (constant S_ .f32 0x3F800000#32),
    StableHlo.unary main_cst_39 main_v217 (broadcastInDim S100000x1 ![] bcast_S_S100000x1 : (⟨S_, .f32⟩ : BufTy).Contents (Elt F) → (⟨S100000x1, .f32⟩ : BufTy).Contents (Elt F)),
    StableHlo.nullary main_cst_40 (constant S_ .f32 0x00000000#32),
    StableHlo.unary main_cst_40 main_v218 (broadcastInDim S2048x1 ![] bcast_S_S2048x1 : (⟨S_, .f32⟩ : BufTy).Contents (Elt F) → (⟨S2048x1, .f32⟩ : BufTy).Contents (Elt F)),
    StableHlo.unary main_arg2 main_v219 (broadcastInDim S100000x1 ![0] bcast_S100000_S100000x1_0 : (⟨S100000, .i32⟩ : BufTy).Contents (Elt F) → (⟨S100000x1, .i32⟩ : BufTy).Contents (Elt F)),
    StableHlo.ternary main_v218 main_v219 main_v217 main_v220 ((fun x i u => Host.scatterAdd scatter_S2048x1_S100000x1_S100000x1_1_0_0_1 x i u) : (⟨S2048x1, .f32⟩ : BufTy).Contents (Elt F) → (⟨S100000x1, .i32⟩ : BufTy).Contents (Elt F) → (⟨S100000x1, .f32⟩ : BufTy).Contents (Elt F) → (⟨S2048x1, .f32⟩ : BufTy).Contents (Elt F)),
    StableHlo.nullary main_cst_41 (constant S_ .f32 0x3F800000#32),
    StableHlo.unary main_cst_41 main_v221 (broadcastInDim S2048x1 ![] bcast_S_S2048x1 : (⟨S_, .f32⟩ : BufTy).Contents (Elt F) → (⟨S2048x1, .f32⟩ : BufTy).Contents (Elt F)),
    StableHlo.binary main_v220 main_v221 main_v222 (maximumf : (⟨S2048x1, .f32⟩ : BufTy).Contents (Elt F) → (⟨S2048x1, .f32⟩ : BufTy).Contents (Elt F) → (⟨S2048x1, .f32⟩ : BufTy).Contents (Elt F)),
    StableHlo.unary main_v222 main_v223 (broadcastInDim S2048x64 ![0, 1] bcast_S2048x1_S2048x64_0_1 : (⟨S2048x1, .f32⟩ : BufTy).Contents (Elt F) → (⟨S2048x64, .f32⟩ : BufTy).Contents (Elt F)),
    StableHlo.binary main_v216 main_v223 main_v224 (Host.divf : (⟨S2048x64, .f32⟩ : BufTy).Contents (Elt F) → (⟨S2048x64, .f32⟩ : BufTy).Contents (Elt F) → (⟨S2048x64, .f32⟩ : BufTy).Contents (Elt F)),
    StableHlo.binary main_v224 main_arg17 main_v225 ((fun l r => Host.dotGeneral dot_S2048x64_S64x16_S2048x16_1_0_0_1_n_n none l r) : (⟨S2048x64, .f32⟩ : BufTy).Contents (Elt F) → (⟨S64x16, .f32⟩ : BufTy).Contents (Elt F) → (⟨S2048x16, .f32⟩ : BufTy).Contents (Elt F)),
    StableHlo.unary main_arg18 main_v226 (broadcastInDim S1x16 ![1] bcast_S16_S1x16_1 : (⟨S16, .f32⟩ : BufTy).Contents (Elt F) → (⟨S1x16, .f32⟩ : BufTy).Contents (Elt F)),
    StableHlo.unary main_v226 main_v227 (broadcastInDim S2048x16 ![0, 1] bcast_S1x16_S2048x16_0_1 : (⟨S1x16, .f32⟩ : BufTy).Contents (Elt F) → (⟨S2048x16, .f32⟩ : BufTy).Contents (Elt F)),
    StableHlo.binary main_v225 main_v227 main_v228 (addf : (⟨S2048x16, .f32⟩ : BufTy).Contents (Elt F) → (⟨S2048x16, .f32⟩ : BufTy).Contents (Elt F) → (⟨S2048x16, .f32⟩ : BufTy).Contents (Elt F)) ]

/-- What statements 254 … 272 write. -/
abbrev w13 : List (Ref sig .tc) :=
  [main_cst_38, main_v214, main_v215, main_v216, main_cst_39, main_v217, main_cst_40, main_v218, main_v219, main_v220, main_cst_41, main_v221, main_v222, main_v223, main_v224, main_v225, main_v226, main_v227, main_v228]

end Cert.ReferenceIdeal.RefOps

end
-- ==== Proof.RefRun.lean ====
import proofs.«175823_j87351044866594_1_alg».proof.Proof.Gen.ReferenceIdeal
import Idealize.ShloMosaic.Lib.StableHlo.Run
import proofs.«175823_j87351044866594_1_alg».proof.Proof.RefOps

/-! The reference program's run, as a straight line of host operations.

    @main of the reference is 268 host operations of its own and five calls: four of @elu (which itself calls
    @_where and @_where_0) and one of @relu. A call is its callee's body over the call's own buffers, so @main is
    one straight line of 331 operations: the lists of the operation table in program order, with the fifteen
    operations of @elu (resp. the three of @relu), over the call's record, at each call site. The line is cut into
    nine segments, one per layer stage: a segment ends with the operation that writes the stage's result
    (the linear layers' sums `main_v30`, `main_v87`, `main_v137`, `main_v183`, the four normalised and
    activated arrays `main_v60`, `main_v117`, `main_v167`, `main_v213`, the head's result `main_v228`).

    Proved here: @main is the line (`main_eq`); every weakly fair execution of it terminates with every buffer at
    the fold of the operations' results over the launch contents (`run_main`); the fold over the whole line is the
    nine segments' folds one after the other (`after_ops`); and each segment writes only the listed references
    (`seg_k_writes`), so any other buffer is left as the segment found it. -/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefOps

variable {F : FTy → Type} [FloatOps F]

/-! ## The callees' bodies as lists -/

/-- @elu's body over its argument and one call's buffers: `x > 0` twice (`v1`, `v3`), @_where's three operations
    (`select (x > 0) 0 x`, the zero converted and broadcast), `expm1` of that, times a broadcast one, and
    @_where_0's `select (x > 0) x ·`: fifteen operations, `elu x = if x > 0 then x else expm1 (if x > 0 then 0 else x)`. -/
abbrev eluOps (x : TRef sig ⟨S100000x64, .f32⟩) (φ : fn_elu.Bufs) : List (HloOp τ sig (Elt F)) :=
  [ TRef.nullary φ.cst (constant S_ .f32 0x00000000#32),
    TRef.unary φ.cst φ.v0 (broadcastInDim S100000x64 ![] bcast_S_S100000x64),
    TRef.binary x φ.v0 φ.v1 (cmpf .ogt),
    TRef.nullary φ.cst_0 (constant S_ .f32 0x00000000#32),
    TRef.unary φ.cst_0 φ.v2 (broadcastInDim S100000x64 ![] bcast_S_S100000x64),
    TRef.binary x φ.v2 φ.v3 (cmpf .ogt),
    TRef.nullary φ.cst_1 (constant S_ .f32 0x00000000#32),
    TRef.unary φ.cst_1 φ.call0.v0 id,
    TRef.unary φ.call0.v0 φ.call0.v1 (broadcastInDim S100000x64 ![] bcast_S_S100000x64),
    TRef.ternary φ.v3 φ.call0.v1 x φ.call0.v2 select,
    TRef.unary φ.call0.v2 φ.v5 Host.expm1,
    TRef.nullary φ.cst_2 (constant S_ .f32 0x3F800000#32),
    TRef.unary φ.cst_2 φ.v6 (broadcastInDim S100000x64 ![] bcast_S_S100000x64),
    TRef.binary φ.v6 φ.v5 φ.v7 mulf,
    TRef.ternary φ.v1 x φ.v7 φ.call1.v0 select ]

/-- The references @elu's operations write, in order. -/
abbrev eluWrites (φ : fn_elu.Bufs) : List (Ref sig .tc) :=
  [φ.cst.ref, φ.v0.ref, φ.v1.ref, φ.cst_0.ref, φ.v2.ref, φ.v3.ref, φ.cst_1.ref, φ.call0.v0.ref, φ.call0.v1.ref,
   φ.call0.v2.ref, φ.v5.ref, φ.cst_2.ref, φ.v6.ref, φ.v7.ref, φ.call1.v0.ref]

/-- @relu's body over its argument and one call's buffers: the maximum with a broadcast zero. -/
abbrev reluOps (x : TRef sig ⟨S100000x64, .f32⟩) (φ : fn_relu.Bufs) : List (HloOp τ sig (Elt F)) :=
  [ TRef.nullary φ.cst (constant S_ .f32 0x00000000#32),
    TRef.unary φ.cst φ.v0 (broadcastInDim S100000x64 ![] bcast_S_S100000x64),
    TRef.binary x φ.v0 φ.v1 maximumf ]

/-- The references @relu's operations write, in order. -/
abbrev reluWrites (φ : fn_relu.Bufs) : List (Ref sig .tc) := [φ.cst.ref, φ.v0.ref, φ.v1.ref]

/-- @elu's body is the line of its operations (its two callees' bodies unfolded at their calls). -/
theorem elu_body_eq (x : TRef sig ⟨S100000x64, .f32⟩) (φ : fn_elu.Bufs) :
    fn_elu.body (F := F) x φ = seq (eluOps x φ) := rfl

/-- @relu's body is the line of its operations. -/
theorem relu_body_eq (x : TRef sig ⟨S100000x64, .f32⟩) (φ : fn_relu.Bufs) :
    fn_relu.body (F := F) x φ = seq (reluOps x φ) := rfl

/-! ## The segments -/

/-- Statements %0 … %30: the edge endpoints, the mean over in-neighbours of the input (`main_v21`), the first linear
    layer and its masked bias; ends with `main_v30`. -/
abbrev seg0 : List (HloOp τ sig (Elt F)) := p0
/-- Statements %31 … %60: batch normalisation of `main_v30` over its rows with scale and shift row 0, then @elu
    (call 0); ends with `main_v60`. -/
abbrev seg1 : List (HloOp τ sig (Elt F)) := p1 ++ p2 ++ eluOps (.of main_v59) main_call0
/-- The second layer's aggregation and linear maps; ends with `main_v87`. -/
abbrev seg2 : List (HloOp τ sig (Elt F)) := p3
/-- Batch normalisation with row 1 and @elu (call 1); ends with `main_v117`. -/
abbrev seg3 : List (HloOp τ sig (Elt F)) := p4 ++ p5 ++ eluOps (.of main_v116) main_call1
/-- The third layer: aggregation, a linear map, @relu (call 2), a second linear map; ends with `main_v137`. -/
abbrev seg4 : List (HloOp τ sig (Elt F)) := p6 ++ reluOps (.of main_v132) main_call2 ++ p7
/-- Batch normalisation with row 2 and @elu (call 3); ends with `main_v167`. -/
abbrev seg5 : List (HloOp τ sig (Elt F)) := p8 ++ p9 ++ eluOps (.of main_v166) main_call3
/-- The fourth layer's aggregation and linear maps; ends with `main_v183`. -/
abbrev seg6 : List (HloOp τ sig (Elt F)) := p10
/-- Batch normalisation with row 3 and @elu (call 4); ends with `main_v213`. -/
abbrev seg7 : List (HloOp τ sig (Elt F)) := p11 ++ p12 ++ eluOps (.of main_v212) main_call4
/-- The head: the mean over each graph's nodes and the output linear layer; ends with `main_v228`. -/
abbrev seg8 : List (HloOp τ sig (Elt F)) := p13

/-- @main's operations, in order. -/
abbrev ops : List (HloOp τ sig (Elt F)) := seg0 ++ seg1 ++ seg2 ++ seg3 ++ seg4 ++ seg5 ++ seg6 ++ seg7 ++ seg8

/-! ## @main is the line

Each of the five windows @main is printed in is the line of its own stretch of the table, the callees' lists at its
calls; @main runs the windows in order, and lines run one after the other are their concatenation run as one. -/

theorem part0_eq (c : Dev nD) : main_part0 (F := F) c = seq (p0 ++ p1) := rfl

theorem part1_eq (c : Dev nD) :
    main_part1 (F := F) c = seq (p2 ++ (eluOps (.of main_v59) main_call0 ++ (p3 ++ p4))) := by
  rw [seq_append, seq_append, ← elu_body_eq]; rfl

theorem part2_eq (c : Dev nD) :
    main_part2 (F := F) c
      = seq (p5 ++ (eluOps (.of main_v116) main_call1 ++ (p6 ++ (reluOps (.of main_v132) main_call2 ++ (p7 ++ p8))))) := by
  rw [seq_append, seq_append, seq_append, seq_append, ← elu_body_eq, ← relu_body_eq]; rfl

theorem part3_eq (c : Dev nD) :
    main_part3 (F := F) c = seq (p9 ++ (eluOps (.of main_v166) main_call3 ++ (p10 ++ p11))) := by
  rw [seq_append, seq_append, ← elu_body_eq]; rfl

theorem part4_eq (c : Dev nD) :
    main_part4 (F := F) c = seq (p12 ++ (eluOps (.of main_v212) main_call4 ++ p13)) := by
  rw [seq_append, seq_append, ← elu_body_eq]; rfl

/-- @main is the straight line of its 331 operations. -/
theorem main_eq (c : Dev nD) : main (F := F) c = seq ops := by
  have h : main (F := F) c
      = (main_part0 c >>= fun _ => main_part1 c >>= fun _ => main_part2 c >>= fun _ => main_part3 c >>= fun _ => main_part4 c) := rfl
  rw [h, part0_eq, part1_eq, part2_eq, part3_eq, part4_eq]
  simp only [← seq_append]
  refine congrArg seq ?_
  simp only [ops, seg0, seg1, seg2, seg3, seg4, seg5, seg6, seg7, seg8, List.append_assoc]

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only: the line opened into its pieces and the callees'
    lists, each operation by its builder's own fact. -/
theorem ops_sub : (ops : List (HloOp τ sig (Elt F))).Forall fun op => op.bufs ⊆ tcRefs τ sig := by
  simp only [ops, seg0, seg1, seg2, seg3, seg4, seg5, seg6, seg7, seg8, p0, p1, p2, p3, p4, p5, p6, p7, p8, p9, p10, p11,
    p12, p13, eluOps, reluOps, List.forall_append, List.forall_cons, List.Forall, nullary_bufs_sub, unary_bufs_sub,
    binary_bufs_sub, ternary_bufs_sub, reshape_bufs_sub, and_self]

/-- Every operation of the line determines its results (none leaves a buffer's contents open): by computation,
    operation by operation. -/
theorem ops_fresh : (ops : List (HloOp τ sig (Elt F))).Forall fun op => op.fresh = ∅ := by
  simp only [ops, seg0, seg1, seg2, seg3, seg4, seg5, seg6, seg7, seg8, List.forall_append]
  repeat' (first | rfl | refine And.intro ?_ ?_)

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-! ## The fold, segment by segment -/

/-- The fold over two lines one after the other is the second's fold of the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem after_ops (V : Valuation τ sig (Elt F)) :
    after ops V = after seg8 (after seg7 (after seg6 (after seg5 (after seg4 (after seg3 (after seg2 (after seg1 (after seg0 V)))))))) := by
  show after (seg0 ++ seg1 ++ seg2 ++ seg3 ++ seg4 ++ seg5 ++ seg6 ++ seg7 ++ seg8) V = _
  rw [after_append _ seg8, after_append _ seg7, after_append _ seg6, after_append _ seg5, after_append _ seg4,
    after_append _ seg3, after_append _ seg2, after_append seg0 seg1]

/-! ## What each segment writes

The references segment `k` writes are the written references of its pieces of the table and of its call; every
operation writes exactly one reference, which is in the list (membership decided over references). -/

abbrev wl_0 : List (Ref sig .tc) := w0
abbrev wl_1 : List (Ref sig .tc) := w1 ++ w2 ++ eluWrites main_call0
abbrev wl_2 : List (Ref sig .tc) := w3
abbrev wl_3 : List (Ref sig .tc) := w4 ++ w5 ++ eluWrites main_call1
abbrev wl_4 : List (Ref sig .tc) := w6 ++ reluWrites main_call2 ++ w7
abbrev wl_5 : List (Ref sig .tc) := w8 ++ w9 ++ eluWrites main_call3
abbrev wl_6 : List (Ref sig .tc) := w10
abbrev wl_7 : List (Ref sig .tc) := w11 ++ w12 ++ eluWrites main_call4
abbrev wl_8 : List (Ref sig .tc) := w13

/-- An operation that writes one reference of a list writes inside the list's buffers. -/
theorem writes_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

theorem seg0_writes :
    (seg0 : List (HloOp τ sig (Elt F))).Forall fun op => op.writes ⊆ ((wl_0).map (Proc.devRef (τ := τ) .tc)).toFinset := by
  repeat' (first | exact writes_sub_of_mem (by decide) | refine And.intro ?_ ?_)

theorem seg1_writes :
    (seg1 : List (HloOp τ sig (Elt F))).Forall fun op => op.writes ⊆ ((wl_1).map (Proc.devRef (τ := τ) .tc)).toFinset := by
  simp only [seg1, List.forall_append]
  repeat' (first | exact writes_sub_of_mem (by decide) | refine And.intro ?_ ?_)

theorem seg2_writes :
    (seg2 : List (HloOp τ sig (Elt F))).Forall fun op => op.writes ⊆ ((wl_2).map (Proc.devRef (τ := τ) .tc)).toFinset := by
  repeat' (first | exact writes_sub_of_mem (by decide) | refine And.intro ?_ ?_)

theorem seg3_writes :
    (seg3 : List (HloOp τ sig (Elt F))).Forall fun op => op.writes ⊆ ((wl_3).map (Proc.devRef (τ := τ) .tc)).toFinset := by
  simp only [seg3, List.forall_append]
  repeat' (first | exact writes_sub_of_mem (by decide) | refine And.intro ?_ ?_)

theorem seg4_writes :
    (seg4 : List (HloOp τ sig (Elt F))).Forall fun op => op.writes ⊆ ((wl_4).map (Proc.devRef (τ := τ) .tc)).toFinset := by
  simp only [seg4, List.forall_append]
  repeat' (first | exact writes_sub_of_mem (by decide) | refine And.intro ?_ ?_)

theorem seg5_writes :
    (seg5 : List (HloOp τ sig (Elt F))).Forall fun op => op.writes ⊆ ((wl_5).map (Proc.devRef (τ := τ) .tc)).toFinset := by
  simp only [seg5, List.forall_append]
  repeat' (first | exact writes_sub_of_mem (by decide) | refine And.intro ?_ ?_)

theorem seg6_writes :
    (seg6 : List (HloOp τ sig (Elt F))).Forall fun op => op.writes ⊆ ((wl_6).map (Proc.devRef (τ := τ) .tc)).toFinset := by
  repeat' (first | exact writes_sub_of_mem (by decide) | refine And.intro ?_ ?_)

theorem seg7_writes :
    (seg7 : List (HloOp τ sig (Elt F))).Forall fun op => op.writes ⊆ ((wl_7).map (Proc.devRef (τ := τ) .tc)).toFinset := by
  simp only [seg7, List.forall_append]
  repeat' (first | exact writes_sub_of_mem (by decide) | refine And.intro ?_ ?_)

theorem seg8_writes :
    (seg8 : List (HloOp τ sig (Elt F))).Forall fun op => op.writes ⊆ ((wl_8).map (Proc.devRef (τ := τ) .tc)).toFinset := by
  repeat' (first | exact writes_sub_of_mem (by decide) | refine And.intro ?_ ?_)

end Cert.ReferenceIdeal.RefRun

end
-- ==== Proof.RefFrame.lean ====
import proofs.«175823_j87351044866594_1_alg».proof.Proof.RefRun
import proofs.«175823_j87351044866594_1_alg».proof.Defs
import proofs.«175823_j87351044866594_1_alg».proof.Proof.Gen.Pre_finite_inputs

/-! The reference's run, read at its result and at its arguments.

    No operation of the reference's line writes an argument array: a reference that none of the nine segments writes
    holds after the whole line what it held before (`ops_keep`: the fold over the line is the segments' folds one after
    the other, and each segment leaves alone every reference outside its list of written ones). So every weakly fair
    execution of @main terminates with the result buffer `main_v228` at the fold of the line over the launch contents and
    the nineteen argument arrays unchanged (`run_value`); the second half alone (`run_args`) is the reference's frame claim. -/

noncomputable section

namespace Cert.ReferenceIdeal.RefFrame

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- A reference no segment writes holds after the whole line what it held before it. -/
theorem ops_keep (V : Valuation τ sig (Elt F)) (b : Ref sig .tc)
    (h : b ∉ wl_0 ∧ b ∉ wl_1 ∧ b ∉ wl_2 ∧ b ∉ wl_3 ∧ b ∉ wl_4 ∧ b ∉ wl_5 ∧ b ∉ wl_6 ∧ b ∉ wl_7 ∧ b ∉ wl_8) :
    after ops V (Proc.devRef .tc b) = V (Proc.devRef .tc b) := by
  obtain ⟨h0, h1, h2, h3, h4, h5, h6, h7, h8⟩ := h
  rw [after_ops, after_of_writes_sub seg8 _ seg8_writes h8, after_of_writes_sub seg7 _ seg7_writes h7,
    after_of_writes_sub seg6 _ seg6_writes h6, after_of_writes_sub seg5 _ seg5_writes h5,
    after_of_writes_sub seg4 _ seg4_writes h4, after_of_writes_sub seg3 _ seg3_writes h3,
    after_of_writes_sub seg2 _ seg2_writes h2, after_of_writes_sub seg1 _ seg1_writes h1,
    after_of_writes_sub seg0 _ seg0_writes h0]

/-- Every weakly fair execution of @main terminates with the result at the line's fold over the launch contents and
    every argument array as at launch. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v228) = after ops (launchContents m c) (Proc.devRef .tc main_v228)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨h c main_v228,
      (h c main_arg0).trans ((ops_keep _ main_arg0 (by decide)).trans rfl),
      (h c main_arg1).trans ((ops_keep _ main_arg1 (by decide)).trans rfl),
      (h c main_arg2).trans ((ops_keep _ main_arg2 (by decide)).trans rfl),
      (h c main_arg3).trans ((ops_keep _ main_arg3 (by decide)).trans rfl),
      (h c main_arg4).trans ((ops_keep _ main_arg4 (by decide)).trans rfl),
      (h c main_arg5).trans ((ops_keep _ main_arg5 (by decide)).trans rfl),
      (h c main_arg6).trans ((ops_keep _ main_arg6 (by decide)).trans rfl),
      (h c main_arg7).trans ((ops_keep _ main_arg7 (by decide)).trans rfl),
      (h c main_arg8).trans ((ops_keep _ main_arg8 (by decide)).trans rfl),
      (h c main_arg9).trans ((ops_keep _ main_arg9 (by decide)).trans rfl),
      (h c main_arg10).trans ((ops_keep _ main_arg10 (by decide)).trans rfl),
      (h c main_arg11).trans ((ops_keep _ main_arg11 (by decide)).trans rfl),
      (h c main_arg12).trans ((ops_keep _ main_arg12 (by decide)).trans rfl),
      (h c main_arg13).trans ((ops_keep _ main_arg13 (by decide)).trans rfl),
      (h c main_arg14).trans ((ops_keep _ main_arg14 (by decide)).trans rfl),
      (h c main_arg15).trans ((ops_keep _ main_arg15 (by decide)).trans rfl),
      (h c main_arg16).trans ((ops_keep _ main_arg16 (by decide)).trans rfl),
      (h c main_arg17).trans ((ops_keep _ main_arg17 (by decide)).trans rfl),
      (h c main_arg18).trans ((ops_keep _ main_arg18 (by decide)).trans rfl)⟩)
    (run_main m ρ)

/-- Every weakly fair execution of @main terminates with every argument array as at launch. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => (h c).2) (run_value m ρ)

/-- The reference's frame claim: under the precondition (not needed: the line is total) every weakly fair execution
    of the reference terminates, nothing faulting, with its argument arrays unchanged. -/
theorem frame : Cert.frame_ReferenceIdeal (hReferenceIdeal := Cert.ReferenceIdeal.Gen.facts)
    (hPre_finite_inputs := Cert.Pre_finite_inputs.Gen.facts) :=
  fun m ρ _ => run_args m ρ

end Cert.ReferenceIdeal.RefFrame

end
-- ==== Proof.KGlue.lean ====
/-
  The host-side pieces of the network, each as one function of plain arrays, generic in the float instance:
  the edge list's two rows (source and destination node of each edge); the sum over incoming edges of the
  neighbours' rows (a gather along the sources, a scatter-add along the destinations); the in-degree; the mean
  over incoming edges (the sum divided by max(degree, 1)); the bias masked to nodes with at least one incoming
  edge; a column's mean and biased variance over the 100000 nodes; a vector of 64 read as one row; a row of the
  [4, 64] parameter tables; the per-graph mean pool.
-/
import proofs.«175823_j87351044866594_1_alg».proof.Proof.Gen.KernelIdeal

noncomputable section

namespace Cert.KernelIdeal.Glue

open Cert.KernelIdeal Cert.KernelIdeal.Gen
open Idealize.ShloMosaic Idealize.ShloMosaic.TcCoe Idealize.SL.Sem

variable {F : FTy → Type} [FloatOps F]

/-- The source node of each edge: row 0 of the edge list. -/
def src (ei : (⟨S2x1600000, .i32⟩ : BufTy).Contents (Elt F)) : (⟨S1600000, .i32⟩ : BufTy).Contents (Elt F) :=
  fun i => shapeCast S1600000 (extractStridedSlice S1x1600000 ![0, 0] ei slices_S2x1600000_S1x1600000_0_0) shapeCasts_S1x1600000_S1600000 i

/-- The destination node of each edge: row 1 of the edge list. -/
def dst (ei : (⟨S2x1600000, .i32⟩ : BufTy).Contents (Elt F)) : (⟨S1600000, .i32⟩ : BufTy).Contents (Elt F) :=
  fun i => shapeCast S1600000 (extractStridedSlice S1x1600000 ![1, 0] ei slices_S2x1600000_S1x1600000_1_0) shapeCasts_S1x1600000_S1600000 i

/-- The gather's start indices: a negative source index wraps once (index + 100000), as a column. -/
def startIdx (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- For each node, the sum over its incoming edges of the source nodes' rows. -/
def segSum (h : (⟨S100000x64, .f32⟩ : BufTy).Contents (Elt F)) (s d : (⟨S1600000, .i32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (Host.gather gather_S100000x64_S1600000x1_S1600000x64_1_0_n_n_0_1_164 h (startIdx s))

/-- For each node, the number of its incoming edges. -/
def degree (d : (⟨S1600000, .i32⟩ : BufTy).Contents (Elt F)) : (⟨S100000x1, .f32⟩ : BufTy).Contents (Elt F) :=
  Host.scatterAdd scatter_S100000x1_S1600000x1_S1600000x1_1_0_0_1
    (broadcastInDim S100000x1 ![] bcast_S_S100000x1 (constant S_ .f32 0x00000000#32))
    (broadcastInDim S1600000x1 ![0] bcast_S1600000_S1600000x1_0 d)
    (broadcastInDim S1600000x1 ![] bcast_S_S1600000x1 (constant S_ .f32 0x3F800000#32))

/-- The mean over incoming edges: the sum divided by max(degree, 1). -/
def meanAgg (h : (⟨S100000x64, .f32⟩ : BufTy).Contents (Elt F)) (s d : (⟨S1600000, .i32⟩ : BufTy).Contents (Elt F)) : (⟨S100000x64, .f32⟩ : BufTy).Contents (Elt F) :=
  Host.divf (segSum h s d)
    (broadcastInDim S100000x64 ![0, 1] bcast_S100000x1_S100000x64_0_1
      (maximumf (degree d) (broadcastInDim S100000x1 ![] bcast_S_S100000x1 (constant S_ .f32 0x3F800000#32))))

/-- The bias, on the nodes that have an incoming edge, zero on the others. -/
def maskedBias (b : (⟨S64, .f32⟩ : BufTy).Contents (Elt F)) (d : (⟨S1600000, .i32⟩ : BufTy).Contents (Elt F)) : (⟨S100000x64, .f32⟩ : BufTy).Contents (Elt F) :=
  mulf (broadcastInDim S100000x64 ![0, 1] bcast_S1x64_S100000x64_0_1 (broadcastInDim S1x64 ![1] bcast_S64_S1x64_1 b))
    (broadcastInDim S100000x64 ![0, 1] bcast_S100000x1_S100000x64_0_1
      (uitofp .f32 (cmpf .ogt (degree d) (broadcastInDim S100000x1 ![] bcast_S_S100000x1 (constant S_ .f32 0x00000000#32)))))

/-- Each column's mean over the nodes. -/
def colMean (x : (⟨S100000x64, .f32⟩ : BufTy).Contents (Elt F)) : (⟨S64, .f32⟩ : BufTy).Contents (Elt F) :=
  Host.divf (Host.reduceAdd x (constant S_ .f32 0x00000000#32) reducesTo_S100000x64_S64_d0 h_S_)
    (broadcastInDim S64 ![] bcast_S_S64 (constant S_ .f32 0x47C35000#32))

/-- The deviations from the column means. -/
def centered (x : (⟨S100000x64, .f32⟩ : BufTy).Contents (Elt F)) : (⟨S100000x64, .f32⟩ : BufTy).Contents (Elt F) :=
  subf x (broadcastInDim S100000x64 ![0, 1] bcast_S1x64_S100000x64_0_1 (broadcastInDim S1x64 ![1] bcast_S64_S1x64_1 (colMean x)))

/-- Each column's biased variance over the nodes: the mean of the squared deviations. -/
def colVar (x : (⟨S100000x64, .f32⟩ : BufTy).Contents (Elt F)) : (⟨S64, .f32⟩ : BufTy).Contents (Elt F) :=
  Host.divf (Host.reduceAdd (mulf (centered x) (centered x)) (constant S_ .f32 0x00000000#32) reducesTo_S100000x64_S64_d0 h_S_)
    (broadcastInDim S64 ![] bcast_S_S64 (constant S_ .f32 0x47C35000#32))

/-- A vector of 64 entries as a [1, 64] row. -/
def asRow (v : (⟨S64, .f32⟩ : BufTy).Contents (Elt F)) : (⟨S1x64, .f32⟩ : BufTy).Contents (Elt F) := fun i => shapeCast S1x64 v shapeCasts_S64_S1x64 i

/-- A vector of 16 entries as a [1, 16] row. -/
def asRow16 (v : (⟨S16, .f32⟩ : BufTy).Contents (Elt F)) : (⟨S1x16, .f32⟩ : BufTy).Contents (Elt F) := fun i => shapeCast S1x16 v shapeCasts_S16_S1x16 i

/-- One row of a [4, 64] parameter table, as a vector of 64 entries. -/
def pick (o : Fin 2 → ℕ) (hs : S4x64.Slices o S1x64) (g : (⟨S4x64, .f32⟩ : BufTy).Contents (Elt F)) : (⟨S64, .f32⟩ : BufTy).Contents (Elt F) :=
  fun i => shapeCast S64 (extractStridedSlice S1x64 o g hs) shapeCasts_S1x64_S64 i

/-- Each graph's mean over its nodes: the sum over the nodes of a graph divided by max(number of nodes, 1). -/
def pool (h : (⟨S100000x64, .f32⟩ : BufTy).Contents (Elt F)) (batch : (⟨S100000, .i32⟩ : BufTy).Contents (Elt F)) : (⟨S2048x64, .f32⟩ : BufTy).Contents (Elt F) :=
  Host.divf
    (Host.scatterAdd scatter_S2048x64_S100000x1_S100000x64_1_0_0_1
      (broadcastInDim S2048x64 ![] bcast_S_S2048x64 (constant S_ .f32 0x00000000#32))
      (broadcastInDim S100000x1 ![0] bcast_S100000_S100000x1_0 batch) h)
    (broadcastInDim S2048x64 ![0, 1] bcast_S2048x1_S2048x64_0_1
      (maximumf
        (Host.scatterAdd scatter_S2048x1_S100000x1_S100000x1_1_0_0_1
          (broadcastInDim S2048x1 ![] bcast_S_S2048x1 (constant S_ .f32 0x00000000#32))
          (broadcastInDim S100000x1 ![0] bcast_S100000_S100000x1_0 batch)
          (broadcastInDim S100000x1 ![] bcast_S_S100000x1 (constant S_ .f32 0x3F800000#32)))
        (broadcastInDim S2048x1 ![] bcast_S_S2048x1 (constant S_ .f32 0x3F800000#32))))

end Cert.KernelIdeal.Glue

end
-- ==== Proof.KHost.lean ====
/-
  What each stretch of host operations of the idealized kernel program leaves in the arrays the next region reads,
  as the host-side pieces (edge rows, neighbour sums and means, masked bias, column statistics, parameter rows, the
  pool) of the contents before the stretch: each is the stretch's operations composed, read back at that array.
-/
import proofs.«175823_j87351044866594_1_alg».proof.Proof.KGlue
import proofs.«175823_j87351044866594_1_alg».proof.Proof.Gen.KernelIdeal.Launch
import Idealize.ShloMosaic.Lib.StableHlo.Run

set_option maxRecDepth 16384

noncomputable section

namespace Cert.KernelIdeal.KHost

open Cert.KernelIdeal Cert.KernelIdeal.Gen Cert.KernelIdeal.Glue
open Idealize.ShloMosaic Idealize.ShloMosaic.TcCoe Idealize.SL.Sem Idealize.ShloMosaic.StableHlo

variable {F : FTy → Type} [FloatOps F]

theorem hostOps0_src (W : Valuation τ sig (Elt F)) :
    after hostOps0 W (Proc.devRef .tc main_v1) = src (W (Proc.devRef .tc main_arg1)) := by
  dsimp only [hostOps0]; after_results_simp; rfl
theorem hostOps0_dst (W : Valuation τ sig (Elt F)) :
    after hostOps0 W (Proc.devRef .tc main_v3) = dst (W (Proc.devRef .tc main_arg1)) := by
  dsimp only [hostOps0]; after_results_simp; rfl
theorem hostOps0_agg (W : Valuation τ sig (Elt F)) :
    after hostOps0 W (Proc.devRef .tc main_v21) = meanAgg (W (Proc.devRef .tc main_arg0)) (src (W (Proc.devRef .tc main_arg1))) (dst (W (Proc.devRef .tc main_arg1))) := by
  dsimp only [hostOps0]; after_results_simp; rfl
theorem hostOps0_bias (W : Valuation τ sig (Elt F)) :
    after hostOps0 W (Proc.devRef .tc main_v28) = maskedBias (W (Proc.devRef .tc main_arg4)) (dst (W (Proc.devRef .tc main_arg1))) := by
  dsimp only [hostOps0]; after_results_simp; rfl
theorem hostOps1_mean (W : Valuation τ sig (Elt F)) :
    after hostOps1 W (Proc.devRef .tc main_v40) = asRow (colMean (W (Proc.devRef .tc main_v29))) := by
  dsimp only [hostOps1]; after_results_simp; rfl
theorem hostOps1_var (W : Valuation τ sig (Elt F)) :
    after hostOps1 W (Proc.devRef .tc main_v41) = asRow (colVar (W (Proc.devRef .tc main_v29))) := by
  dsimp only [hostOps1]; after_results_simp; rfl
theorem hostOps1_gamma (W : Valuation τ sig (Elt F)) :
    after hostOps1 W (Proc.devRef .tc main_v44) = asRow (pick ![0, 0] slices_S4x64_S1x64_0_0 (W (Proc.devRef .tc main_arg15))) := by
  dsimp only [hostOps1]; after_results_simp; rfl
theorem hostOps1_beta (W : Valuation τ sig (Elt F)) :
    after hostOps1 W (Proc.devRef .tc main_v47) = asRow (pick ![0, 0] slices_S4x64_S1x64_0_0 (W (Proc.devRef .tc main_arg16))) := by
  dsimp only [hostOps1]; after_results_simp; rfl
theorem hostOps2_agg (W : Valuation τ sig (Elt F)) :
    after hostOps2 W (Proc.devRef .tc main_v66) = meanAgg (W (Proc.devRef .tc main_v48)) (W (Proc.devRef .tc main_v1)) (W (Proc.devRef .tc main_v3)) := by
  dsimp only [hostOps2]; after_results_simp; rfl
theorem hostOps2_bias (W : Valuation τ sig (Elt F)) :
    after hostOps2 W (Proc.devRef .tc main_v70) = asRow (W (Proc.devRef .tc main_arg6)) := by
  dsimp only [hostOps2]; after_results_simp; rfl
theorem hostOps3_mean (W : Valuation τ sig (Elt F)) :
    after hostOps3 W (Proc.devRef .tc main_v82) = asRow (colMean (W (Proc.devRef .tc main_v71))) := by
  dsimp only [hostOps3]; after_results_simp; rfl
theorem hostOps3_var (W : Valuation τ sig (Elt F)) :
    after hostOps3 W (Proc.devRef .tc main_v83) = asRow (colVar (W (Proc.devRef .tc main_v71))) := by
  dsimp only [hostOps3]; after_results_simp; rfl
theorem hostOps3_gamma (W : Valuation τ sig (Elt F)) :
    after hostOps3 W (Proc.devRef .tc main_v86) = asRow (pick ![1, 0] slices_S4x64_S1x64_1_0 (W (Proc.devRef .tc main_arg15))) := by
  dsimp only [hostOps3]; after_results_simp; rfl
theorem hostOps3_beta (W : Valuation τ sig (Elt F)) :
    after hostOps3 W (Proc.devRef .tc main_v89) = asRow (pick ![1, 0] slices_S4x64_S1x64_1_0 (W (Proc.devRef .tc main_arg16))) := by
  dsimp only [hostOps3]; after_results_simp; rfl
theorem hostOps4_sum (W : Valuation τ sig (Elt F)) :
    after hostOps4 W (Proc.devRef .tc main_v100) = segSum (W (Proc.devRef .tc main_v90)) (W (Proc.devRef .tc main_v1)) (W (Proc.devRef .tc main_v3)) := by
  dsimp only [hostOps4]; after_results_simp; rfl
theorem hostOps4_bias_a (W : Valuation τ sig (Elt F)) :
    after hostOps4 W (Proc.devRef .tc main_v101) = asRow (W (Proc.devRef .tc main_arg9)) := by
  dsimp only [hostOps4]; after_results_simp; rfl
theorem hostOps4_bias_b (W : Valuation τ sig (Elt F)) :
    after hostOps4 W (Proc.devRef .tc main_v102) = asRow (W (Proc.devRef .tc main_arg11)) := by
  dsimp only [hostOps4]; after_results_simp; rfl
theorem hostOps5_mean (W : Valuation τ sig (Elt F)) :
    after hostOps5 W (Proc.devRef .tc main_v114) = asRow (colMean (W (Proc.devRef .tc main_v103))) := by
  dsimp only [hostOps5]; after_results_simp; rfl
theorem hostOps5_var (W : Valuation τ sig (Elt F)) :
    after hostOps5 W (Proc.devRef .tc main_v115) = asRow (colVar (W (Proc.devRef .tc main_v103))) := by
  dsimp only [hostOps5]; after_results_simp; rfl
theorem hostOps5_gamma (W : Valuation τ sig (Elt F)) :
    after hostOps5 W (Proc.devRef .tc main_v118) = asRow (pick ![2, 0] slices_S4x64_S1x64_2_0 (W (Proc.devRef .tc main_arg15))) := by
  dsimp only [hostOps5]; after_results_simp; rfl
theorem hostOps5_beta (W : Valuation τ sig (Elt F)) :
    after hostOps5 W (Proc.devRef .tc main_v121) = asRow (pick ![2, 0] slices_S4x64_S1x64_2_0 (W (Proc.devRef .tc main_arg16))) := by
  dsimp only [hostOps5]; after_results_simp; rfl
theorem hostOps6_sum (W : Valuation τ sig (Elt F)) :
    after hostOps6 W (Proc.devRef .tc main_v132) = segSum (W (Proc.devRef .tc main_v122)) (W (Proc.devRef .tc main_v1)) (W (Proc.devRef .tc main_v3)) := by
  dsimp only [hostOps6]; after_results_simp; rfl
theorem hostOps6_bias (W : Valuation τ sig (Elt F)) :
    after hostOps6 W (Proc.devRef .tc main_v133) = asRow (W (Proc.devRef .tc main_arg13)) := by
  dsimp only [hostOps6]; after_results_simp; rfl
theorem hostOps7_mean (W : Valuation τ sig (Elt F)) :
    after hostOps7 W (Proc.devRef .tc main_v145) = asRow (colMean (W (Proc.devRef .tc main_v134))) := by
  dsimp only [hostOps7]; after_results_simp; rfl
theorem hostOps7_var (W : Valuation τ sig (Elt F)) :
    after hostOps7 W (Proc.devRef .tc main_v146) = asRow (colVar (W (Proc.devRef .tc main_v134))) := by
  dsimp only [hostOps7]; after_results_simp; rfl
theorem hostOps7_gamma (W : Valuation τ sig (Elt F)) :
    after hostOps7 W (Proc.devRef .tc main_v149) = asRow (pick ![3, 0] slices_S4x64_S1x64_3_0 (W (Proc.devRef .tc main_arg15))) := by
  dsimp only [hostOps7]; after_results_simp; rfl
theorem hostOps7_beta (W : Valuation τ sig (Elt F)) :
    after hostOps7 W (Proc.devRef .tc main_v152) = asRow (pick ![3, 0] slices_S4x64_S1x64_3_0 (W (Proc.devRef .tc main_arg16))) := by
  dsimp only [hostOps7]; after_results_simp; rfl
theorem hostOps8_pool (W : Valuation τ sig (Elt F)) :
    after hostOps8 W (Proc.devRef .tc main_v164) = pool (W (Proc.devRef .tc main_v153)) (W (Proc.devRef .tc main_arg2)) := by
  dsimp only [hostOps8]; after_results_simp; rfl
theorem hostOps8_bias (W : Valuation τ sig (Elt F)) :
    after hostOps8 W (Proc.devRef .tc main_v165) = asRow16 (W (Proc.devRef .tc main_arg18)) := by
  dsimp only [hostOps8]; after_results_simp; rfl

end Cert.KernelIdeal.KHost

end
-- ==== Proof.KWrites.lean ====
/-
  For each of the nine stretches of host operations of the idealized kernel program, the list of the buffers
  its operations write (each operation writes exactly one buffer: its result), in program order. A buffer
  outside a stretch's list keeps its contents across the stretch.
-/
import proofs.«175823_j87351044866594_1_alg».proof.KernelIdeal

namespace Cert.KernelIdeal.KWrites

open Cert.KernelIdeal Idealize.ShloMosaic

/-- The 36 buffers stretch 0 writes. -/
abbrev written0 : List (Ref sig .tc) :=
  [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_cst_4, main_v22, main_v23, main_v24, main_v25, main_v26, main_v27, main_v28]

/-- The 22 buffers stretch 1 writes. -/
abbrev written1 : List (Ref sig .tc) :=
  [main_cst_5, main_v30, main_cst_6, main_v31, main_v32, main_v33, main_v34, main_v35, main_v36, main_cst_7, main_v37, main_cst_8, main_v38, main_v39, main_v40, main_v41, main_v42, main_v43, main_v44, main_v45, main_v46, main_v47]

/-- The 29 buffers stretch 2 writes. -/
abbrev written2 : List (Ref sig .tc) :=
  [main_c_9, main_v49, main_v50, main_c_10, main_v51, main_v52, main_v53, main_v54, main_v55, main_cst_11, main_v56, main_v57, main_v58, main_cst_12, main_v59, main_cst_13, main_v60, main_v61, main_v62, main_cst_14, main_v63, main_v64, main_v65, main_v66, main_cst_15, main_v67, main_v68, main_v69, main_v70]

/-- The 22 buffers stretch 3 writes. -/
abbrev written3 : List (Ref sig .tc) :=
  [main_cst_16, main_v72, main_cst_17, main_v73, main_v74, main_v75, main_v76, main_v77, main_v78, main_cst_18, main_v79, main_cst_19, main_v80, main_v81, main_v82, main_v83, main_v84, main_v85, main_v86, main_v87, main_v88, main_v89]

/-- The 15 buffers stretch 4 writes. -/
abbrev written4 : List (Ref sig .tc) :=
  [main_c_20, main_v91, main_v92, main_c_21, main_v93, main_v94, main_v95, main_v96, main_v97, main_cst_22, main_v98, main_v99, main_v100, main_v101, main_v102]

/-- The 22 buffers stretch 5 writes. -/
abbrev written5 : List (Ref sig .tc) :=
  [main_cst_23, main_v104, main_cst_24, main_v105, main_v106, main_v107, main_v108, main_v109, main_v110, main_cst_25, main_v111, main_cst_26, main_v112, main_v113, main_v114, main_v115, main_v116, main_v117, main_v118, main_v119, main_v120, main_v121]

/-- The 14 buffers stretch 6 writes. -/
abbrev written6 : List (Ref sig .tc) :=
  [main_c_27, main_v123, main_v124, main_c_28, main_v125, main_v126, main_v127, main_v128, main_v129, main_cst_29, main_v130, main_v131, main_v132, main_v133]

/-- The 22 buffers stretch 7 writes. -/
abbrev written7 : List (Ref sig .tc) :=
  [main_cst_30, main_v135, main_cst_31, main_v136, main_v137, main_v138, main_v139, main_v140, main_v141, main_cst_32, main_v142, main_cst_33, main_v143, main_v144, main_v145, main_v146, main_v147, main_v148, main_v149, main_v150, main_v151, main_v152]

/-- The 16 buffers stretch 8 writes. -/
abbrev written8 : List (Ref sig .tc) :=
  [main_cst_34, main_v154, main_v155, main_v156, main_cst_35, main_v157, main_cst_36, main_v158, main_v159, main_v160, main_cst_37, main_v161, main_v162, main_v163, main_v164, main_v165]

end Cert.KernelIdeal.KWrites
-- ==== Proof.KKeep.lean ====
/-
  Which buffers survive which part of the idealized kernel program. The contents at the eighteen boundaries are a
  fold: a stretch of host operations rewrites exactly the buffers its operations write, a region exactly its
  windows' arrays. So a buffer that is neither written by stretch k nor an array of region k has the same
  contents before the stretch and after the region. One instance of the two facts per k.
-/
import proofs.«175823_j87351044866594_1_alg».proof.Proof.KWrites
import proofs.«175823_j87351044866594_1_alg».proof.Proof.Gen.KernelIdeal.Frame

set_option maxRecDepth 16384

noncomputable section

namespace Cert.KernelIdeal.KKeep

open Cert.KernelIdeal Cert.KernelIdeal.Gen Cert.KernelIdeal.KWrites
open Idealize.ShloMosaic Idealize.ShloMosaic.TcCoe Idealize.SL.Sem

variable {F : FTy → Type} [FloatOps F]

/-- Stretch 0 writes only the buffers of its list. -/
theorem writes0 : (hostOps0 : List (HloOp τ sig (Elt F))).Forall fun op => op.writes ⊆ ((written0).map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- Stretch 1 writes only the buffers of its list. -/
theorem writes1 : (hostOps1 : List (HloOp τ sig (Elt F))).Forall fun op => op.writes ⊆ ((written1).map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- Stretch 2 writes only the buffers of its list. -/
theorem writes2 : (hostOps2 : List (HloOp τ sig (Elt F))).Forall fun op => op.writes ⊆ ((written2).map (Proc.devRef (τ := τ) .tc)).toFinset := by
  simp only [hostOps2, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- Stretch 3 writes only the buffers of its list. -/
theorem writes3 : (hostOps3 : List (HloOp τ sig (Elt F))).Forall fun op => op.writes ⊆ ((written3).map (Proc.devRef (τ := τ) .tc)).toFinset := by
  simp only [hostOps3, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- Stretch 4 writes only the buffers of its list. -/
theorem writes4 : (hostOps4 : List (HloOp τ sig (Elt F))).Forall fun op => op.writes ⊆ ((written4).map (Proc.devRef (τ := τ) .tc)).toFinset := by
  simp only [hostOps4, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- Stretch 5 writes only the buffers of its list. -/
theorem writes5 : (hostOps5 : List (HloOp τ sig (Elt F))).Forall fun op => op.writes ⊆ ((written5).map (Proc.devRef (τ := τ) .tc)).toFinset := by
  simp only [hostOps5, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- Stretch 6 writes only the buffers of its list. -/
theorem writes6 : (hostOps6 : List (HloOp τ sig (Elt F))).Forall fun op => op.writes ⊆ ((written6).map (Proc.devRef (τ := τ) .tc)).toFinset := by
  simp only [hostOps6, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- Stretch 7 writes only the buffers of its list. -/
theorem writes7 : (hostOps7 : List (HloOp τ sig (Elt F))).Forall fun op => op.writes ⊆ ((written7).map (Proc.devRef (τ := τ) .tc)).toFinset := by
  simp only [hostOps7, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- Stretch 8 writes only the buffers of its list. -/
theorem writes8 : (hostOps8 : List (HloOp τ sig (Elt F))).Forall fun op => op.writes ⊆ ((written8).map (Proc.devRef (τ := τ) .tc)).toFinset := by
  simp only [hostOps8, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

variable (m : (ℓ : Loc nD τ sig) → Buf (Elt F) ℓ) (ρ : Dev nD → PrngReg) (c : Dev nD)

/-- A buffer that stretch 0 does not write and that is no array of region 0 has, after the region, the contents it had before the stretch. -/
theorem pair0 (b : Ref sig .tc) (h : b ∉ written0) (r : ∀ w, Pipeline.arrRef spec0 w ≠ b) :
    W2 m ρ c (Proc.devRef .tc b) = W0 m ρ c (Proc.devRef .tc b) :=
  (W2_of_ne m ρ c b r).trans (StableHlo.after_of_writes_sub hostOps0 _ writes0 h)
/-- A buffer that stretch 0 does not write has, after the stretch, the contents it had before it. -/
theorem host0 (b : Ref sig .tc) (h : b ∉ written0) :
    W1 m ρ c (Proc.devRef .tc b) = W0 m ρ c (Proc.devRef .tc b) :=
  StableHlo.after_of_writes_sub hostOps0 _ writes0 h

/-- A buffer that stretch 1 does not write and that is no array of region 1 has, after the region, the contents it had before the stretch. -/
theorem pair1 (b : Ref sig .tc) (h : b ∉ written1) (r : ∀ w, Pipeline.arrRef spec1 w ≠ b) :
    W4 m ρ c (Proc.devRef .tc b) = W2 m ρ c (Proc.devRef .tc b) :=
  (W4_of_ne m ρ c b r).trans (StableHlo.after_of_writes_sub hostOps1 _ writes1 h)
/-- A buffer that stretch 1 does not write has, after the stretch, the contents it had before it. -/
theorem host1 (b : Ref sig .tc) (h : b ∉ written1) :
    W3 m ρ c (Proc.devRef .tc b) = W2 m ρ c (Proc.devRef .tc b) :=
  StableHlo.after_of_writes_sub hostOps1 _ writes1 h

/-- A buffer that stretch 2 does not write and that is no array of region 2 has, after the region, the contents it had before the stretch. -/
theorem pair2 (b : Ref sig .tc) (h : b ∉ written2) (r : ∀ w, Pipeline.arrRef spec2 w ≠ b) :
    W6 m ρ c (Proc.devRef .tc b) = W4 m ρ c (Proc.devRef .tc b) :=
  (W6_of_ne m ρ c b r).trans (StableHlo.after_of_writes_sub hostOps2 _ writes2 h)
/-- A buffer that stretch 2 does not write has, after the stretch, the contents it had before it. -/
theorem host2 (b : Ref sig .tc) (h : b ∉ written2) :
    W5 m ρ c (Proc.devRef .tc b) = W4 m ρ c (Proc.devRef .tc b) :=
  StableHlo.after_of_writes_sub hostOps2 _ writes2 h

/-- A buffer that stretch 3 does not write and that is no array of region 3 has, after the region, the contents it had before the stretch. -/
theorem pair3 (b : Ref sig .tc) (h : b ∉ written3) (r : ∀ w, Pipeline.arrRef spec3 w ≠ b) :
    W8 m ρ c (Proc.devRef .tc b) = W6 m ρ c (Proc.devRef .tc b) :=
  (W8_of_ne m ρ c b r).trans (StableHlo.after_of_writes_sub hostOps3 _ writes3 h)
/-- A buffer that stretch 3 does not write has, after the stretch, the contents it had before it. -/
theorem host3 (b : Ref sig .tc) (h : b ∉ written3) :
    W7 m ρ c (Proc.devRef .tc b) = W6 m ρ c (Proc.devRef .tc b) :=
  StableHlo.after_of_writes_sub hostOps3 _ writes3 h

/-- A buffer that stretch 4 does not write and that is no array of region 4 has, after the region, the contents it had before the stretch. -/
theorem pair4 (b : Ref sig .tc) (h : b ∉ written4) (r : ∀ w, Pipeline.arrRef spec4 w ≠ b) :
    W10 m ρ c (Proc.devRef .tc b) = W8 m ρ c (Proc.devRef .tc b) :=
  (W10_of_ne m ρ c b r).trans (StableHlo.after_of_writes_sub hostOps4 _ writes4 h)
/-- A buffer that stretch 4 does not write has, after the stretch, the contents it had before it. -/
theorem host4 (b : Ref sig .tc) (h : b ∉ written4) :
    W9 m ρ c (Proc.devRef .tc b) = W8 m ρ c (Proc.devRef .tc b) :=
  StableHlo.after_of_writes_sub hostOps4 _ writes4 h

/-- A buffer that stretch 5 does not write and that is no array of region 5 has, after the region, the contents it had before the stretch. -/
theorem pair5 (b : Ref sig .tc) (h : b ∉ written5) (r : ∀ w, Pipeline.arrRef spec5 w ≠ b) :
    W12 m ρ c (Proc.devRef .tc b) = W10 m ρ c (Proc.devRef .tc b) :=
  (W12_of_ne m ρ c b r).trans (StableHlo.after_of_writes_sub hostOps5 _ writes5 h)
/-- A buffer that stretch 5 does not write has, after the stretch, the contents it had before it. -/
theorem host5 (b : Ref sig .tc) (h : b ∉ written5) :
    W11 m ρ c (Proc.devRef .tc b) = W10 m ρ c (Proc.devRef .tc b) :=
  StableHlo.after_of_writes_sub hostOps5 _ writes5 h

/-- A buffer that stretch 6 does not write and that is no array of region 6 has, after the region, the contents it had before the stretch. -/
theorem pair6 (b : Ref sig .tc) (h : b ∉ written6) (r : ∀ w, Pipeline.arrRef spec6 w ≠ b) :
    W14 m ρ c (Proc.devRef .tc b) = W12 m ρ c (Proc.devRef .tc b) :=
  (W14_of_ne m ρ c b r).trans (StableHlo.after_of_writes_sub hostOps6 _ writes6 h)
/-- A buffer that stretch 6 does not write has, after the stretch, the contents it had before it. -/
theorem host6 (b : Ref sig .tc) (h : b ∉ written6) :
    W13 m ρ c (Proc.devRef .tc b) = W12 m ρ c (Proc.devRef .tc b) :=
  StableHlo.after_of_writes_sub hostOps6 _ writes6 h

/-- A buffer that stretch 7 does not write and that is no array of region 7 has, after the region, the contents it had before the stretch. -/
theorem pair7 (b : Ref sig .tc) (h : b ∉ written7) (r : ∀ w, Pipeline.arrRef spec7 w ≠ b) :
    W16 m ρ c (Proc.devRef .tc b) = W14 m ρ c (Proc.devRef .tc b) :=
  (W16_of_ne m ρ c b r).trans (StableHlo.after_of_writes_sub hostOps7 _ writes7 h)
/-- A buffer that stretch 7 does not write has, after the stretch, the contents it had before it. -/
theorem host7 (b : Ref sig .tc) (h : b ∉ written7) :
    W15 m ρ c (Proc.devRef .tc b) = W14 m ρ c (Proc.devRef .tc b) :=
  StableHlo.after_of_writes_sub hostOps7 _ writes7 h

/-- A buffer that stretch 8 does not write and that is no array of region 8 has, after the region, the contents it had before the stretch. -/
theorem pair8 (b : Ref sig .tc) (h : b ∉ written8) (r : ∀ w, Pipeline.arrRef spec8 w ≠ b) :
    W18 m ρ c (Proc.devRef .tc b) = W16 m ρ c (Proc.devRef .tc b) :=
  (W18_of_ne m ρ c b r).trans (StableHlo.after_of_writes_sub hostOps8 _ writes8 h)
/-- A buffer that stretch 8 does not write has, after the stretch, the contents it had before it. -/
theorem host8 (b : Ref sig .tc) (h : b ∉ written8) :
    W17 m ρ c (Proc.devRef .tc b) = W16 m ρ c (Proc.devRef .tc b) :=
  StableHlo.after_of_writes_sub hostOps8 _ writes8 h

/-- The launch contents are the launch memory. -/
theorem base (b : Ref sig .tc) : W0 m ρ c (Proc.devRef .tc b) = m ((c : Thread nD τ).loc b) := rfl

end Cert.KernelIdeal.KKeep

end
-- ==== Proof.KKeepAll.lean ====
/-
  A buffer that no host stretch before region k writes and that is no array of an earlier region still has,
  when stretch k starts, the contents it had at launch (an argument) or after the first region (the two rows of the
  edge list, which the first stretch computes): the single steps of the fold, composed. One instance per boundary.
-/
import proofs.«175823_j87351044866594_1_alg».proof.Proof.KKeep

set_option maxRecDepth 16384

noncomputable section

namespace Cert.KernelIdeal.KKeep

open Cert.KernelIdeal Cert.KernelIdeal.Gen Cert.KernelIdeal.KWrites
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- Untouched before stretch 1: neither written by stretches 0…0 nor an array of regions 0…0. -/
abbrev Untouched1 (b : Ref sig .tc) : Prop := b ∉ written0 ∧ (∀ w, Pipeline.arrRef spec0 w ≠ b)
/-- Such a buffer has its launch contents when stretch 1 starts. -/
theorem launch1 (b : Ref sig .tc) (h : Untouched1 b) : W2 m ρ c (Proc.devRef .tc b) = m ((c : Thread nD τ).loc b) := by
  obtain ⟨h0, r0⟩ := h
  exact pair0 m ρ c b h0 r0

/-- Untouched before stretch 2: neither written by stretches 0…1 nor an array of regions 0…1. -/
abbrev Untouched2 (b : Ref sig .tc) : Prop := b ∉ written0 ∧ (∀ w, Pipeline.arrRef spec0 w ≠ b) ∧ b ∉ written1 ∧ (∀ w, Pipeline.arrRef spec1 w ≠ b)
/-- Such a buffer has its launch contents when stretch 2 starts. -/
theorem launch2 (b : Ref sig .tc) (h : Untouched2 b) : W4 m ρ c (Proc.devRef .tc b) = m ((c : Thread nD τ).loc b) := by
  obtain ⟨h0, r0, h1, r1⟩ := h
  exact (pair1 m ρ c b h1 r1).trans (pair0 m ρ c b h0 r0)

/-- Untouched before stretch 3: neither written by stretches 0…2 nor an array of regions 0…2. -/
abbrev Untouched3 (b : Ref sig .tc) : Prop := b ∉ written0 ∧ (∀ w, Pipeline.arrRef spec0 w ≠ b) ∧ b ∉ written1 ∧ (∀ w, Pipeline.arrRef spec1 w ≠ b) ∧ b ∉ written2 ∧ (∀ w, Pipeline.arrRef spec2 w ≠ b)
/-- Such a buffer has its launch contents when stretch 3 starts. -/
theorem launch3 (b : Ref sig .tc) (h : Untouched3 b) : W6 m ρ c (Proc.devRef .tc b) = m ((c : Thread nD τ).loc b) := by
  obtain ⟨h0, r0, h1, r1, h2, r2⟩ := h
  exact ((pair2 m ρ c b h2 r2).trans (pair1 m ρ c b h1 r1)).trans (pair0 m ρ c b h0 r0)

/-- Untouched before stretch 4: neither written by stretches 0…3 nor an array of regions 0…3. -/
abbrev Untouched4 (b : Ref sig .tc) : Prop := b ∉ written0 ∧ (∀ w, Pipeline.arrRef spec0 w ≠ b) ∧ b ∉ written1 ∧ (∀ w, Pipeline.arrRef spec1 w ≠ b) ∧ b ∉ written2 ∧ (∀ w, Pipeline.arrRef spec2 w ≠ b) ∧ b ∉ written3 ∧ (∀ w, Pipeline.arrRef spec3 w ≠ b)
/-- Such a buffer has its launch contents when stretch 4 starts. -/
theorem launch4 (b : Ref sig .tc) (h : Untouched4 b) : W8 m ρ c (Proc.devRef .tc b) = m ((c : Thread nD τ).loc b) := by
  obtain ⟨h0, r0, h1, r1, h2, r2, h3, r3⟩ := h
  exact (((pair3 m ρ c b h3 r3).trans (pair2 m ρ c b h2 r2)).trans (pair1 m ρ c b h1 r1)).trans (pair0 m ρ c b h0 r0)

/-- Untouched before stretch 5: neither written by stretches 0…4 nor an array of regions 0…4. -/
abbrev Untouched5 (b : Ref sig .tc) : Prop := b ∉ written0 ∧ (∀ w, Pipeline.arrRef spec0 w ≠ b) ∧ b ∉ written1 ∧ (∀ w, Pipeline.arrRef spec1 w ≠ b) ∧ b ∉ written2 ∧ (∀ w, Pipeline.arrRef spec2 w ≠ b) ∧ b ∉ written3 ∧ (∀ w, Pipeline.arrRef spec3 w ≠ b) ∧ b ∉ written4 ∧ (∀ w, Pipeline.arrRef spec4 w ≠ b)
/-- Such a buffer has its launch contents when stretch 5 starts. -/
theorem launch5 (b : Ref sig .tc) (h : Untouched5 b) : W10 m ρ c (Proc.devRef .tc b) = m ((c : Thread nD τ).loc b) := by
  obtain ⟨h0, r0, h1, r1, h2, r2, h3, r3, h4, r4⟩ := h
  exact ((((pair4 m ρ c b h4 r4).trans (pair3 m ρ c b h3 r3)).trans (pair2 m ρ c b h2 r2)).trans (pair1 m ρ c b h1 r1)).trans (pair0 m ρ c b h0 r0)

/-- Untouched before stretch 6: neither written by stretches 0…5 nor an array of regions 0…5. -/
abbrev Untouched6 (b : Ref sig .tc) : Prop := b ∉ written0 ∧ (∀ w, Pipeline.arrRef spec0 w ≠ b) ∧ b ∉ written1 ∧ (∀ w, Pipeline.arrRef spec1 w ≠ b) ∧ b ∉ written2 ∧ (∀ w, Pipeline.arrRef spec2 w ≠ b) ∧ b ∉ written3 ∧ (∀ w, Pipeline.arrRef spec3 w ≠ b) ∧ b ∉ written4 ∧ (∀ w, Pipeline.arrRef spec4 w ≠ b) ∧ b ∉ written5 ∧ (∀ w, Pipeline.arrRef spec5 w ≠ b)
/-- Such a buffer has its launch contents when stretch 6 starts. -/
theorem launch6 (b : Ref sig .tc) (h : Untouched6 b) : W12 m ρ c (Proc.devRef .tc b) = m ((c : Thread nD τ).loc b) := by
  obtain ⟨h0, r0, h1, r1, h2, r2, h3, r3, h4, r4, h5, r5⟩ := h
  exact (((((pair5 m ρ c b h5 r5).trans (pair4 m ρ c b h4 r4)).trans (pair3 m ρ c b h3 r3)).trans (pair2 m ρ c b h2 r2)).trans (pair1 m ρ c b h1 r1)).trans (pair0 m ρ c b h0 r0)

/-- Untouched before stretch 7: neither written by stretches 0…6 nor an array of regions 0…6. -/
abbrev Untouched7 (b : Ref sig .tc) : Prop := b ∉ written0 ∧ (∀ w, Pipeline.arrRef spec0 w ≠ b) ∧ b ∉ written1 ∧ (∀ w, Pipeline.arrRef spec1 w ≠ b) ∧ b ∉ written2 ∧ (∀ w, Pipeline.arrRef spec2 w ≠ b) ∧ b ∉ written3 ∧ (∀ w, Pipeline.arrRef spec3 w ≠ b) ∧ b ∉ written4 ∧ (∀ w, Pipeline.arrRef spec4 w ≠ b) ∧ b ∉ written5 ∧ (∀ w, Pipeline.arrRef spec5 w ≠ b) ∧ b ∉ written6 ∧ (∀ w, Pipeline.arrRef spec6 w ≠ b)
/-- Such a buffer has its launch contents when stretch 7 starts. -/
theorem launch7 (b : Ref sig .tc) (h : Untouched7 b) : W14 m ρ c (Proc.devRef .tc b) = m ((c : Thread nD τ).loc b) := by
  obtain ⟨h0, r0, h1, r1, h2, r2, h3, r3, h4, r4, h5, r5, h6, r6⟩ := h
  exact ((((((pair6 m ρ c b h6 r6).trans (pair5 m ρ c b h5 r5)).trans (pair4 m ρ c b h4 r4)).trans (pair3 m ρ c b h3 r3)).trans (pair2 m ρ c b h2 r2)).trans (pair1 m ρ c b h1 r1)).trans (pair0 m ρ c b h0 r0)

/-- Untouched before stretch 8: neither written by stretches 0…7 nor an array of regions 0…7. -/
abbrev Untouched8 (b : Ref sig .tc) : Prop := b ∉ written0 ∧ (∀ w, Pipeline.arrRef spec0 w ≠ b) ∧ b ∉ written1 ∧ (∀ w, Pipeline.arrRef spec1 w ≠ b) ∧ b ∉ written2 ∧ (∀ w, Pipeline.arrRef spec2 w ≠ b) ∧ b ∉ written3 ∧ (∀ w, Pipeline.arrRef spec3 w ≠ b) ∧ b ∉ written4 ∧ (∀ w, Pipeline.arrRef spec4 w ≠ b) ∧ b ∉ written5 ∧ (∀ w, Pipeline.arrRef spec5 w ≠ b) ∧ b ∉ written6 ∧ (∀ w, Pipeline.arrRef spec6 w ≠ b) ∧ b ∉ written7 ∧ (∀ w, Pipeline.arrRef spec7 w ≠ b)
/-- Such a buffer has its launch contents when stretch 8 starts. -/
theorem launch8 (b : Ref sig .tc) (h : Untouched8 b) : W16 m ρ c (Proc.devRef .tc b) = m ((c : Thread nD τ).loc b) := by
  obtain ⟨h0, r0, h1, r1, h2, r2, h3, r3, h4, r4, h5, r5, h6, r6, h7, r7⟩ := h
  exact (((((((pair7 m ρ c b h7 r7).trans (pair6 m ρ c b h6 r6)).trans (pair5 m ρ c b h5 r5)).trans (pair4 m ρ c b h4 r4)).trans (pair3 m ρ c b h3 r3)).trans (pair2 m ρ c b h2 r2)).trans (pair1 m ρ c b h1 r1)).trans (pair0 m ρ c b h0 r0)

/-- Untouched between the first region and stretch 2. -/
abbrev Later2 (b : Ref sig .tc) : Prop := b ∉ written1 ∧ (∀ w, Pipeline.arrRef spec1 w ≠ b)
/-- Such a buffer has, when stretch 2 starts, the contents it had after the first region. -/
theorem later2 (b : Ref sig .tc) (h : Later2 b) : W4 m ρ c (Proc.devRef .tc b) = W2 m ρ c (Proc.devRef .tc b) := by
  obtain ⟨h1, r1⟩ := h
  exact pair1 m ρ c b h1 r1

/-- Untouched between the first region and stretch 4. -/
abbrev Later4 (b : Ref sig .tc) : Prop := b ∉ written1 ∧ (∀ w, Pipeline.arrRef spec1 w ≠ b) ∧ b ∉ written2 ∧ (∀ w, Pipeline.arrRef spec2 w ≠ b) ∧ b ∉ written3 ∧ (∀ w, Pipeline.arrRef spec3 w ≠ b)
/-- Such a buffer has, when stretch 4 starts, the contents it had after the first region. -/
theorem later4 (b : Ref sig .tc) (h : Later4 b) : W8 m ρ c (Proc.devRef .tc b) = W2 m ρ c (Proc.devRef .tc b) := by
  obtain ⟨h1, r1, h2, r2, h3, r3⟩ := h
  exact ((pair3 m ρ c b h3 r3).trans (pair2 m ρ c b h2 r2)).trans (pair1 m ρ c b h1 r1)

/-- Untouched between the first region and stretch 6. -/
abbrev Later6 (b : Ref sig .tc) : Prop := b ∉ written1 ∧ (∀ w, Pipeline.arrRef spec1 w ≠ b) ∧ b ∉ written2 ∧ (∀ w, Pipeline.arrRef spec2 w ≠ b) ∧ b ∉ written3 ∧ (∀ w, Pipeline.arrRef spec3 w ≠ b) ∧ b ∉ written4 ∧ (∀ w, Pipeline.arrRef spec4 w ≠ b) ∧ b ∉ written5 ∧ (∀ w, Pipeline.arrRef spec5 w ≠ b)
/-- Such a buffer has, when stretch 6 starts, the contents it had after the first region. -/
theorem later6 (b : Ref sig .tc) (h : Later6 b) : W12 m ρ c (Proc.devRef .tc b) = W2 m ρ c (Proc.devRef .tc b) := by
  obtain ⟨h1, r1, h2, r2, h3, r3, h4, r4, h5, r5⟩ := h
  exact ((((pair5 m ρ c b h5 r5).trans (pair4 m ρ c b h4 r4)).trans (pair3 m ρ c b h3 r3)).trans (pair2 m ρ c b h2 r2)).trans (pair1 m ρ c b h1 r1)

end Cert.KernelIdeal.KKeep

end
-- ==== Proof.Tiles.lean ====
/- The row tiles of a [100000,64] array.
   The nine regions of KernelIdeal stage a [100000,64] array in 50 blocks of 2000 whole rows. This module names, for such
   an array, the index at place `y` of block `t` (`place`: row 2000·t + y₀, column y₁), block `t` as a [2000,64] vector
   (`tile`), and for an index of the array the block its row lies in (`blockOf`: row / 2000) and its place inside that
   block (`inBlock`: row % 2000, same column), with the facts that tie them: division with remainder by 2000. -/
import proofs.«175823_j87351044866594_1_alg».proof.KernelIdeal
import Idealize.ShloMosaic.Lib.ValueIdx

noncomputable section

namespace Cert.KernelIdeal.Tiles

open Cert.KernelIdeal Idealize.ShloMosaic Idealize.ShloMosaic.ValueIdx

/-- The index of the array that sits at place `y` of block `t`: row 2000·t + y₀, column y₁. -/
def place (t : Fin 50) (y : S2000x64.Idx) : S100000x64.Idx :=
  ix2
    (Fin.mk (n := 100000) (2000 * t.val + (y 0).val) (by
      have h : (y 0).val < 2000 := (y 0).isLt
      have ht : t.val < 50 := t.isLt
      omega))
    (Fin.mk (n := 64) (y 1).val (by
      have h : (y 1).val < 64 := (y 1).isLt
      exact h))

theorem place_row (t : Fin 50) (y : S2000x64.Idx) : (place t y 0).val = 2000 * t.val + (y 0).val := rfl
theorem place_col (t : Fin 50) (y : S2000x64.Idx) : (place t y 1).val = (y 1).val := rfl

/-- Block `t` of a [100000,64] array: its rows 2000·t … 2000·t + 1999, every column. -/
def tile {F : FTy → Type} (a : S100000x64.Idx → Elt F .f32) (t : Fin 50) : Vec F S2000x64 .f32 :=
  fun y => a (place t y)

/-- The block an index of the array lies in: its row divided by the 2000 rows of a block. -/
def blockOf (i : S100000x64.Idx) : Fin 50 :=
  Fin.mk (n := 50) ((i 0).val / 2000) (by
    have h : (i 0).val < 100000 := (i 0).isLt
    omega)

/-- Where an index of the array sits inside its block: the row modulo 2000, the same column. -/
def inBlock (i : S100000x64.Idx) : S2000x64.Idx :=
  ix2
    (Fin.mk (n := 2000) ((i 0).val % 2000) (Nat.mod_lt _ (by decide)))
    (Fin.mk (n := 64) (i 1).val (by
      have h : (i 1).val < 64 := (i 1).isLt
      exact h))

/-- The index at place `y` of block `t` lies in block `t`: (2000·t + y₀) / 2000 = t since y₀ < 2000. -/
theorem blockOf_place (t : Fin 50) (y : S2000x64.Idx) : blockOf (place t y) = t := by
  have h : (y 0).val < 2000 := (y 0).isLt
  apply Fin.ext
  show (2000 * t.val + (y 0).val) / 2000 = t.val
  omega

/-- The index at place `y` of block `t` sits at place `y`: (2000·t + y₀) % 2000 = y₀ since y₀ < 2000. -/
theorem inBlock_place (t : Fin 50) (y : S2000x64.Idx) : inBlock (place t y) = y := by
  have h : (y 0).val < 2000 := (y 0).isLt
  funext d
  apply Fin.ext
  match d with
  | ⟨0, _⟩ => show (2000 * t.val + (y 0).val) % 2000 = (y 0).val; omega
  | ⟨1, _⟩ => rfl

/-- Every index sits at its place of its block: row = 2000·(row / 2000) + row % 2000. -/
theorem place_blockOf_inBlock (i : S100000x64.Idx) : place (blockOf i) (inBlock i) = i := by
  funext d
  apply Fin.ext
  match d with
  | ⟨0, _⟩ => show 2000 * ((i 0).val / 2000) + (i 0).val % 2000 = (i 0).val; omega
  | ⟨1, _⟩ => rfl

/-- A block read at a place is the array read at row 2000·t + (the place's row), same column. -/
theorem tile_apply {F : FTy → Type} (a : S100000x64.Idx → Elt F .f32) (t : Fin 50) (y : S2000x64.Idx) :
    tile a t y = a (place t y) := rfl

/-- Every index is read back from its own block at its own place. -/
theorem tile_blockOf_inBlock {F : FTy → Type} (a : S100000x64.Idx → Elt F .f32) (i : S100000x64.Idx) :
    tile a (blockOf i) (inBlock i) = a i := by
  rw [tile_apply, place_blockOf_inBlock]

/-! ## A block read through an embedding of its places into the array

A region's window reads its block off an array through an embedding `e` of the block's places into the array's indices,
whose coordinate on each axis is (block index) × (block size) + 1 × (the place's coordinate). The lemmas below are stated
over such an `e` and the block indices `k`, so that a region supplies only its index-map facts. -/

/-- A [2000,64] block read through an embedding whose rows start at 2000·p (row block index p) and whose columns are kept
    (column block index 0) is block `p` of the array. -/
theorem read_eq_tile {F : FTy → Type} (e : S2000x64.Idx → S100000x64.Idx) (p : Fin 50) (k : Fin 2 → Nat)
    (hk : k 0 = p.val ∧ k 1 = 0)
    (he0 : ∀ y, (e y 0).val = k 0 * 2000 + 1 * (y 0).val) (he1 : ∀ y, (e y 1).val = k 1 * 64 + 1 * (y 1).val)
    (G : S100000x64.Idx → Elt F .f32) : (fun y => G (e y)) = tile G p := by
  funext y
  rw [tile_apply]
  congr 1
  funext a
  apply Fin.ext
  match a with
  | ⟨0, _⟩ => show (e y 0).val = (place p y 0).val; rw [he0, hk.1, place_row]; omega
  | ⟨1, _⟩ => show (e y 1).val = (place p y 1).val; rw [he1, hk.2, place_col]; omega

/-- A whole array read through an embedding at block index 0 on every axis is the array. -/
theorem read_eq_self {α : Type} {s : Shape} (e : s.Idx → s.Idx) (k sz : Fin s.rank → Nat) (hk : ∀ a, k a = 0)
    (he : ∀ y a, (e y a).val = k a * sz a + 1 * (y a).val) (G : s.Idx → α) : (fun y => G (e y)) = G := by
  funext y
  congr 1
  funext a
  apply Fin.ext
  rw [he, hk, Nat.zero_mul, Nat.one_mul, Nat.zero_add]

/-- An array given block by block — at an index, a function `Φ` of the index's block, read at the index's place — has
    `Φ p` as its block `p`: the place `y` of block `p` is an index of block `p` at place `y`. -/
theorem tile_blockwise {F : FTy → Type} (Φ : Fin 50 → Vec F S2000x64 .f32) (p : Fin 50) :
    tile (fun i => Φ (blockOf i) (inBlock i)) p = Φ p := by
  funext y
  rw [tile_apply, blockOf_place, inBlock_place]

/-- Fifty [2000,64] blocks at block indices (t, 0) tile the [100000,64] array: the index of row r is in the block of
    point r / 2000, since 2000·(r / 2000) ≤ r < 2000·(r / 2000) + 2000. `mem t i` says that `i` is in point `t`'s block,
    and `hmem` that this means each coordinate is in the block's range on its axis. -/
theorem rows_cover {N : Nat} (hN : N = 50) (k : Fin N → Fin 2 → Nat) (mem : Fin N → S100000x64.Idx → Prop)
    (hk : ∀ t, k t 0 = t.val ∧ k t 1 = 0)
    (hmem : ∀ t i, mem t i ↔ ∀ a : Fin 2, k t a * S2000x64.size a ≤ (i a).val ∧ (i a).val < k t a * S2000x64.size a + S2000x64.size a)
    (i : S100000x64.Idx) : ∃ t, mem t i := by
  subst hN
  have hi0 : (i 0).val < 100000 := (i 0).isLt
  have hi1 : (i 1).val < 64 := (i 1).isLt
  refine ⟨Fin.mk ((i 0).val / 2000) (by omega), ?_⟩
  rw [hmem]
  intro a
  match a with
  | ⟨0, _⟩ =>
    show k _ 0 * 2000 ≤ (i 0).val ∧ (i 0).val < k _ 0 * 2000 + 2000
    rw [(hk _).1]
    show (i 0).val / 2000 * 2000 ≤ (i 0).val ∧ (i 0).val < (i 0).val / 2000 * 2000 + 2000
    omega
  | ⟨1, _⟩ =>
    show k _ 1 * 64 ≤ (i 1).val ∧ (i 1).val < k _ 1 * 64 + 64
    rw [(hk _).2]
    omega

/-- One block at block index 0 on every axis, of the array's own sizes, covers the array. -/
theorem whole_cover {s : Shape} (k : Fin s.rank → Nat) (hk : ∀ a, k a = 0) (i : s.Idx) :
    ∀ a : Fin s.rank, k a * s.size a ≤ (i a).val ∧ (i a).val < k a * s.size a + s.size a := by
  intro a
  have h : (i a).val < s.size a := (i a).isLt
  rw [hk, Nat.zero_mul, Nat.zero_add]
  exact ⟨Nat.zero_le _, h⟩

end Cert.KernelIdeal.Tiles

end
-- ==== Proof.Blocks0.lean ====
/- Region 0 of KernelIdeal (the first linear layer), from blocks to the array.
   The region runs over 50 points. Point t stages rows 2000·t … 2000·t + 1999 of its two [100000,64] inputs and of its
   [100000,64] output (block index (t, 0)), and its one small array whole (block index (0, 0)). So what point t writes
   back is the body's result on block t of the tiled inputs, and since the 50 blocks tile the output array, the array
   ends holding, at an index of row r, the body's result on block r / 2000 read at row r % 2000. Every step is an
   instance, for one window of this region, of a lemma of the module Tiles: the rows below supply the windows' names and
   the index-map facts. -/
import proofs.«175823_j87351044866594_1_alg».proof.Proof.Tiles
import proofs.«175823_j87351044866594_1_alg».proof.Proof.Gen.KernelIdeal.Frame
import Idealize.ShloMosaic.Lib.Pipeline.Value

noncomputable section

namespace Cert.KernelIdeal.Blocks

open Cert.KernelIdeal Cert.KernelIdeal.Gen Cert.KernelIdeal.Tiles
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- A point of the region's grid as the number of the block it stages. -/
def point0 (t : Fin cfg0.N) : Fin 50 := Fin.mk (n := 50) t.val (by have h : t.val < grid0.N := t.isLt; rw [N_0] at h; exact h)

/-! ## The printed index maps, decided once over the grid: block (t, 0) for a row-tiled window, (0, 0) for a resident one -/

theorem index0_0 : ∀ t : Fin cfg0.N, win0_0.index t 0 = t.val ∧ win0_0.index t 1 = 0 := (by decide +kernel : ∀ t : Fin grid0.N, _)
theorem index0_1 : ∀ t : Fin cfg0.N, win0_1.index t 0 = t.val ∧ win0_1.index t 1 = 0 := (by decide +kernel : ∀ t : Fin grid0.N, _)
theorem index0_2 : ∀ (t : Fin cfg0.N) (a : Fin 2), win0_2.index t a = 0 := (by decide +kernel : ∀ (t : Fin grid0.N) (a : Fin 2), _)
theorem index0_3 : ∀ t : Fin cfg0.N, win0_3.index t 0 = t.val ∧ win0_3.index t 1 = 0 := (by decide +kernel : ∀ t : Fin grid0.N, _)

/-! ## Each window's block read off its array: block t of the array for a row-tiled window, the array for a resident one -/

theorem read0_0 (G : S100000x64.Idx → Elt F .f32) (t : Fin cfg0.N) : ((cfg0.win 0).blk t).view.read (Elt F) G = tile G (point0 t) :=
  read_eq_tile (fun y => ((cfg0.win 0).blk t).view.emb y) (point0 t) (win0_0.index t) (index0_0 t) (fun _ => rfl) (fun _ => rfl) G
theorem read0_1 (G : S100000x64.Idx → Elt F .f32) (t : Fin cfg0.N) : ((cfg0.win 1).blk t).view.read (Elt F) G = tile G (point0 t) :=
  read_eq_tile (fun y => ((cfg0.win 1).blk t).view.emb y) (point0 t) (win0_1.index t) (index0_1 t) (fun _ => rfl) (fun _ => rfl) G
theorem read0_2 (G : S64x64.Idx → Elt F .f32) (t : Fin cfg0.N) : ((cfg0.win 2).blk t).view.read (Elt F) G = G :=
  read_eq_self (fun y => ((cfg0.win 2).blk t).view.emb y) (win0_2.index t) S64x64.size (index0_2 t) (fun _ _ => rfl) G
theorem read0_3 (G : S100000x64.Idx → Elt F .f32) (t : Fin cfg0.N) : ((cfg0.win 3).blk t).view.read (Elt F) G = tile G (point0 t) :=
  read_eq_tile (fun y => ((cfg0.win 3).blk t).view.emb y) (point0 t) (win0_3.index t) (index0_3 t) (fun _ => rfl) (fun _ => rfl) G

theorem iblk0_0_eq (c : Dev nD) (t : Fin cfg0.N) : iblk0 V c 0 t = tile (V c main_v21) (point0 t) := read0_0 (V c main_v21) t
theorem iblk0_1_eq (c : Dev nD) (t : Fin cfg0.N) : iblk0 V c 1 t = tile (V c main_v28) (point0 t) := read0_1 (V c main_v28) t
theorem iblk0_2_eq (c : Dev nD) (t : Fin cfg0.N) : iblk0 V c 2 t = V c main_arg3 := read0_2 (V c main_arg3) t

/-- The output window's blocks are whole [2000,64] blocks: what the body leaves in the staging buffer is written back uncut. -/
theorem cut0_3 (X : Vec F S2000x64 .f32) (t : Fin cfg0.N) : (cfg0.win 3).cut (grid0.coords t) X = X := funext fun y => congrArg X (funext fun a => Fin.ext rfl)

/-! ## From blocks to the array -/

/-- What point t writes back is block t of the whole-array function (Tiles.tile_blockwise). -/
theorem flushed0_eq (c : Dev nD) (t : Fin cfg0.N) :
    (dat0 V c).flushed 3 t = ((cfg0.win 3).blk t).view.read (Elt F)
      (fun i => out0_3 (tile (V c main_v21) (blockOf i)) (tile (V c main_v28) (blockOf i)) (V c main_arg3) (inBlock i)) := by
  show (cfg0.win 3).cut (grid0.coords t) ((dat0 V c).after 3 t) = _
  rw [after0_3, iblk0_0_eq, iblk0_1_eq, iblk0_2_eq, cut0_3, read0_3]
  exact (tile_blockwise (fun p => out0_3 (tile (V c main_v21) p) (tile (V c main_v28) p) (V c main_arg3)) (point0 t)).symm

/-- An index of the output array is in point t's block iff each coordinate is in the block's range on its axis. -/
theorem mem_blk0 (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v29).slice (win0_3.rect t)).set ↔ _; rw [View.set_slice_whole, Rect.mem_set_unit]; exact Iff.rfl

/-- The blocks tile the output array (Tiles.rows_cover), and every point writes back. -/
theorem cover0 (i : S100000x64.Idx) : ∃ t : Fin cfg0.N, (cfg0.win 3).flush t = true ∧ i ∈ ((cfg0.win 3).blk t).view.set :=
  (rows_cover N_0 win0_3.index (fun t i => i ∈ ((cfg0.win 3).blk t).view.set) index0_3 mem_blk0 i).imp fun t h => ⟨flush0_3 t, h⟩

/-- The output array after the region: at each index, the body's result on the index's block of the tiled inputs and on
    the resident arrays whole, read at the index's place in the block. -/
theorem final0 (c : Dev nD) : (dat0 V c).arrAt 3 cfg0.N
    = fun i => out0_3 (tile (V c main_v21) (blockOf i)) (tile (V c main_v28) (blockOf i)) (V c main_arg3) (inBlock i) :=
  (dat0 V c).arrAt_eq_of_cover 3 _ (fun t _ => flushed0_eq V c t) cover0

end Cert.KernelIdeal.Blocks

end
-- ==== Proof.Blocks1.lean ====
/- Region 1 of KernelIdeal (the first normalisation-and-activation pass), from blocks to the array.
   The region runs over 50 points. Point t stages rows 2000·t … 2000·t + 1999 of its [100000,64] input and of its
   [100000,64] output (block index (t, 0)), and its four small arrays whole (block index (0, 0)). So what point t writes
   back is the body's result on block t of the tiled inputs, and since the 50 blocks tile the output array, the array
   ends holding, at an index of row r, the body's result on block r / 2000 read at row r % 2000. Every step is an
   instance, for one window of this region, of a lemma of the module Tiles: the rows below supply the windows' names and
   the index-map facts. -/
import proofs.«175823_j87351044866594_1_alg».proof.Proof.Tiles
import proofs.«175823_j87351044866594_1_alg».proof.Proof.Gen.KernelIdeal.Frame
import Idealize.ShloMosaic.Lib.Pipeline.Value

noncomputable section

namespace Cert.KernelIdeal.Blocks

open Cert.KernelIdeal Cert.KernelIdeal.Gen Cert.KernelIdeal.Tiles
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- A point of the region's grid as the number of the block it stages. -/
def point1 (t : Fin cfg1.N) : Fin 50 := Fin.mk (n := 50) t.val (by have h : t.val < grid1.N := t.isLt; rw [N_1] at h; exact h)

/-! ## The printed index maps, decided once over the grid: block (t, 0) for a row-tiled window, (0, 0) for a resident one -/

theorem index1_0 : ∀ t : Fin cfg1.N, win1_0.index t 0 = t.val ∧ win1_0.index t 1 = 0 := (by decide +kernel : ∀ t : Fin grid1.N, _)
theorem index1_1 : ∀ (t : Fin cfg1.N) (a : Fin 2), win1_1.index t a = 0 := (by decide +kernel : ∀ (t : Fin grid1.N) (a : Fin 2), _)
theorem index1_2 : ∀ (t : Fin cfg1.N) (a : Fin 2), win1_2.index t a = 0 := (by decide +kernel : ∀ (t : Fin grid1.N) (a : Fin 2), _)
theorem index1_3 : ∀ (t : Fin cfg1.N) (a : Fin 2), win1_3.index t a = 0 := (by decide +kernel : ∀ (t : Fin grid1.N) (a : Fin 2), _)
theorem index1_4 : ∀ (t : Fin cfg1.N) (a : Fin 2), win1_4.index t a = 0 := (by decide +kernel : ∀ (t : Fin grid1.N) (a : Fin 2), _)
theorem index1_5 : ∀ t : Fin cfg1.N, win1_5.index t 0 = t.val ∧ win1_5.index t 1 = 0 := (by decide +kernel : ∀ t : Fin grid1.N, _)

/-! ## Each window's block read off its array: block t of the array for a row-tiled window, the array for a resident one -/

theorem read1_0 (G : S100000x64.Idx → Elt F .f32) (t : Fin cfg1.N) : ((cfg1.win 0).blk t).view.read (Elt F) G = tile G (point1 t) :=
  read_eq_tile (fun y => ((cfg1.win 0).blk t).view.emb y) (point1 t) (win1_0.index t) (index1_0 t) (fun _ => rfl) (fun _ => rfl) G
theorem read1_1 (G : S1x64.Idx → Elt F .f32) (t : Fin cfg1.N) : ((cfg1.win 1).blk t).view.read (Elt F) G = G :=
  read_eq_self (fun y => ((cfg1.win 1).blk t).view.emb y) (win1_1.index t) S1x64.size (index1_1 t) (fun _ _ => rfl) G
theorem read1_2 (G : S1x64.Idx → Elt F .f32) (t : Fin cfg1.N) : ((cfg1.win 2).blk t).view.read (Elt F) G = G :=
  read_eq_self (fun y => ((cfg1.win 2).blk t).view.emb y) (win1_2.index t) S1x64.size (index1_2 t) (fun _ _ => rfl) G
theorem read1_3 (G : S1x64.Idx → Elt F .f32) (t : Fin cfg1.N) : ((cfg1.win 3).blk t).view.read (Elt F) G = G :=
  read_eq_self (fun y => ((cfg1.win 3).blk t).view.emb y) (win1_3.index t) S1x64.size (index1_3 t) (fun _ _ => rfl) G
theorem read1_4 (G : S1x64.Idx → Elt F .f32) (t : Fin cfg1.N) : ((cfg1.win 4).blk t).view.read (Elt F) G = G :=
  read_eq_self (fun y => ((cfg1.win 4).blk t).view.emb y) (win1_4.index t) S1x64.size (index1_4 t) (fun _ _ => rfl) G
theorem read1_5 (G : S100000x64.Idx → Elt F .f32) (t : Fin cfg1.N) : ((cfg1.win 5).blk t).view.read (Elt F) G = tile G (point1 t) :=
  read_eq_tile (fun y => ((cfg1.win 5).blk t).view.emb y) (point1 t) (win1_5.index t) (index1_5 t) (fun _ => rfl) (fun _ => rfl) G

theorem iblk1_0_eq (c : Dev nD) (t : Fin cfg1.N) : iblk1 V c 0 t = tile (V c main_v29) (point1 t) := read1_0 (V c main_v29) t
theorem iblk1_1_eq (c : Dev nD) (t : Fin cfg1.N) : iblk1 V c 1 t = V c main_v40 := read1_1 (V c main_v40) t
theorem iblk1_2_eq (c : Dev nD) (t : Fin cfg1.N) : iblk1 V c 2 t = V c main_v41 := read1_2 (V c main_v41) t
theorem iblk1_3_eq (c : Dev nD) (t : Fin cfg1.N) : iblk1 V c 3 t = V c main_v44 := read1_3 (V c main_v44) t
theorem iblk1_4_eq (c : Dev nD) (t : Fin cfg1.N) : iblk1 V c 4 t = V c main_v47 := read1_4 (V c main_v47) t

/-- The output window's blocks are whole [2000,64] blocks: what the body leaves in the staging buffer is written back uncut. -/
theorem cut1_5 (X : Vec F S2000x64 .f32) (t : Fin cfg1.N) : (cfg1.win 5).cut (grid1.coords t) X = X := funext fun y => congrArg X (funext fun a => Fin.ext rfl)

/-! ## From blocks to the array -/

/-- What point t writes back is block t of the whole-array function (Tiles.tile_blockwise). -/
theorem flushed1_eq (c : Dev nD) (t : Fin cfg1.N) :
    (dat1 V c).flushed 5 t = ((cfg1.win 5).blk t).view.read (Elt F)
      (fun i => out1_5 (tile (V c main_v29) (blockOf i)) (V c main_v40) (V c main_v41) (V c main_v44) (V c main_v47) (inBlock i)) := by
  show (cfg1.win 5).cut (grid1.coords t) ((dat1 V c).after 5 t) = _
  rw [after1_5, iblk1_0_eq, iblk1_1_eq, iblk1_2_eq, iblk1_3_eq, iblk1_4_eq, cut1_5, read1_5]
  exact (tile_blockwise (fun p => out1_5 (tile (V c main_v29) p) (V c main_v40) (V c main_v41) (V c main_v44) (V c main_v47)) (point1 t)).symm

/-- An index of the output array is in point t's block iff each coordinate is in the block's range on its axis. -/
theorem mem_blk1 (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v48).slice (win1_5.rect t)).set ↔ _; rw [View.set_slice_whole, Rect.mem_set_unit]; exact Iff.rfl

/-- The blocks tile the output array (Tiles.rows_cover), and every point writes back. -/
theorem cover1 (i : S100000x64.Idx) : ∃ t : Fin cfg1.N, (cfg1.win 5).flush t = true ∧ i ∈ ((cfg1.win 5).blk t).view.set :=
  (rows_cover N_1 win1_5.index (fun t i => i ∈ ((cfg1.win 5).blk t).view.set) index1_5 mem_blk1 i).imp fun t h => ⟨flush1_5 t, h⟩

/-- The output array after the region: at each index, the body's result on the index's block of the tiled inputs and on
    the resident arrays whole, read at the index's place in the block. -/
theorem final1 (c : Dev nD) : (dat1 V c).arrAt 5 cfg1.N
    = fun i => out1_5 (tile (V c main_v29) (blockOf i)) (V c main_v40) (V c main_v41) (V c main_v44) (V c main_v47) (inBlock i) :=
  (dat1 V c).arrAt_eq_of_cover 5 _ (fun t _ => flushed1_eq V c t) cover1

end Cert.KernelIdeal.Blocks

end
-- ==== Proof.Blocks2.lean ====
/- Region 2 of KernelIdeal (the second linear layer), from blocks to the array.
   The region runs over 50 points. Point t stages rows 2000·t … 2000·t + 1999 of its two [100000,64] inputs and of its
   [100000,64] output (block index (t, 0)), and its three small arrays whole (block index (0, 0)). So what point t writes
   back is the body's result on block t of the tiled inputs, and since the 50 blocks tile the output array, the array
   ends holding, at an index of row r, the body's result on block r / 2000 read at row r % 2000. Every step is an
   instance, for one window of this region, of a lemma of the module Tiles: the rows below supply the windows' names and
   the index-map facts. -/
import proofs.«175823_j87351044866594_1_alg».proof.Proof.Tiles
import proofs.«175823_j87351044866594_1_alg».proof.Proof.Gen.KernelIdeal.Frame
import Idealize.ShloMosaic.Lib.Pipeline.Value

noncomputable section

namespace Cert.KernelIdeal.Blocks

open Cert.KernelIdeal Cert.KernelIdeal.Gen Cert.KernelIdeal.Tiles
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- A point of the region's grid as the number of the block it stages. -/
def point2 (t : Fin cfg2.N) : Fin 50 := Fin.mk (n := 50) t.val (by have h : t.val < grid2.N := t.isLt; rw [N_2] at h; exact h)

/-! ## The printed index maps, decided once over the grid: block (t, 0) for a row-tiled window, (0, 0) for a resident one -/

theorem index2_0 : ∀ t : Fin cfg2.N, win2_0.index t 0 = t.val ∧ win2_0.index t 1 = 0 := (by decide +kernel : ∀ t : Fin grid2.N, _)
theorem index2_1 : ∀ t : Fin cfg2.N, win2_1.index t 0 = t.val ∧ win2_1.index t 1 = 0 := (by decide +kernel : ∀ t : Fin grid2.N, _)
theorem index2_2 : ∀ (t : Fin cfg2.N) (a : Fin 2), win2_2.index t a = 0 := (by decide +kernel : ∀ (t : Fin grid2.N) (a : Fin 2), _)
theorem index2_3 : ∀ (t : Fin cfg2.N) (a : Fin 2), win2_3.index t a = 0 := (by decide +kernel : ∀ (t : Fin grid2.N) (a : Fin 2), _)
theorem index2_4 : ∀ (t : Fin cfg2.N) (a : Fin 2), win2_4.index t a = 0 := (by decide +kernel : ∀ (t : Fin grid2.N) (a : Fin 2), _)
theorem index2_5 : ∀ t : Fin cfg2.N, win2_5.index t 0 = t.val ∧ win2_5.index t 1 = 0 := (by decide +kernel : ∀ t : Fin grid2.N, _)

/-! ## Each window's block read off its array: block t of the array for a row-tiled window, the array for a resident one -/

theorem read2_0 (G : S100000x64.Idx → Elt F .f32) (t : Fin cfg2.N) : ((cfg2.win 0).blk t).view.read (Elt F) G = tile G (point2 t) :=
  read_eq_tile (fun y => ((cfg2.win 0).blk t).view.emb y) (point2 t) (win2_0.index t) (index2_0 t) (fun _ => rfl) (fun _ => rfl) G
theorem read2_1 (G : S100000x64.Idx → Elt F .f32) (t : Fin cfg2.N) : ((cfg2.win 1).blk t).view.read (Elt F) G = tile G (point2 t) :=
  read_eq_tile (fun y => ((cfg2.win 1).blk t).view.emb y) (point2 t) (win2_1.index t) (index2_1 t) (fun _ => rfl) (fun _ => rfl) G
theorem read2_2 (G : S64x64.Idx → Elt F .f32) (t : Fin cfg2.N) : ((cfg2.win 2).blk t).view.read (Elt F) G = G :=
  read_eq_self (fun y => ((cfg2.win 2).blk t).view.emb y) (win2_2.index t) S64x64.size (index2_2 t) (fun _ _ => rfl) G
theorem read2_3 (G : S1x64.Idx → Elt F .f32) (t : Fin cfg2.N) : ((cfg2.win 3).blk t).view.read (Elt F) G = G :=
  read_eq_self (fun y => ((cfg2.win 3).blk t).view.emb y) (win2_3.index t) S1x64.size (index2_3 t) (fun _ _ => rfl) G
theorem read2_4 (G : S64x64.Idx → Elt F .f32) (t : Fin cfg2.N) : ((cfg2.win 4).blk t).view.read (Elt F) G = G :=
  read_eq_self (fun y => ((cfg2.win 4).blk t).view.emb y) (win2_4.index t) S64x64.size (index2_4 t) (fun _ _ => rfl) G
theorem read2_5 (G : S100000x64.Idx → Elt F .f32) (t : Fin cfg2.N) : ((cfg2.win 5).blk t).view.read (Elt F) G = tile G (point2 t) :=
  read_eq_tile (fun y => ((cfg2.win 5).blk t).view.emb y) (point2 t) (win2_5.index t) (index2_5 t) (fun _ => rfl) (fun _ => rfl) G

theorem iblk2_0_eq (c : Dev nD) (t : Fin cfg2.N) : iblk2 V c 0 t = tile (V c main_v66) (point2 t) := read2_0 (V c main_v66) t
theorem iblk2_1_eq (c : Dev nD) (t : Fin cfg2.N) : iblk2 V c 1 t = tile (V c main_v48) (point2 t) := read2_1 (V c main_v48) t
theorem iblk2_2_eq (c : Dev nD) (t : Fin cfg2.N) : iblk2 V c 2 t = V c main_arg5 := read2_2 (V c main_arg5) t
theorem iblk2_3_eq (c : Dev nD) (t : Fin cfg2.N) : iblk2 V c 3 t = V c main_v70 := read2_3 (V c main_v70) t
theorem iblk2_4_eq (c : Dev nD) (t : Fin cfg2.N) : iblk2 V c 4 t = V c main_arg7 := read2_4 (V c main_arg7) t

/-- The output window's blocks are whole [2000,64] blocks: what the body leaves in the staging buffer is written back uncut. -/
theorem cut2_5 (X : Vec F S2000x64 .f32) (t : Fin cfg2.N) : (cfg2.win 5).cut (grid2.coords t) X = X := funext fun y => congrArg X (funext fun a => Fin.ext rfl)

/-! ## From blocks to the array -/

/-- What point t writes back is block t of the whole-array function (Tiles.tile_blockwise). -/
theorem flushed2_eq (c : Dev nD) (t : Fin cfg2.N) :
    (dat2 V c).flushed 5 t = ((cfg2.win 5).blk t).view.read (Elt F)
      (fun i => out2_5 (tile (V c main_v66) (blockOf i)) (tile (V c main_v48) (blockOf i)) (V c main_arg5) (V c main_v70) (V c main_arg7) (inBlock i)) := by
  show (cfg2.win 5).cut (grid2.coords t) ((dat2 V c).after 5 t) = _
  rw [after2_5, iblk2_0_eq, iblk2_1_eq, iblk2_2_eq, iblk2_3_eq, iblk2_4_eq, cut2_5, read2_5]
  exact (tile_blockwise (fun p => out2_5 (tile (V c main_v66) p) (tile (V c main_v48) p) (V c main_arg5) (V c main_v70) (V c main_arg7)) (point2 t)).symm

/-- An index of the output array is in point t's block iff each coordinate is in the block's range on its axis. -/
theorem mem_blk2 (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v71).slice (win2_5.rect t)).set ↔ _; rw [View.set_slice_whole, Rect.mem_set_unit]; exact Iff.rfl

/-- The blocks tile the output array (Tiles.rows_cover), and every point writes back. -/
theorem cover2 (i : S100000x64.Idx) : ∃ t : Fin cfg2.N, (cfg2.win 5).flush t = true ∧ i ∈ ((cfg2.win 5).blk t).view.set :=
  (rows_cover N_2 win2_5.index (fun t i => i ∈ ((cfg2.win 5).blk t).view.set) index2_5 mem_blk2 i).imp fun t h => ⟨flush2_5 t, h⟩

/-- The output array after the region: at each index, the body's result on the index's block of the tiled inputs and on
    the resident arrays whole, read at the index's place in the block. -/
theorem final2 (c : Dev nD) : (dat2 V c).arrAt 5 cfg2.N
    = fun i => out2_5 (tile (V c main_v66) (blockOf i)) (tile (V c main_v48) (blockOf i)) (V c main_arg5) (V c main_v70) (V c main_arg7) (inBlock i) :=
  (dat2 V c).arrAt_eq_of_cover 5 _ (fun t _ => flushed2_eq V c t) cover2

end Cert.KernelIdeal.Blocks

end
-- ==== Proof.Blocks3.lean ====
/- Region 3 of KernelIdeal (the second normalisation-and-activation pass), from blocks to the array.
   The region runs over 50 points. Point t stages rows 2000·t … 2000·t + 1999 of its [100000,64] input and of its
   [100000,64] output (block index (t, 0)), and its four small arrays whole (block index (0, 0)). So what point t writes
   back is the body's result on block t of the tiled inputs, and since the 50 blocks tile the output array, the array
   ends holding, at an index of row r, the body's result on block r / 2000 read at row r % 2000. Every step is an
   instance, for one window of this region, of a lemma of the module Tiles: the rows below supply the windows' names and
   the index-map facts. -/
import proofs.«175823_j87351044866594_1_alg».proof.Proof.Tiles
import proofs.«175823_j87351044866594_1_alg».proof.Proof.Gen.KernelIdeal.Frame
import Idealize.ShloMosaic.Lib.Pipeline.Value

noncomputable section

namespace Cert.KernelIdeal.Blocks

open Cert.KernelIdeal Cert.KernelIdeal.Gen Cert.KernelIdeal.Tiles
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- A point of the region's grid as the number of the block it stages. -/
def point3 (t : Fin cfg3.N) : Fin 50 := Fin.mk (n := 50) t.val (by have h : t.val < grid3.N := t.isLt; rw [N_3] at h; exact h)

/-! ## The printed index maps, decided once over the grid: block (t, 0) for a row-tiled window, (0, 0) for a resident one -/

theorem index3_0 : ∀ t : Fin cfg3.N, win3_0.index t 0 = t.val ∧ win3_0.index t 1 = 0 := (by decide +kernel : ∀ t : Fin grid3.N, _)
theorem index3_1 : ∀ (t : Fin cfg3.N) (a : Fin 2), win3_1.index t a = 0 := (by decide +kernel : ∀ (t : Fin grid3.N) (a : Fin 2), _)
theorem index3_2 : ∀ (t : Fin cfg3.N) (a : Fin 2), win3_2.index t a = 0 := (by decide +kernel : ∀ (t : Fin grid3.N) (a : Fin 2), _)
theorem index3_3 : ∀ (t : Fin cfg3.N) (a : Fin 2), win3_3.index t a = 0 := (by decide +kernel : ∀ (t : Fin grid3.N) (a : Fin 2), _)
theorem index3_4 : ∀ (t : Fin cfg3.N) (a : Fin 2), win3_4.index t a = 0 := (by decide +kernel : ∀ (t : Fin grid3.N) (a : Fin 2), _)
theorem index3_5 : ∀ t : Fin cfg3.N, win3_5.index t 0 = t.val ∧ win3_5.index t 1 = 0 := (by decide +kernel : ∀ t : Fin grid3.N, _)

/-! ## Each window's block read off its array: block t of the array for a row-tiled window, the array for a resident one -/

theorem read3_0 (G : S100000x64.Idx → Elt F .f32) (t : Fin cfg3.N) : ((cfg3.win 0).blk t).view.read (Elt F) G = tile G (point3 t) :=
  read_eq_tile (fun y => ((cfg3.win 0).blk t).view.emb y) (point3 t) (win3_0.index t) (index3_0 t) (fun _ => rfl) (fun _ => rfl) G
theorem read3_1 (G : S1x64.Idx → Elt F .f32) (t : Fin cfg3.N) : ((cfg3.win 1).blk t).view.read (Elt F) G = G :=
  read_eq_self (fun y => ((cfg3.win 1).blk t).view.emb y) (win3_1.index t) S1x64.size (index3_1 t) (fun _ _ => rfl) G
theorem read3_2 (G : S1x64.Idx → Elt F .f32) (t : Fin cfg3.N) : ((cfg3.win 2).blk t).view.read (Elt F) G = G :=
  read_eq_self (fun y => ((cfg3.win 2).blk t).view.emb y) (win3_2.index t) S1x64.size (index3_2 t) (fun _ _ => rfl) G
theorem read3_3 (G : S1x64.Idx → Elt F .f32) (t : Fin cfg3.N) : ((cfg3.win 3).blk t).view.read (Elt F) G = G :=
  read_eq_self (fun y => ((cfg3.win 3).blk t).view.emb y) (win3_3.index t) S1x64.size (index3_3 t) (fun _ _ => rfl) G
theorem read3_4 (G : S1x64.Idx → Elt F .f32) (t : Fin cfg3.N) : ((cfg3.win 4).blk t).view.read (Elt F) G = G :=
  read_eq_self (fun y => ((cfg3.win 4).blk t).view.emb y) (win3_4.index t) S1x64.size (index3_4 t) (fun _ _ => rfl) G
theorem read3_5 (G : S100000x64.Idx → Elt F .f32) (t : Fin cfg3.N) : ((cfg3.win 5).blk t).view.read (Elt F) G = tile G (point3 t) :=
  read_eq_tile (fun y => ((cfg3.win 5).blk t).view.emb y) (point3 t) (win3_5.index t) (index3_5 t) (fun _ => rfl) (fun _ => rfl) G

theorem iblk3_0_eq (c : Dev nD) (t : Fin cfg3.N) : iblk3 V c 0 t = tile (V c main_v71) (point3 t) := read3_0 (V c main_v71) t
theorem iblk3_1_eq (c : Dev nD) (t : Fin cfg3.N) : iblk3 V c 1 t = V c main_v82 := read3_1 (V c main_v82) t
theorem iblk3_2_eq (c : Dev nD) (t : Fin cfg3.N) : iblk3 V c 2 t = V c main_v83 := read3_2 (V c main_v83) t
theorem iblk3_3_eq (c : Dev nD) (t : Fin cfg3.N) : iblk3 V c 3 t = V c main_v86 := read3_3 (V c main_v86) t
theorem iblk3_4_eq (c : Dev nD) (t : Fin cfg3.N) : iblk3 V c 4 t = V c main_v89 := read3_4 (V c main_v89) t

/-- The output window's blocks are whole [2000,64] blocks: what the body leaves in the staging buffer is written back uncut. -/
theorem cut3_5 (X : Vec F S2000x64 .f32) (t : Fin cfg3.N) : (cfg3.win 5).cut (grid3.coords t) X = X := funext fun y => congrArg X (funext fun a => Fin.ext rfl)

/-! ## From blocks to the array -/

/-- What point t writes back is block t of the whole-array function (Tiles.tile_blockwise). -/
theorem flushed3_eq (c : Dev nD) (t : Fin cfg3.N) :
    (dat3 V c).flushed 5 t = ((cfg3.win 5).blk t).view.read (Elt F)
      (fun i => out3_5 (tile (V c main_v71) (blockOf i)) (V c main_v82) (V c main_v83) (V c main_v86) (V c main_v89) (inBlock i)) := by
  show (cfg3.win 5).cut (grid3.coords t) ((dat3 V c).after 5 t) = _
  rw [after3_5, iblk3_0_eq, iblk3_1_eq, iblk3_2_eq, iblk3_3_eq, iblk3_4_eq, cut3_5, read3_5]
  exact (tile_blockwise (fun p => out3_5 (tile (V c main_v71) p) (V c main_v82) (V c main_v83) (V c main_v86) (V c main_v89)) (point3 t)).symm

/-- An index of the output array is in point t's block iff each coordinate is in the block's range on its axis. -/
theorem mem_blk3 (t : Fin cfg3.N) (i : S100000x64.Idx) :
    i ∈ ((cfg3.win 5).blk t).view.set ↔ ∀ a : Fin 2, win3_5.index t a * S2000x64.size a ≤ (i a).val ∧ (i a).val < win3_5.index t a * S2000x64.size a + S2000x64.size a := by
  show i ∈ ((View.whole main_v90).slice (win3_5.rect t)).set ↔ _; rw [View.set_slice_whole, Rect.mem_set_unit]; exact Iff.rfl

/-- The blocks tile the output array (Tiles.rows_cover), and every point writes back. -/
theorem cover3 (i : S100000x64.Idx) : ∃ t : Fin cfg3.N, (cfg3.win 5).flush t = true ∧ i ∈ ((cfg3.win 5).blk t).view.set :=
  (rows_cover N_3 win3_5.index (fun t i => i ∈ ((cfg3.win 5).blk t).view.set) index3_5 mem_blk3 i).imp fun t h => ⟨flush3_5 t, h⟩

/-- The output array after the region: at each index, the body's result on the index's block of the tiled inputs and on
    the resident arrays whole, read at the index's place in the block. -/
theorem final3 (c : Dev nD) : (dat3 V c).arrAt 5 cfg3.N
    = fun i => out3_5 (tile (V c main_v71) (blockOf i)) (V c main_v82) (V c main_v83) (V c main_v86) (V c main_v89) (inBlock i) :=
  (dat3 V c).arrAt_eq_of_cover 5 _ (fun t _ => flushed3_eq V c t) cover3

end Cert.KernelIdeal.Blocks

end
-- ==== Proof.Blocks4.lean ====
/- Region 4 of KernelIdeal (the third linear layer), from blocks to the array.
   The region runs over 50 points. Point t stages rows 2000·t … 2000·t + 1999 of its two [100000,64] inputs and of its
   [100000,64] output (block index (t, 0)), and its four small arrays whole (block index (0, 0)). So what point t writes
   back is the body's result on block t of the tiled inputs, and since the 50 blocks tile the output array, the array
   ends holding, at an index of row r, the body's result on block r / 2000 read at row r % 2000. Every step is an
   instance, for one window of this region, of a lemma of the module Tiles: the rows below supply the windows' names and
   the index-map facts. -/
import proofs.«175823_j87351044866594_1_alg».proof.Proof.Tiles
import proofs.«175823_j87351044866594_1_alg».proof.Proof.Gen.KernelIdeal.Frame
import Idealize.ShloMosaic.Lib.Pipeline.Value

noncomputable section

namespace Cert.KernelIdeal.Blocks

open Cert.KernelIdeal Cert.KernelIdeal.Gen Cert.KernelIdeal.Tiles
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- A point of the region's grid as the number of the block it stages. -/
def point4 (t : Fin cfg4.N) : Fin 50 := Fin.mk (n := 50) t.val (by have h : t.val < grid4.N := t.isLt; rw [N_4] at h; exact h)

/-! ## The printed index maps, decided once over the grid: block (t, 0) for a row-tiled window, (0, 0) for a resident one -/

theorem index4_0 : ∀ t : Fin cfg4.N, win4_0.index t 0 = t.val ∧ win4_0.index t 1 = 0 := (by decide +kernel : ∀ t : Fin grid4.N, _)
theorem index4_1 : ∀ t : Fin cfg4.N, win4_1.index t 0 = t.val ∧ win4_1.index t 1 = 0 := (by decide +kernel : ∀ t : Fin grid4.N, _)
theorem index4_2 : ∀ (t : Fin cfg4.N) (a : Fin 2), win4_2.index t a = 0 := (by decide +kernel : ∀ (t : Fin grid4.N) (a : Fin 2), _)
theorem index4_3 : ∀ (t : Fin cfg4.N) (a : Fin 2), win4_3.index t a = 0 := (by decide +kernel : ∀ (t : Fin grid4.N) (a : Fin 2), _)
theorem index4_4 : ∀ (t : Fin cfg4.N) (a : Fin 2), win4_4.index t a = 0 := (by decide +kernel : ∀ (t : Fin grid4.N) (a : Fin 2), _)
theorem index4_5 : ∀ (t : Fin cfg4.N) (a : Fin 2), win4_5.index t a = 0 := (by decide +kernel : ∀ (t : Fin grid4.N) (a : Fin 2), _)
theorem index4_6 : ∀ t : Fin cfg4.N, win4_6.index t 0 = t.val ∧ win4_6.index t 1 = 0 := (by decide +kernel : ∀ t : Fin grid4.N, _)

/-! ## Each window's block read off its array: block t of the array for a row-tiled window, the array for a resident one -/

theorem read4_0 (G : S100000x64.Idx → Elt F .f32) (t : Fin cfg4.N) : ((cfg4.win 0).blk t).view.read (Elt F) G = tile G (point4 t) :=
  read_eq_tile (fun y => ((cfg4.win 0).blk t).view.emb y) (point4 t) (win4_0.index t) (index4_0 t) (fun _ => rfl) (fun _ => rfl) G
theorem read4_1 (G : S100000x64.Idx → Elt F .f32) (t : Fin cfg4.N) : ((cfg4.win 1).blk t).view.read (Elt F) G = tile G (point4 t) :=
  read_eq_tile (fun y => ((cfg4.win 1).blk t).view.emb y) (point4 t) (win4_1.index t) (index4_1 t) (fun _ => rfl) (fun _ => rfl) G
theorem read4_2 (G : S64x64.Idx → Elt F .f32) (t : Fin cfg4.N) : ((cfg4.win 2).blk t).view.read (Elt F) G = G :=
  read_eq_self (fun y => ((cfg4.win 2).blk t).view.emb y) (win4_2.index t) S64x64.size (index4_2 t) (fun _ _ => rfl) G
theorem read4_3 (G : S1x64.Idx → Elt F .f32) (t : Fin cfg4.N) : ((cfg4.win 3).blk t).view.read (Elt F) G = G :=
  read_eq_self (fun y => ((cfg4.win 3).blk t).view.emb y) (win4_3.index t) S1x64.size (index4_3 t) (fun _ _ => rfl) G
theorem read4_4 (G : S64x64.Idx → Elt F .f32) (t : Fin cfg4.N) : ((cfg4.win 4).blk t).view.read (Elt F) G = G :=
  read_eq_self (fun y => ((cfg4.win 4).blk t).view.emb y) (win4_4.index t) S64x64.size (index4_4 t) (fun _ _ => rfl) G
theorem read4_5 (G : S1x64.Idx → Elt F .f32) (t : Fin cfg4.N) : ((cfg4.win 5).blk t).view.read (Elt F) G = G :=
  read_eq_self (fun y => ((cfg4.win 5).blk t).view.emb y) (win4_5.index t) S1x64.size (index4_5 t) (fun _ _ => rfl) G
theorem read4_6 (G : S100000x64.Idx → Elt F .f32) (t : Fin cfg4.N) : ((cfg4.win 6).blk t).view.read (Elt F) G = tile G (point4 t) :=
  read_eq_tile (fun y => ((cfg4.win 6).blk t).view.emb y) (point4 t) (win4_6.index t) (index4_6 t) (fun _ => rfl) (fun _ => rfl) G

theorem iblk4_0_eq (c : Dev nD) (t : Fin cfg4.N) : iblk4 V c 0 t = tile (V c main_v90) (point4 t) := read4_0 (V c main_v90) t
theorem iblk4_1_eq (c : Dev nD) (t : Fin cfg4.N) : iblk4 V c 1 t = tile (V c main_v100) (point4 t) := read4_1 (V c main_v100) t
theorem iblk4_2_eq (c : Dev nD) (t : Fin cfg4.N) : iblk4 V c 2 t = V c main_arg8 := read4_2 (V c main_arg8) t
theorem iblk4_3_eq (c : Dev nD) (t : Fin cfg4.N) : iblk4 V c 3 t = V c main_v101 := read4_3 (V c main_v101) t
theorem iblk4_4_eq (c : Dev nD) (t : Fin cfg4.N) : iblk4 V c 4 t = V c main_arg10 := read4_4 (V c main_arg10) t
theorem iblk4_5_eq (c : Dev nD) (t : Fin cfg4.N) : iblk4 V c 5 t = V c main_v102 := read4_5 (V c main_v102) t

/-- The output window's blocks are whole [2000,64] blocks: what the body leaves in the staging buffer is written back uncut. -/
theorem cut4_6 (X : Vec F S2000x64 .f32) (t : Fin cfg4.N) : (cfg4.win 6).cut (grid4.coords t) X = X := funext fun y => congrArg X (funext fun a => Fin.ext rfl)

/-! ## From blocks to the array -/

/-- What point t writes back is block t of the whole-array function (Tiles.tile_blockwise). -/
theorem flushed4_eq (c : Dev nD) (t : Fin cfg4.N) :
    (dat4 V c).flushed 6 t = ((cfg4.win 6).blk t).view.read (Elt F)
      (fun i => out4_6 (tile (V c main_v90) (blockOf i)) (tile (V c main_v100) (blockOf i)) (V c main_arg8) (V c main_v101) (V c main_arg10) (V c main_v102) (inBlock i)) := by
  show (cfg4.win 6).cut (grid4.coords t) ((dat4 V c).after 6 t) = _
  rw [after4_6, iblk4_0_eq, iblk4_1_eq, iblk4_2_eq, iblk4_3_eq, iblk4_4_eq, iblk4_5_eq, cut4_6, read4_6]
  exact (tile_blockwise (fun p => out4_6 (tile (V c main_v90) p) (tile (V c main_v100) p) (V c main_arg8) (V c main_v101) (V c main_arg10) (V c main_v102)) (point4 t)).symm

/-- An index of the output array is in point t's block iff each coordinate is in the block's range on its axis. -/
theorem mem_blk4 (t : Fin cfg4.N) (i : S100000x64.Idx) :
    i ∈ ((cfg4.win 6).blk t).view.set ↔ ∀ a : Fin 2, win4_6.index t a * S2000x64.size a ≤ (i a).val ∧ (i a).val < win4_6.index t a * S2000x64.size a + S2000x64.size a := by
  show i ∈ ((View.whole main_v103).slice (win4_6.rect t)).set ↔ _; rw [View.set_slice_whole, Rect.mem_set_unit]; exact Iff.rfl

/-- The blocks tile the output array (Tiles.rows_cover), and every point writes back. -/
theorem cover4 (i : S100000x64.Idx) : ∃ t : Fin cfg4.N, (cfg4.win 6).flush t = true ∧ i ∈ ((cfg4.win 6).blk t).view.set :=
  (rows_cover N_4 win4_6.index (fun t i => i ∈ ((cfg4.win 6).blk t).view.set) index4_6 mem_blk4 i).imp fun t h => ⟨flush4_6 t, h⟩

/-- The output array after the region: at each index, the body's result on the index's block of the tiled inputs and on
    the resident arrays whole, read at the index's place in the block. -/
theorem final4 (c : Dev nD) : (dat4 V c).arrAt 6 cfg4.N
    = fun i => out4_6 (tile (V c main_v90) (blockOf i)) (tile (V c main_v100) (blockOf i)) (V c main_arg8) (V c main_v101) (V c main_arg10) (V c main_v102) (inBlock i) :=
  (dat4 V c).arrAt_eq_of_cover 6 _ (fun t _ => flushed4_eq V c t) cover4

end Cert.KernelIdeal.Blocks

end
-- ==== Proof.Blocks5.lean ====
/- Region 5 of KernelIdeal (the third normalisation-and-activation pass), from blocks to the array.
   The region runs over 50 points. Point t stages rows 2000·t … 2000·t + 1999 of its [100000,64] input and of its
   [100000,64] output (block index (t, 0)), and its four small arrays whole (block index (0, 0)). So what point t writes
   back is the body's result on block t of the tiled inputs, and since the 50 blocks tile the output array, the array
   ends holding, at an index of row r, the body's result on block r / 2000 read at row r % 2000. Every step is an
   instance, for one window of this region, of a lemma of the module Tiles: the rows below supply the windows' names and
   the index-map facts. -/
import proofs.«175823_j87351044866594_1_alg».proof.Proof.Tiles
import proofs.«175823_j87351044866594_1_alg».proof.Proof.Gen.KernelIdeal.Frame
import Idealize.ShloMosaic.Lib.Pipeline.Value

noncomputable section

namespace Cert.KernelIdeal.Blocks

open Cert.KernelIdeal Cert.KernelIdeal.Gen Cert.KernelIdeal.Tiles
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- A point of the region's grid as the number of the block it stages. -/
def point5 (t : Fin cfg5.N) : Fin 50 := Fin.mk (n := 50) t.val (by have h : t.val < grid5.N := t.isLt; rw [N_5] at h; exact h)

/-! ## The printed index maps, decided once over the grid: block (t, 0) for a row-tiled window, (0, 0) for a resident one -/

theorem index5_0 : ∀ t : Fin cfg5.N, win5_0.index t 0 = t.val ∧ win5_0.index t 1 = 0 := (by decide +kernel : ∀ t : Fin grid5.N, _)
theorem index5_1 : ∀ (t : Fin cfg5.N) (a : Fin 2), win5_1.index t a = 0 := (by decide +kernel : ∀ (t : Fin grid5.N) (a : Fin 2), _)
theorem index5_2 : ∀ (t : Fin cfg5.N) (a : Fin 2), win5_2.index t a = 0 := (by decide +kernel : ∀ (t : Fin grid5.N) (a : Fin 2), _)
theorem index5_3 : ∀ (t : Fin cfg5.N) (a : Fin 2), win5_3.index t a = 0 := (by decide +kernel : ∀ (t : Fin grid5.N) (a : Fin 2), _)
theorem index5_4 : ∀ (t : Fin cfg5.N) (a : Fin 2), win5_4.index t a = 0 := (by decide +kernel : ∀ (t : Fin grid5.N) (a : Fin 2), _)
theorem index5_5 : ∀ t : Fin cfg5.N, win5_5.index t 0 = t.val ∧ win5_5.index t 1 = 0 := (by decide +kernel : ∀ t : Fin grid5.N, _)

/-! ## Each window's block read off its array: block t of the array for a row-tiled window, the array for a resident one -/

theorem read5_0 (G : S100000x64.Idx → Elt F .f32) (t : Fin cfg5.N) : ((cfg5.win 0).blk t).view.read (Elt F) G = tile G (point5 t) :=
  read_eq_tile (fun y => ((cfg5.win 0).blk t).view.emb y) (point5 t) (win5_0.index t) (index5_0 t) (fun _ => rfl) (fun _ => rfl) G
theorem read5_1 (G : S1x64.Idx → Elt F .f32) (t : Fin cfg5.N) : ((cfg5.win 1).blk t).view.read (Elt F) G = G :=
  read_eq_self (fun y => ((cfg5.win 1).blk t).view.emb y) (win5_1.index t) S1x64.size (index5_1 t) (fun _ _ => rfl) G
theorem read5_2 (G : S1x64.Idx → Elt F .f32) (t : Fin cfg5.N) : ((cfg5.win 2).blk t).view.read (Elt F) G = G :=
  read_eq_self (fun y => ((cfg5.win 2).blk t).view.emb y) (win5_2.index t) S1x64.size (index5_2 t) (fun _ _ => rfl) G
theorem read5_3 (G : S1x64.Idx → Elt F .f32) (t : Fin cfg5.N) : ((cfg5.win 3).blk t).view.read (Elt F) G = G :=
  read_eq_self (fun y => ((cfg5.win 3).blk t).view.emb y) (win5_3.index t) S1x64.size (index5_3 t) (fun _ _ => rfl) G
theorem read5_4 (G : S1x64.Idx → Elt F .f32) (t : Fin cfg5.N) : ((cfg5.win 4).blk t).view.read (Elt F) G = G :=
  read_eq_self (fun y => ((cfg5.win 4).blk t).view.emb y) (win5_4.index t) S1x64.size (index5_4 t) (fun _ _ => rfl) G
theorem read5_5 (G : S100000x64.Idx → Elt F .f32) (t : Fin cfg5.N) : ((cfg5.win 5).blk t).view.read (Elt F) G = tile G (point5 t) :=
  read_eq_tile (fun y => ((cfg5.win 5).blk t).view.emb y) (point5 t) (win5_5.index t) (index5_5 t) (fun _ => rfl) (fun _ => rfl) G

theorem iblk5_0_eq (c : Dev nD) (t : Fin cfg5.N) : iblk5 V c 0 t = tile (V c main_v103) (point5 t) := read5_0 (V c main_v103) t
theorem iblk5_1_eq (c : Dev nD) (t : Fin cfg5.N) : iblk5 V c 1 t = V c main_v114 := read5_1 (V c main_v114) t
theorem iblk5_2_eq (c : Dev nD) (t : Fin cfg5.N) : iblk5 V c 2 t = V c main_v115 := read5_2 (V c main_v115) t
theorem iblk5_3_eq (c : Dev nD) (t : Fin cfg5.N) : iblk5 V c 3 t = V c main_v118 := read5_3 (V c main_v118) t
theorem iblk5_4_eq (c : Dev nD) (t : Fin cfg5.N) : iblk5 V c 4 t = V c main_v121 := read5_4 (V c main_v121) t

/-- The output window's blocks are whole [2000,64] blocks: what the body leaves in the staging buffer is written back uncut. -/
theorem cut5_5 (X : Vec F S2000x64 .f32) (t : Fin cfg5.N) : (cfg5.win 5).cut (grid5.coords t) X = X := funext fun y => congrArg X (funext fun a => Fin.ext rfl)

/-! ## From blocks to the array -/

/-- What point t writes back is block t of the whole-array function (Tiles.tile_blockwise). -/
theorem flushed5_eq (c : Dev nD) (t : Fin cfg5.N) :
    (dat5 V c).flushed 5 t = ((cfg5.win 5).blk t).view.read (Elt F)
      (fun i => out5_5 (tile (V c main_v103) (blockOf i)) (V c main_v114) (V c main_v115) (V c main_v118) (V c main_v121) (inBlock i)) := by
  show (cfg5.win 5).cut (grid5.coords t) ((dat5 V c).after 5 t) = _
  rw [after5_5, iblk5_0_eq, iblk5_1_eq, iblk5_2_eq, iblk5_3_eq, iblk5_4_eq, cut5_5, read5_5]
  exact (tile_blockwise (fun p => out5_5 (tile (V c main_v103) p) (V c main_v114) (V c main_v115) (V c main_v118) (V c main_v121)) (point5 t)).symm

/-- An index of the output array is in point t's block iff each coordinate is in the block's range on its axis. -/
theorem mem_blk5 (t : Fin cfg5.N) (i : S100000x64.Idx) :
    i ∈ ((cfg5.win 5).blk t).view.set ↔ ∀ a : Fin 2, win5_5.index t a * S2000x64.size a ≤ (i a).val ∧ (i a).val < win5_5.index t a * S2000x64.size a + S2000x64.size a := by
  show i ∈ ((View.whole main_v122).slice (win5_5.rect t)).set ↔ _; rw [View.set_slice_whole, Rect.mem_set_unit]; exact Iff.rfl

/-- The blocks tile the output array (Tiles.rows_cover), and every point writes back. -/
theorem cover5 (i : S100000x64.Idx) : ∃ t : Fin cfg5.N, (cfg5.win 5).flush t = true ∧ i ∈ ((cfg5.win 5).blk t).view.set :=
  (rows_cover N_5 win5_5.index (fun t i => i ∈ ((cfg5.win 5).blk t).view.set) index5_5 mem_blk5 i).imp fun t h => ⟨flush5_5 t, h⟩

/-- The output array after the region: at each index, the body's result on the index's block of the tiled inputs and on
    the resident arrays whole, read at the index's place in the block. -/
theorem final5 (c : Dev nD) : (dat5 V c).arrAt 5 cfg5.N
    = fun i => out5_5 (tile (V c main_v103) (blockOf i)) (V c main_v114) (V c main_v115) (V c main_v118) (V c main_v121) (inBlock i) :=
  (dat5 V c).arrAt_eq_of_cover 5 _ (fun t _ => flushed5_eq V c t) cover5

end Cert.KernelIdeal.Blocks

end
-- ==== Proof.Blocks6.lean ====
/- Region 6 of KernelIdeal (the fourth linear layer), from blocks to the array.
   The region runs over 50 points. Point t stages rows 2000·t … 2000·t + 1999 of its two [100000,64] inputs and of its
   [100000,64] output (block index (t, 0)), and its three small arrays whole (block index (0, 0)). So what point t writes
   back is the body's result on block t of the tiled inputs, and since the 50 blocks tile the output array, the array
   ends holding, at an index of row r, the body's result on block r / 2000 read at row r % 2000. Every step is an
   instance, for one window of this region, of a lemma of the module Tiles: the rows below supply the windows' names and
   the index-map facts. -/
import proofs.«175823_j87351044866594_1_alg».proof.Proof.Tiles
import proofs.«175823_j87351044866594_1_alg».proof.Proof.Gen.KernelIdeal.Frame
import Idealize.ShloMosaic.Lib.Pipeline.Value

noncomputable section

namespace Cert.KernelIdeal.Blocks

open Cert.KernelIdeal Cert.KernelIdeal.Gen Cert.KernelIdeal.Tiles
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- A point of the region's grid as the number of the block it stages. -/
def point6 (t : Fin cfg6.N) : Fin 50 := Fin.mk (n := 50) t.val (by have h : t.val < grid6.N := t.isLt; rw [N_6] at h; exact h)

/-! ## The printed index maps, decided once over the grid: block (t, 0) for a row-tiled window, (0, 0) for a resident one -/

theorem index6_0 : ∀ t : Fin cfg6.N, win6_0.index t 0 = t.val ∧ win6_0.index t 1 = 0 := (by decide +kernel : ∀ t : Fin grid6.N, _)
theorem index6_1 : ∀ t : Fin cfg6.N, win6_1.index t 0 = t.val ∧ win6_1.index t 1 = 0 := (by decide +kernel : ∀ t : Fin grid6.N, _)
theorem index6_2 : ∀ (t : Fin cfg6.N) (a : Fin 2), win6_2.index t a = 0 := (by decide +kernel : ∀ (t : Fin grid6.N) (a : Fin 2), _)
theorem index6_3 : ∀ (t : Fin cfg6.N) (a : Fin 2), win6_3.index t a = 0 := (by decide +kernel : ∀ (t : Fin grid6.N) (a : Fin 2), _)
theorem index6_4 : ∀ (t : Fin cfg6.N) (a : Fin 2), win6_4.index t a = 0 := (by decide +kernel : ∀ (t : Fin grid6.N) (a : Fin 2), _)
theorem index6_5 : ∀ t : Fin cfg6.N, win6_5.index t 0 = t.val ∧ win6_5.index t 1 = 0 := (by decide +kernel : ∀ t : Fin grid6.N, _)

/-! ## Each window's block read off its array: block t of the array for a row-tiled window, the array for a resident one -/

theorem read6_0 (G : S100000x64.Idx → Elt F .f32) (t : Fin cfg6.N) : ((cfg6.win 0).blk t).view.read (Elt F) G = tile G (point6 t) :=
  read_eq_tile (fun y => ((cfg6.win 0).blk t).view.emb y) (point6 t) (win6_0.index t) (index6_0 t) (fun _ => rfl) (fun _ => rfl) G
theorem read6_1 (G : S100000x64.Idx → Elt F .f32) (t : Fin cfg6.N) : ((cfg6.win 1).blk t).view.read (Elt F) G = tile G (point6 t) :=
  read_eq_tile (fun y => ((cfg6.win 1).blk t).view.emb y) (point6 t) (win6_1.index t) (index6_1 t) (fun _ => rfl) (fun _ => rfl) G
theorem read6_2 (G : S64x64.Idx → Elt F .f32) (t : Fin cfg6.N) : ((cfg6.win 2).blk t).view.read (Elt F) G = G :=
  read_eq_self (fun y => ((cfg6.win 2).blk t).view.emb y) (win6_2.index t) S64x64.size (index6_2 t) (fun _ _ => rfl) G
theorem read6_3 (G : S1x64.Idx → Elt F .f32) (t : Fin cfg6.N) : ((cfg6.win 3).blk t).view.read (Elt F) G = G :=
  read_eq_self (fun y => ((cfg6.win 3).blk t).view.emb y) (win6_3.index t) S1x64.size (index6_3 t) (fun _ _ => rfl) G
theorem read6_4 (G : S64x64.Idx → Elt F .f32) (t : Fin cfg6.N) : ((cfg6.win 4).blk t).view.read (Elt F) G = G :=
  read_eq_self (fun y => ((cfg6.win 4).blk t).view.emb y) (win6_4.index t) S64x64.size (index6_4 t) (fun _ _ => rfl) G
theorem read6_5 (G : S100000x64.Idx → Elt F .f32) (t : Fin cfg6.N) : ((cfg6.win 5).blk t).view.read (Elt F) G = tile G (point6 t) :=
  read_eq_tile (fun y => ((cfg6.win 5).blk t).view.emb y) (point6 t) (win6_5.index t) (index6_5 t) (fun _ => rfl) (fun _ => rfl) G

theorem iblk6_0_eq (c : Dev nD) (t : Fin cfg6.N) : iblk6 V c 0 t = tile (V c main_v132) (point6 t) := read6_0 (V c main_v132) t
theorem iblk6_1_eq (c : Dev nD) (t : Fin cfg6.N) : iblk6 V c 1 t = tile (V c main_v122) (point6 t) := read6_1 (V c main_v122) t
theorem iblk6_2_eq (c : Dev nD) (t : Fin cfg6.N) : iblk6 V c 2 t = V c main_arg12 := read6_2 (V c main_arg12) t
theorem iblk6_3_eq (c : Dev nD) (t : Fin cfg6.N) : iblk6 V c 3 t = V c main_v133 := read6_3 (V c main_v133) t
theorem iblk6_4_eq (c : Dev nD) (t : Fin cfg6.N) : iblk6 V c 4 t = V c main_arg14 := read6_4 (V c main_arg14) t

/-- The output window's blocks are whole [2000,64] blocks: what the body leaves in the staging buffer is written back uncut. -/
theorem cut6_5 (X : Vec F S2000x64 .f32) (t : Fin cfg6.N) : (cfg6.win 5).cut (grid6.coords t) X = X := funext fun y => congrArg X (funext fun a => Fin.ext rfl)

/-! ## From blocks to the array -/

/-- What point t writes back is block t of the whole-array function (Tiles.tile_blockwise). -/
theorem flushed6_eq (c : Dev nD) (t : Fin cfg6.N) :
    (dat6 V c).flushed 5 t = ((cfg6.win 5).blk t).view.read (Elt F)
      (fun i => out6_5 (tile (V c main_v132) (blockOf i)) (tile (V c main_v122) (blockOf i)) (V c main_arg12) (V c main_v133) (V c main_arg14) (inBlock i)) := by
  show (cfg6.win 5).cut (grid6.coords t) ((dat6 V c).after 5 t) = _
  rw [after6_5, iblk6_0_eq, iblk6_1_eq, iblk6_2_eq, iblk6_3_eq, iblk6_4_eq, cut6_5, read6_5]
  exact (tile_blockwise (fun p => out6_5 (tile (V c main_v132) p) (tile (V c main_v122) p) (V c main_arg12) (V c main_v133) (V c main_arg14)) (point6 t)).symm

/-- An index of the output array is in point t's block iff each coordinate is in the block's range on its axis. -/
theorem mem_blk6 (t : Fin cfg6.N) (i : S100000x64.Idx) :
    i ∈ ((cfg6.win 5).blk t).view.set ↔ ∀ a : Fin 2, win6_5.index t a * S2000x64.size a ≤ (i a).val ∧ (i a).val < win6_5.index t a * S2000x64.size a + S2000x64.size a := by
  show i ∈ ((View.whole main_v134).slice (win6_5.rect t)).set ↔ _; rw [View.set_slice_whole, Rect.mem_set_unit]; exact Iff.rfl

/-- The blocks tile the output array (Tiles.rows_cover), and every point writes back. -/
theorem cover6 (i : S100000x64.Idx) : ∃ t : Fin cfg6.N, (cfg6.win 5).flush t = true ∧ i ∈ ((cfg6.win 5).blk t).view.set :=
  (rows_cover N_6 win6_5.index (fun t i => i ∈ ((cfg6.win 5).blk t).view.set) index6_5 mem_blk6 i).imp fun t h => ⟨flush6_5 t, h⟩

/-- The output array after the region: at each index, the body's result on the index's block of the tiled inputs and on
    the resident arrays whole, read at the index's place in the block. -/
theorem final6 (c : Dev nD) : (dat6 V c).arrAt 5 cfg6.N
    = fun i => out6_5 (tile (V c main_v132) (blockOf i)) (tile (V c main_v122) (blockOf i)) (V c main_arg12) (V c main_v133) (V c main_arg14) (inBlock i) :=
  (dat6 V c).arrAt_eq_of_cover 5 _ (fun t _ => flushed6_eq V c t) cover6

end Cert.KernelIdeal.Blocks

end
-- ==== Proof.Blocks7.lean ====
/- Region 7 of KernelIdeal (the fourth normalisation-and-activation pass), from blocks to the array.
   The region runs over 50 points. Point t stages rows 2000·t … 2000·t + 1999 of its [100000,64] input and of its
   [100000,64] output (block index (t, 0)), and its four small arrays whole (block index (0, 0)). So what point t writes
   back is the body's result on block t of the tiled inputs, and since the 50 blocks tile the output array, the array
   ends holding, at an index of row r, the body's result on block r / 2000 read at row r % 2000. Every step is an
   instance, for one window of this region, of a lemma of the module Tiles: the rows below supply the windows' names and
   the index-map facts. -/
import proofs.«175823_j87351044866594_1_alg».proof.Proof.Tiles
import proofs.«175823_j87351044866594_1_alg».proof.Proof.Gen.KernelIdeal.Frame
import Idealize.ShloMosaic.Lib.Pipeline.Value

noncomputable section

namespace Cert.KernelIdeal.Blocks

open Cert.KernelIdeal Cert.KernelIdeal.Gen Cert.KernelIdeal.Tiles
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- A point of the region's grid as the number of the block it stages. -/
def point7 (t : Fin cfg7.N) : Fin 50 := Fin.mk (n := 50) t.val (by have h : t.val < grid7.N := t.isLt; rw [N_7] at h; exact h)

/-! ## The printed index maps, decided once over the grid: block (t, 0) for a row-tiled window, (0, 0) for a resident one -/

theorem index7_0 : ∀ t : Fin cfg7.N, win7_0.index t 0 = t.val ∧ win7_0.index t 1 = 0 := (by decide +kernel : ∀ t : Fin grid7.N, _)
theorem index7_1 : ∀ (t : Fin cfg7.N) (a : Fin 2), win7_1.index t a = 0 := (by decide +kernel : ∀ (t : Fin grid7.N) (a : Fin 2), _)
theorem index7_2 : ∀ (t : Fin cfg7.N) (a : Fin 2), win7_2.index t a = 0 := (by decide +kernel : ∀ (t : Fin grid7.N) (a : Fin 2), _)
theorem index7_3 : ∀ (t : Fin cfg7.N) (a : Fin 2), win7_3.index t a = 0 := (by decide +kernel : ∀ (t : Fin grid7.N) (a : Fin 2), _)
theorem index7_4 : ∀ (t : Fin cfg7.N) (a : Fin 2), win7_4.index t a = 0 := (by decide +kernel : ∀ (t : Fin grid7.N) (a : Fin 2), _)
theorem index7_5 : ∀ t : Fin cfg7.N, win7_5.index t 0 = t.val ∧ win7_5.index t 1 = 0 := (by decide +kernel : ∀ t : Fin grid7.N, _)

/-! ## Each window's block read off its array: block t of the array for a row-tiled window, the array for a resident one -/

theorem read7_0 (G : S100000x64.Idx → Elt F .f32) (t : Fin cfg7.N) : ((cfg7.win 0).blk t).view.read (Elt F) G = tile G (point7 t) :=
  read_eq_tile (fun y => ((cfg7.win 0).blk t).view.emb y) (point7 t) (win7_0.index t) (index7_0 t) (fun _ => rfl) (fun _ => rfl) G
theorem read7_1 (G : S1x64.Idx → Elt F .f32) (t : Fin cfg7.N) : ((cfg7.win 1).blk t).view.read (Elt F) G = G :=
  read_eq_self (fun y => ((cfg7.win 1).blk t).view.emb y) (win7_1.index t) S1x64.size (index7_1 t) (fun _ _ => rfl) G
theorem read7_2 (G : S1x64.Idx → Elt F .f32) (t : Fin cfg7.N) : ((cfg7.win 2).blk t).view.read (Elt F) G = G :=
  read_eq_self (fun y => ((cfg7.win 2).blk t).view.emb y) (win7_2.index t) S1x64.size (index7_2 t) (fun _ _ => rfl) G
theorem read7_3 (G : S1x64.Idx → Elt F .f32) (t : Fin cfg7.N) : ((cfg7.win 3).blk t).view.read (Elt F) G = G :=
  read_eq_self (fun y => ((cfg7.win 3).blk t).view.emb y) (win7_3.index t) S1x64.size (index7_3 t) (fun _ _ => rfl) G
theorem read7_4 (G : S1x64.Idx → Elt F .f32) (t : Fin cfg7.N) : ((cfg7.win 4).blk t).view.read (Elt F) G = G :=
  read_eq_self (fun y => ((cfg7.win 4).blk t).view.emb y) (win7_4.index t) S1x64.size (index7_4 t) (fun _ _ => rfl) G
theorem read7_5 (G : S100000x64.Idx → Elt F .f32) (t : Fin cfg7.N) : ((cfg7.win 5).blk t).view.read (Elt F) G = tile G (point7 t) :=
  read_eq_tile (fun y => ((cfg7.win 5).blk t).view.emb y) (point7 t) (win7_5.index t) (index7_5 t) (fun _ => rfl) (fun _ => rfl) G

theorem iblk7_0_eq (c : Dev nD) (t : Fin cfg7.N) : iblk7 V c 0 t = tile (V c main_v134) (point7 t) := read7_0 (V c main_v134) t
theorem iblk7_1_eq (c : Dev nD) (t : Fin cfg7.N) : iblk7 V c 1 t = V c main_v145 := read7_1 (V c main_v145) t
theorem iblk7_2_eq (c : Dev nD) (t : Fin cfg7.N) : iblk7 V c 2 t = V c main_v146 := read7_2 (V c main_v146) t
theorem iblk7_3_eq (c : Dev nD) (t : Fin cfg7.N) : iblk7 V c 3 t = V c main_v149 := read7_3 (V c main_v149) t
theorem iblk7_4_eq (c : Dev nD) (t : Fin cfg7.N) : iblk7 V c 4 t = V c main_v152 := read7_4 (V c main_v152) t

/-- The output window's blocks are whole [2000,64] blocks: what the body leaves in the staging buffer is written back uncut. -/
theorem cut7_5 (X : Vec F S2000x64 .f32) (t : Fin cfg7.N) : (cfg7.win 5).cut (grid7.coords t) X = X := funext fun y => congrArg X (funext fun a => Fin.ext rfl)

/-! ## From blocks to the array -/

/-- What point t writes back is block t of the whole-array function (Tiles.tile_blockwise). -/
theorem flushed7_eq (c : Dev nD) (t : Fin cfg7.N) :
    (dat7 V c).flushed 5 t = ((cfg7.win 5).blk t).view.read (Elt F)
      (fun i => out7_5 (tile (V c main_v134) (blockOf i)) (V c main_v145) (V c main_v146) (V c main_v149) (V c main_v152) (inBlock i)) := by
  show (cfg7.win 5).cut (grid7.coords t) ((dat7 V c).after 5 t) = _
  rw [after7_5, iblk7_0_eq, iblk7_1_eq, iblk7_2_eq, iblk7_3_eq, iblk7_4_eq, cut7_5, read7_5]
  exact (tile_blockwise (fun p => out7_5 (tile (V c main_v134) p) (V c main_v145) (V c main_v146) (V c main_v149) (V c main_v152)) (point7 t)).symm

/-- An index of the output array is in point t's block iff each coordinate is in the block's range on its axis. -/
theorem mem_blk7 (t : Fin cfg7.N) (i : S100000x64.Idx) :
    i ∈ ((cfg7.win 5).blk t).view.set ↔ ∀ a : Fin 2, win7_5.index t a * S2000x64.size a ≤ (i a).val ∧ (i a).val < win7_5.index t a * S2000x64.size a + S2000x64.size a := by
  show i ∈ ((View.whole main_v153).slice (win7_5.rect t)).set ↔ _; rw [View.set_slice_whole, Rect.mem_set_unit]; exact Iff.rfl

/-- The blocks tile the output array (Tiles.rows_cover), and every point writes back. -/
theorem cover7 (i : S100000x64.Idx) : ∃ t : Fin cfg7.N, (cfg7.win 5).flush t = true ∧ i ∈ ((cfg7.win 5).blk t).view.set :=
  (rows_cover N_7 win7_5.index (fun t i => i ∈ ((cfg7.win 5).blk t).view.set) index7_5 mem_blk7 i).imp fun t h => ⟨flush7_5 t, h⟩

/-- The output array after the region: at each index, the body's result on the index's block of the tiled inputs and on
    the resident arrays whole, read at the index's place in the block. -/
theorem final7 (c : Dev nD) : (dat7 V c).arrAt 5 cfg7.N
    = fun i => out7_5 (tile (V c main_v134) (blockOf i)) (V c main_v145) (V c main_v146) (V c main_v149) (V c main_v152) (inBlock i) :=
  (dat7 V c).arrAt_eq_of_cover 5 _ (fun t _ => flushed7_eq V c t) cover7

end Cert.KernelIdeal.Blocks

end
-- ==== Proof.Blocks8.lean ====
/- Region 8 of KernelIdeal (the output head), from its one block to the array.
   The region has one grid point, and every window is resident: block (0, 0) of each window is its whole array — the
   [2048,64] input, the [64,16] weight, the [1,16] row and the [2048,16] output. So the one point writes back the body's
   result on the three whole input arrays, its block covers the output array, and the array ends holding that result. -/
import proofs.«175823_j87351044866594_1_alg».proof.Proof.Tiles
import proofs.«175823_j87351044866594_1_alg».proof.Proof.Gen.KernelIdeal.Frame
import Idealize.ShloMosaic.Lib.Pipeline.Value

noncomputable section

namespace Cert.KernelIdeal.Blocks

open Cert.KernelIdeal Cert.KernelIdeal.Gen Cert.KernelIdeal.Tiles
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! ## The printed index maps, decided over the grid's one point: block (0, 0) for every window -/

theorem index8_0 : ∀ (t : Fin cfg8.N) (a : Fin 2), win8_0.index t a = 0 := (by decide +kernel : ∀ (t : Fin grid8.N) (a : Fin 2), _)
theorem index8_1 : ∀ (t : Fin cfg8.N) (a : Fin 2), win8_1.index t a = 0 := (by decide +kernel : ∀ (t : Fin grid8.N) (a : Fin 2), _)
theorem index8_2 : ∀ (t : Fin cfg8.N) (a : Fin 2), win8_2.index t a = 0 := (by decide +kernel : ∀ (t : Fin grid8.N) (a : Fin 2), _)
theorem index8_3 : ∀ (t : Fin cfg8.N) (a : Fin 2), win8_3.index t a = 0 := (by decide +kernel : ∀ (t : Fin grid8.N) (a : Fin 2), _)

/-! ## Each window's block read off its array is the array -/

theorem read8_0 (G : S2048x64.Idx → Elt F .f32) (t : Fin cfg8.N) : ((cfg8.win 0).blk t).view.read (Elt F) G = G :=
  read_eq_self (fun y => ((cfg8.win 0).blk t).view.emb y) (win8_0.index t) S2048x64.size (index8_0 t) (fun _ _ => rfl) G
theorem read8_1 (G : S64x16.Idx → Elt F .f32) (t : Fin cfg8.N) : ((cfg8.win 1).blk t).view.read (Elt F) G = G :=
  read_eq_self (fun y => ((cfg8.win 1).blk t).view.emb y) (win8_1.index t) S64x16.size (index8_1 t) (fun _ _ => rfl) G
theorem read8_2 (G : S1x16.Idx → Elt F .f32) (t : Fin cfg8.N) : ((cfg8.win 2).blk t).view.read (Elt F) G = G :=
  read_eq_self (fun y => ((cfg8.win 2).blk t).view.emb y) (win8_2.index t) S1x16.size (index8_2 t) (fun _ _ => rfl) G
theorem read8_3 (G : S2048x16.Idx → Elt F .f32) (t : Fin cfg8.N) : ((cfg8.win 3).blk t).view.read (Elt F) G = G :=
  read_eq_self (fun y => ((cfg8.win 3).blk t).view.emb y) (win8_3.index t) S2048x16.size (index8_3 t) (fun _ _ => rfl) G

theorem iblk8_0_eq (c : Dev nD) (t : Fin cfg8.N) : iblk8 V c 0 t = V c main_v164 := read8_0 (V c main_v164) t
theorem iblk8_1_eq (c : Dev nD) (t : Fin cfg8.N) : iblk8 V c 1 t = V c main_arg17 := read8_1 (V c main_arg17) t
theorem iblk8_2_eq (c : Dev nD) (t : Fin cfg8.N) : iblk8 V c 2 t = V c main_v165 := read8_2 (V c main_v165) t

/-- The output window's block is a whole [2048,16] block: what the body leaves in the staging buffer is written back uncut. -/
theorem cut8_3 (X : Vec F S2048x16 .f32) (t : Fin cfg8.N) : (cfg8.win 3).cut (grid8.coords t) X = X := funext fun y => congrArg X (funext fun a => Fin.ext rfl)

/-! ## From the block to the array -/

/-- What the point writes back is the body's result on the three whole input arrays, read through the output's block
    (which is the whole output array). -/
theorem flushed8_eq (c : Dev nD) (t : Fin cfg8.N) :
    (dat8 V c).flushed 3 t = ((cfg8.win 3).blk t).view.read (Elt F)
      (out8_3 (V c main_v164) (V c main_arg17) (V c main_v165)) := by
  show (cfg8.win 3).cut (grid8.coords t) ((dat8 V c).after 3 t) = _
  rw [after8_3, iblk8_0_eq, iblk8_1_eq, iblk8_2_eq, cut8_3, read8_3]

/-- An index of the output array is in the point's block iff each coordinate is in the block's range on its axis. -/
theorem mem_blk8 (t : Fin cfg8.N) (i : S2048x16.Idx) :
    i ∈ ((cfg8.win 3).blk t).view.set ↔ ∀ a : Fin 2, win8_3.index t a * S2048x16.size a ≤ (i a).val ∧ (i a).val < win8_3.index t a * S2048x16.size a + S2048x16.size a := by
  show i ∈ ((View.whole main_v166).slice (win8_3.rect t)).set ↔ _; rw [View.set_slice_whole, Rect.mem_set_unit]; exact Iff.rfl

/-- The one block covers the output array (Tiles.whole_cover): it sits at block index (0, 0) and has the array's sizes. -/
theorem cover8 (i : S2048x16.Idx) : ∃ t : Fin cfg8.N, (cfg8.win 3).flush t = true ∧ i ∈ ((cfg8.win 3).blk t).view.set :=
  ⟨t8_0, flush8_3 t8_0, (mem_blk8 t8_0 i).mpr (whole_cover (win8_3.index t8_0) (index8_3 t8_0) i)⟩

/-- The output array after the region: the body's result on the three whole input arrays. -/
theorem final8 (c : Dev nD) : (dat8 V c).arrAt 3 cfg8.N
    = out8_3 (V c main_v164) (V c main_arg17) (V c main_v165) :=
  (dat8 V c).arrAt_eq_of_cover 3 _ (fun t _ => flushed8_eq V c t) cover8

end Cert.KernelIdeal.Blocks

end
-- ==== Proof.EluDef.lean ====
/-
  The two scalar ingredients both programs share, as plain functions of extended reals: the stabilising
  constant of the normalisation (kept as its 32-bit word, which both programs print), and the exponential
  linear unit with unit slope: the identity on positive arguments, `exp z - 1` elsewhere.
-/
import Idealize.ShloMosaic.PureOps.Ideal
import Idealize.ShloMosaic.PureOps.Ideal.Laws

namespace Cert.Spec

open Idealize.ShloMosaic

/-- The constant added to a variance before its inverse square root: the value of the word both programs print. -/
noncomputable def eps : EReal := Ideal.ofBits .f32 0x3727C5AC#32

/-- The exponential linear unit: `z` for `0 < z`, `exp z - 1` otherwise. -/
noncomputable def elu (z : EReal) : EReal := if 0 < z then z else Ideal.exp z - 1

/-- The word of `1.0` denotes one. -/
theorem ofBits_one_f32 : Ideal.ofBits .f32 0x3F800000#32 = 1 :=
  IdealRules.sign_bit.ideal_onePat .f32

/-- A select on the comparison "greater than zero" is the `if` on `0 < z`. -/
theorem select_ogt_zero (z a b : EReal) :
    Scalar.select (Ideal.cmp .ogt z 0) a b = if 0 < z then a else b := by
  unfold Ideal.cmp
  by_cases h : 0 < z
  · simp only [h, decide_true, if_true]; rfl
  · simp only [h, decide_false, if_false]; rfl

end Cert.Spec
-- ==== Proof.PayMm.lean ====
/-
  The matrix products of the kernel bodies read at an index, at the ideal values: a product into the zero
  accumulator, of a block of rows by a square weight matrix (and, for the output head, by a 64 by 16 one), at
  row `r` and column `j` is the sum over the 64 contracted positions `k` of `l (r, k) * w (k, j)`. The
  operands' formats play no part: at the ideal values a change of format is the identity.
-/
import proofs.«175823_j87351044866594_1_alg».proof.Proof.Gen.KernelIdeal.Frame
import proofs.«175823_j87351044866594_1_alg».proof.Proof.EluDef
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Spec
open scoped BigOperators

/-- The zero offsets of a whole-block rectangle, however they are spelt. -/
theorem hz : (![0, 0] : Fin 2 → Nat) = fun _ => 0 := funext fun a => by fin_cases a <;> rfl

/-- A [2000,64] by [64,64] product into the zero accumulator, at (r, j). -/
theorem mm64_apply {φ₁ φ₂ : FTy} (l : FVec Ideal S2000x64 φ₁) (w : FVec Ideal S64x64 φ₂) (r : Fin 2000) (j : Fin 64) :
    matmul dot_S2000x64_S64x64_S2000x64_1_0_0_1_n_n none l w (constant S2000x64 .f32 0x00000000#32) (ix2 r j)
      = ∑ k : Fin 64, l (ix2 r k) * w (ix2 k j) := by
  show FloatOps.matmul dot_S2000x64_S64x64_S2000x64_1_0_0_1_n_n none l w (constant S2000x64 .f32 0x00000000#32) (ix2 r j) = _
  rw [Ideal.matmul_constant_zero_apply,
    ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 r j)
      ((contrEquiv1 dot_S2000x64_S64x64_S2000x64_1_0_0_1_n_n 64 rfl rfl).symm k) = ix2 r k :=
    funext fun a => Fin.ext (by
      match a with
      | ⟨0, _⟩ => rfl
      | ⟨1, _⟩ => exact (dot_S2000x64_S64x64_S2000x64_1_0_0_1_n_n.lhsIdx_val_of_single rfl _ _).trans hk)
  have er : dot_S2000x64_S64x64_S2000x64_1_0_0_1_n_n.rhsIdx (ix2 r j)
      ((contrEquiv1 dot_S2000x64_S64x64_S2000x64_1_0_0_1_n_n 64 rfl rfl).symm k) = ix2 k j :=
    funext fun a => Fin.ext (by
      match a with
      | ⟨0, _⟩ => exact (dot_S2000x64_S64x64_S2000x64_1_0_0_1_n_n.rhsIdx_val_of_single rfl _ _).trans hk
      | ⟨1, _⟩ => rfl)
  rw [el, er]

/-- The head's [2048,64] by [64,16] product into the zero accumulator, at (r, j). -/
theorem mm16_apply {φ₁ φ₂ : FTy} (l : FVec Ideal S2048x64 φ₁) (w : FVec Ideal S64x16 φ₂) (r : Fin 2048) (j : Fin 16) :
    matmul dot_S2048x64_S64x16_S2048x16_1_0_0_1_n_n none l w (constant S2048x16 .f32 0x00000000#32) (ix2 r j)
      = ∑ k : Fin 64, l (ix2 r k) * w (ix2 k j) := by
  show FloatOps.matmul dot_S2048x64_S64x16_S2048x16_1_0_0_1_n_n none l w (constant S2048x16 .f32 0x00000000#32) (ix2 r j) = _
  rw [Ideal.matmul_constant_zero_apply,
    ← Equiv.sum_comp (contrEquiv1 dot_S2048x64_S64x16_S2048x16_1_0_0_1_n_n 64 rfl rfl).symm]
  refine Finset.sum_congr rfl fun k _ => ?_
  have hk := contrEquiv1_symm_val dot_S2048x64_S64x16_S2048x16_1_0_0_1_n_n 64 rfl rfl k
  have el : dot_S2048x64_S64x16_S2048x16_1_0_0_1_n_n.lhsIdx (ix2 r j)
      ((contrEquiv1 dot_S2048x64_S64x16_S2048x16_1_0_0_1_n_n 64 rfl rfl).symm k) = ix2 r k :=
    funext fun a => Fin.ext (by
      match a with
      | ⟨0, _⟩ => rfl
      | ⟨1, _⟩ => exact (dot_S2048x64_S64x16_S2048x16_1_0_0_1_n_n.lhsIdx_val_of_single rfl _ _).trans hk)
  have er : dot_S2048x64_S64x16_S2048x16_1_0_0_1_n_n.rhsIdx (ix2 r j)
      ((contrEquiv1 dot_S2048x64_S64x16_S2048x16_1_0_0_1_n_n 64 rfl rfl).symm k) = ix2 k j :=
    funext fun a => Fin.ext (by
      match a with
      | ⟨0, _⟩ => exact (dot_S2048x64_S64x16_S2048x16_1_0_0_1_n_n.rhsIdx_val_of_single rfl _ _).trans hk
      | ⟨1, _⟩ => rfl)
  rw [el, er]

/-- A one-row block broadcast down 2000 rows, read at (r, j), is the row at (0, j). -/
theorem row64_apply (v : Vec Ideal S1x64 .f32) (r : Fin 2000) (j : Fin 64) :
    broadcastTo S2000x64 (shapeCast S1x64 v shapeCasts_S1x64_S1x64) broadcasts_S1x64_S2000x64 (ix2 r j) = v (ix2 0 j) := by
  rw [shapeCast_self]
  exact broadcastTo_1b_ab_apply v broadcasts_S1x64_S2000x64 r j

/-- A one-row block broadcast down 2048 rows, read at (r, j), is the row at (0, j). -/
theorem row16_apply (v : Vec Ideal S1x16 .f32) (r : Fin 2048) (j : Fin 16) :
    broadcastTo S2048x16 (shapeCast S1x16 v shapeCasts_S1x16_S1x16) broadcasts_S1x16_S2048x16 (ix2 r j) = v (ix2 0 j) := by
  rw [shapeCast_self]
  exact broadcastTo_1b_ab_apply v broadcasts_S1x16_S2048x16 r j

end Cert.KernelIdeal.Pay

end
-- ==== Proof.PayBn.lean ====
/-
  The normalise-and-activate bodies read at an index, at the ideal values. Each of the four bodies stores, over
  its whole block of 2000 rows, the payload of its whole-block loads: at row `r` and column `j` the entry
  `x (r, j)` has the column's mean subtracted, is scaled by the inverse square root of the column's variance plus
  the stabilising constant and by the column's gain, shifted by the column's offset, and passed through the
  exponential linear unit (the body writes it as a select on "greater than zero" between the value and
  `exp` of it minus the value of the word of `1.0`). The per-column operands are one-row blocks laid down
  every row, so they are read at row `0`.
-/
import proofs.«175823_j87351044866594_1_alg».proof.Proof.Gen.KernelIdeal.Frame
import proofs.«175823_j87351044866594_1_alg».proof.Proof.EluDef
import proofs.«175823_j87351044866594_1_alg».proof.Proof.PayMm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Spec
open scoped BigOperators

/-- An inverse square root of a vector at an index is that of the element. -/
theorem rsqrt_apply {s : Shape} {φ : FTy} (a : FVec Ideal s φ) (i : s.Idx) : rsqrt a i = Ideal.rsqrt (a i) := rfl
/-- An exponential of a vector at an index is that of the element. -/
theorem exp_apply {s : Shape} {φ : FTy} (a : FVec Ideal s φ) (i : s.Idx) : exp a i = Ideal.exp (a i) := rfl
/-- A scalar constant at the ideal values is the extended real its word encodes. -/
theorem scalar_ofBits_def (φ : FTy) (b : BitVec φ.bits) : Scalar.ofBits (F := Ideal) φ b = Ideal.ofBits φ b := rfl

/-- The payload of the first normalise-and-activate body at (r, j). -/
theorem k1_pay1_apply (x0 : Vec Ideal S2000x64 .f32) (mu var g b : Vec Ideal S1x64 .f32) (r : Fin 2000) (j : Fin 64) :
    k1_pay1 (F := Ideal) x0 mu var g b (ix2 r j)
      = elu (((x0 (ix2 r j) - mu (ix2 0 j)) * Ideal.rsqrt (var (ix2 0 j) + eps)) * g (ix2 0 j) + b (ix2 0 j)) := by
  unfold k1_pay1
  simp only [select_apply, cmpf_apply, subf_apply, addf_apply, mulf_apply, exp_apply, rsqrt_apply, broadcast_apply,
    shapeCast_self, broadcastTo_1b_ab_apply, Ideal.cmpf_def, scalar_ofBits_def, Ideal.ofBits_zero_f32, ofBits_one_f32,
    select_ogt_zero]
  rfl

/-- The other three normalise-and-activate bodies have the same payload. -/
theorem k3_pay1_eq : @k3_pay1 Ideal _ = @k1_pay1 Ideal _ := rfl
theorem k5_pay1_eq : @k5_pay1 Ideal _ = @k1_pay1 Ideal _ := rfl
theorem k7_pay1_eq : @k7_pay1 Ideal _ = @k1_pay1 Ideal _ := rfl

theorem out1_5_apply (x0 : Vec Ideal S2000x64 .f32) (mu var g b : Vec Ideal S1x64 .f32) (r : Fin 2000) (j : Fin 64) :
    out1_5 (F := Ideal) x0 mu var g b (ix2 r j)
      = elu (((x0 (ix2 r j) - mu (ix2 0 j)) * Ideal.rsqrt (var (ix2 0 j) + eps)) * g (ix2 0 j) + b (ix2 0 j)) := by
  unfold out1_5
  rw [View.canon_unit_zero hz]
  simp only [View.ld_unit_zero (S := S2000x64) hz, View.ld_unit_zero (S := S1x64) hz]
  exact k1_pay1_apply x0 mu var g b r j

theorem out3_5_apply (x0 : Vec Ideal S2000x64 .f32) (mu var g b : Vec Ideal S1x64 .f32) (r : Fin 2000) (j : Fin 64) :
    out3_5 (F := Ideal) x0 mu var g b (ix2 r j)
      = elu (((x0 (ix2 r j) - mu (ix2 0 j)) * Ideal.rsqrt (var (ix2 0 j) + eps)) * g (ix2 0 j) + b (ix2 0 j)) := by
  unfold out3_5
  rw [View.canon_unit_zero hz]
  simp only [View.ld_unit_zero (S := S2000x64) hz, View.ld_unit_zero (S := S1x64) hz]
  rw [k3_pay1_eq]
  exact k1_pay1_apply x0 mu var g b r j

theorem out5_5_apply (x0 : Vec Ideal S2000x64 .f32) (mu var g b : Vec Ideal S1x64 .f32) (r : Fin 2000) (j : Fin 64) :
    out5_5 (F := Ideal) x0 mu var g b (ix2 r j)
      = elu (((x0 (ix2 r j) - mu (ix2 0 j)) * Ideal.rsqrt (var (ix2 0 j) + eps)) * g (ix2 0 j) + b (ix2 0 j)) := by
  unfold out5_5
  rw [View.canon_unit_zero hz]
  simp only [View.ld_unit_zero (S := S2000x64) hz, View.ld_unit_zero (S := S1x64) hz]
  rw [k5_pay1_eq]
  exact k1_pay1_apply x0 mu var g b r j

theorem out7_5_apply (x0 : Vec Ideal S2000x64 .f32) (mu var g b : Vec Ideal S1x64 .f32) (r : Fin 2000) (j : Fin 64) :
    out7_5 (F := Ideal) x0 mu var g b (ix2 r j)
      = elu (((x0 (ix2 r j) - mu (ix2 0 j)) * Ideal.rsqrt (var (ix2 0 j) + eps)) * g (ix2 0 j) + b (ix2 0 j)) := by
  unfold out7_5
  rw [View.canon_unit_zero hz]
  simp only [View.ld_unit_zero (S := S2000x64) hz, View.ld_unit_zero (S := S1x64) hz]
  rw [k7_pay1_eq]
  exact k1_pay1_apply x0 mu var g b r j

end Cert.KernelIdeal.Pay

end
-- ==== Proof.PayLin.lean ====
/-
  The linear-layer bodies and the output head read at an index, at the ideal values. Each body stores, over its
  whole block, the payload of its whole-block loads; the operands of every product are first narrowed to a
  shorter format, which at the ideal values is the identity, and every product goes into the zero accumulator.
  So at row `r` and column `j`: the first layer is the row of the aggregate times the weight column plus the
  masked-bias entry; the second and fourth layers are the aggregate's row times one weight column, plus the
  column's bias, plus the node's own row times the other weight column; the third layer is a two-layer
  perceptron on the sum of the node's row and its aggregate, with a maximum with zero between the layers; the
  head is the pooled row times the weight column plus the column's bias.
-/
import proofs.«175823_j87351044866594_1_alg».proof.Proof.Gen.KernelIdeal.Frame
import proofs.«175823_j87351044866594_1_alg».proof.Proof.EluDef
import proofs.«175823_j87351044866594_1_alg».proof.Proof.PayMm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Spec
open scoped BigOperators

/-- A scalar constant at the ideal values is the extended real its word encodes. -/
theorem scalar_ofBits_def' (φ : FTy) (b : BitVec φ.bits) : Scalar.ofBits (F := Ideal) φ b = Ideal.ofBits φ b := rfl

/-- The first layer's payload at (r, j). -/
theorem k0_pay1_apply (x0 : Vec Ideal S2000x64 .f32) (w : Vec Ideal S64x64 .f32) (x1 : Vec Ideal S2000x64 .f32)
    (r : Fin 2000) (j : Fin 64) :
    k0_pay1 (F := Ideal) x0 w x1 (ix2 r j) = (∑ k : Fin 64, x0 (ix2 r k) * w (ix2 k j)) + x1 (ix2 r j) := by
  unfold k0_pay1
  simp only [addf_apply, shapeCast_self, mm64_apply, truncf_apply]

theorem out0_3_apply (x0 x1 : Vec Ideal S2000x64 .f32) (w : Vec Ideal S64x64 .f32) (r : Fin 2000) (j : Fin 64) :
    out0_3 (F := Ideal) x0 x1 w (ix2 r j) = (∑ k : Fin 64, x0 (ix2 r k) * w (ix2 k j)) + x1 (ix2 r j) := by
  unfold out0_3
  rw [View.canon_unit_zero hz]
  simp only [View.ld_unit_zero (S := S2000x64) hz, View.ld_unit_zero (S := S64x64) hz]
  exact k0_pay1_apply x0 w x1 r j

/-- The second layer's payload at (r, j): arguments in the payload's order (aggregate, node rows, the two
    weights, the bias row). -/
theorem k2_pay1_apply (a h : Vec Ideal S2000x64 .f32) (wl wr : Vec Ideal S64x64 .f32) (bl : Vec Ideal S1x64 .f32)
    (r : Fin 2000) (j : Fin 64) :
    k2_pay1 (F := Ideal) a h wl wr bl (ix2 r j)
      = ((∑ k : Fin 64, a (ix2 r k) * wl (ix2 k j)) + bl (ix2 0 j)) + ∑ k : Fin 64, h (ix2 r k) * wr (ix2 k j) := by
  unfold k2_pay1
  simp only [addf_apply, shapeCast_self, mm64_apply, truncf_apply, broadcastTo_1b_ab_apply]

/-- The fourth layer has the second's payload. -/
theorem k6_pay1_eq : @k6_pay1 Ideal _ = @k2_pay1 Ideal _ := rfl

theorem out2_5_apply (x0 x1 : Vec Ideal S2000x64 .f32) (wl : Vec Ideal S64x64 .f32) (bl : Vec Ideal S1x64 .f32)
    (wr : Vec Ideal S64x64 .f32) (r : Fin 2000) (j : Fin 64) :
    out2_5 (F := Ideal) x0 x1 wl bl wr (ix2 r j)
      = ((∑ k : Fin 64, x0 (ix2 r k) * wl (ix2 k j)) + bl (ix2 0 j)) + ∑ k : Fin 64, x1 (ix2 r k) * wr (ix2 k j) := by
  unfold out2_5
  rw [View.canon_unit_zero hz]
  simp only [View.ld_unit_zero (S := S2000x64) hz, View.ld_unit_zero (S := S64x64) hz, View.ld_unit_zero (S := S1x64) hz]
  exact k2_pay1_apply x0 x1 wl wr bl r j

theorem out6_5_apply (x0 x1 : Vec Ideal S2000x64 .f32) (wl : Vec Ideal S64x64 .f32) (bl : Vec Ideal S1x64 .f32)
    (wr : Vec Ideal S64x64 .f32) (r : Fin 2000) (j : Fin 64) :
    out6_5 (F := Ideal) x0 x1 wl bl wr (ix2 r j)
      = ((∑ k : Fin 64, x0 (ix2 r k) * wl (ix2 k j)) + bl (ix2 0 j)) + ∑ k : Fin 64, x1 (ix2 r k) * wr (ix2 k j) := by
  unfold out6_5
  rw [View.canon_unit_zero hz]
  simp only [View.ld_unit_zero (S := S2000x64) hz, View.ld_unit_zero (S := S64x64) hz, View.ld_unit_zero (S := S1x64) hz]
  rw [k6_pay1_eq]
  exact k2_pay1_apply x0 x1 wl wr bl r j

/-- The third layer's payload at (r, j). -/
theorem k4_pay1_apply (h s : Vec Ideal S2000x64 .f32) (w2a : Vec Ideal S64x64 .f32) (b2a : Vec Ideal S1x64 .f32)
    (w2b : Vec Ideal S64x64 .f32) (b2b : Vec Ideal S1x64 .f32) (r : Fin 2000) (j : Fin 64) :
    k4_pay1 (F := Ideal) h s w2a b2a w2b b2b (ix2 r j)
      = (∑ k : Fin 64, max ((∑ l : Fin 64, (h (ix2 r l) + s (ix2 r l)) * w2a (ix2 l k)) + b2a (ix2 0 k)) 0 * w2b (ix2 k j))
          + b2b (ix2 0 j) := by
  unfold k4_pay1
  simp only [addf_apply, maximumf_apply, shapeCast_self, mm64_apply, truncf_apply, broadcastTo_1b_ab_apply,
    broadcast_apply, scalar_ofBits_def', Ideal.ofBits_zero_f32]

theorem out4_6_apply (h s : Vec Ideal S2000x64 .f32) (w2a : Vec Ideal S64x64 .f32) (b2a : Vec Ideal S1x64 .f32)
    (w2b : Vec Ideal S64x64 .f32) (b2b : Vec Ideal S1x64 .f32) (r : Fin 2000) (j : Fin 64) :
    out4_6 (F := Ideal) h s w2a b2a w2b b2b (ix2 r j)
      = (∑ k : Fin 64, max ((∑ l : Fin 64, (h (ix2 r l) + s (ix2 r l)) * w2a (ix2 l k)) + b2a (ix2 0 k)) 0 * w2b (ix2 k j))
          + b2b (ix2 0 j) := by
  unfold out4_6
  rw [View.canon_unit_zero hz]
  simp only [View.ld_unit_zero (S := S2000x64) hz, View.ld_unit_zero (S := S64x64) hz, View.ld_unit_zero (S := S1x64) hz]
  exact k4_pay1_apply h s w2a b2a w2b b2b r j

/-- The head's payload at (r, j). -/
theorem k8_pay1_apply (p : Vec Ideal S2048x64 .f32) (w : Vec Ideal S64x16 .f32) (b : Vec Ideal S1x16 .f32)
    (r : Fin 2048) (j : Fin 16) :
    k8_pay1 (F := Ideal) p w b (ix2 r j) = (∑ k : Fin 64, p (ix2 r k) * w (ix2 k j)) + b (ix2 0 j) := by
  unfold k8_pay1
  simp only [addf_apply, shapeCast_self, mm16_apply, truncf_apply, broadcastTo_1b_ab_apply]

theorem out8_3_apply (p : Vec Ideal S2048x64 .f32) (w : Vec Ideal S64x16 .f32) (b : Vec Ideal S1x16 .f32)
    (r : Fin 2048) (j : Fin 16) :
    out8_3 (F := Ideal) p w b (ix2 r j) = (∑ k : Fin 64, p (ix2 r k) * w (ix2 k j)) + b (ix2 0 j) := by
  unfold out8_3
  rw [View.canon_unit_zero hz]
  simp only [View.ld_unit_zero (S := S2048x64) hz, View.ld_unit_zero (S := S64x16) hz, View.ld_unit_zero (S := S1x16) hz]
  exact k8_pay1_apply p w b r j

end Cert.KernelIdeal.Pay

end
-- ==== Proof.RefLayers.lean ====
/-
  The reference's layer terms as functions of plain vectors, written with the reference's own whole-array
  operations in the order the reference applies them, and each read at an index, at the ideal values: a
  `dot_general` contracting one axis of 64 at (r, j) is the sum over `k` of `l (r, k) * w (k, j)`; a vector of
  per-column values broadcast first to one row and then down every row reads, at (r, j), its entry `j`; a
  broadcast scalar reads the scalar. The reference's exponential linear unit is a select on "greater than
  zero" between the value and one times `expm1` of a guarded argument (zero where the value is positive, the
  value elsewhere); on either branch of the outer select that is the unit of `Cert.Spec.elu`.
-/
import proofs.«175823_j87351044866594_1_alg».proof.Proof.Gen.ReferenceIdeal
import proofs.«175823_j87351044866594_1_alg».proof.Proof.EluDef
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Layers

open Idealize.ShloMosaic Idealize.ShloMosaic.ValueIdx Cert.ReferenceIdeal Cert.ReferenceIdeal.Facts₀ Cert.ReferenceIdeal.Facts Cert.Spec
open scoped BigOperators

/-! ## The operations read at an index -/

/-- A [100000,64] by [64,64] `dot_general` at (r, j). -/
theorem dg64_apply (l : FVec Ideal S100000x64 .f32) (w : FVec Ideal S64x64 .f32) (r : Fin 100000) (j : Fin 64) :
    Host.dotGeneral dot_S100000x64_S64x64_S100000x64_1_0_0_1_n_n none l w (ix2 r j) = ∑ k : Fin 64, l (ix2 r k) * w (ix2 k j) := by
  show FloatOps.dotGeneral dot_S100000x64_S64x64_S100000x64_1_0_0_1_n_n none .single l w (ix2 r j) = _
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r j) ((contrEquiv1 dot_S100000x64_S64x64_S100000x64_1_0_0_1_n_n 64 rfl rfl).symm k) = ix2 r k :=
    funext fun a => Fin.ext (by
      match a with
      | ⟨0, _⟩ => rfl
      | ⟨1, _⟩ => exact (dot_S100000x64_S64x64_S100000x64_1_0_0_1_n_n.lhsIdx_val_of_single rfl _ _).trans hk)
  have er : dot_S100000x64_S64x64_S100000x64_1_0_0_1_n_n.rhsIdx (ix2 r j) ((contrEquiv1 dot_S100000x64_S64x64_S100000x64_1_0_0_1_n_n 64 rfl rfl).symm k) = ix2 k j :=
    funext fun a => Fin.ext (by
      match a with
      | ⟨0, _⟩ => exact (dot_S100000x64_S64x64_S100000x64_1_0_0_1_n_n.rhsIdx_val_of_single rfl _ _).trans hk
      | ⟨1, _⟩ => rfl)
  rw [el, er]

/-- The head's [2048,64] by [64,16] `dot_general` at (r, j). -/
theorem dg16_apply (l : FVec Ideal S2048x64 .f32) (w : FVec Ideal S64x16 .f32) (r : Fin 2048) (j : Fin 16) :
    Host.dotGeneral dot_S2048x64_S64x16_S2048x16_1_0_0_1_n_n none l w (ix2 r j) = ∑ k : Fin 64, l (ix2 r k) * w (ix2 k j) := by
  show FloatOps.dotGeneral dot_S2048x64_S64x16_S2048x16_1_0_0_1_n_n none .single l w (ix2 r j) = _
  rw [Ideal.dotGeneral_apply, ← Equiv.sum_comp (contrEquiv1 dot_S2048x64_S64x16_S2048x16_1_0_0_1_n_n 64 rfl rfl).symm]
  refine Finset.sum_congr rfl fun k _ => ?_
  have hk := contrEquiv1_symm_val dot_S2048x64_S64x16_S2048x16_1_0_0_1_n_n 64 rfl rfl k
  have el : dot_S2048x64_S64x16_S2048x16_1_0_0_1_n_n.lhsIdx (ix2 r j) ((contrEquiv1 dot_S2048x64_S64x16_S2048x16_1_0_0_1_n_n 64 rfl rfl).symm k) = ix2 r k :=
    funext fun a => Fin.ext (by
      match a with
      | ⟨0, _⟩ => rfl
      | ⟨1, _⟩ => exact (dot_S2048x64_S64x16_S2048x16_1_0_0_1_n_n.lhsIdx_val_of_single rfl _ _).trans hk)
  have er : dot_S2048x64_S64x16_S2048x16_1_0_0_1_n_n.rhsIdx (ix2 r j) ((contrEquiv1 dot_S2048x64_S64x16_S2048x16_1_0_0_1_n_n 64 rfl rfl).symm k) = ix2 k j :=
    funext fun a => Fin.ext (by
      match a with
      | ⟨0, _⟩ => exact (dot_S2048x64_S64x16_S2048x16_1_0_0_1_n_n.rhsIdx_val_of_single rfl _ _).trans hk
      | ⟨1, _⟩ => rfl)
  rw [el, er]

/-- A vector of `n` per-column values broadcast to one row and then down `m` rows reads, at (r, j), its entry `j`. -/
theorem rows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α)
    (r : Fin m) (j : Fin n) :
    broadcastInDim ⟨2, ![m, n]⟩ ![0, 1] h2 (broadcastInDim ⟨2, ![1, n]⟩ ![1] h1 v) (ix2 r j) = v (ix1 j) := by
  have e2 := broadcastInDim_apply ![0, 1] h2 (broadcastInDim ⟨2, ![1, n]⟩ ![1] h1 v) (ix2 r j) (ix2 (0 : Fin 1) j) (by
    intro a
    match a with
    | ⟨0, _⟩ => rfl
    | ⟨1, _⟩ =>
      show j.val = if n = 1 then 0 else j.val
      split
      · have := j.isLt; omega
      · rfl)
  have e1 := broadcastInDim_apply ![1] h1 v (ix2 (0 : Fin 1) j) (ix1 j) (by
    intro a
    match a with
    | ⟨0, _⟩ =>
      show j.val = if n = 1 then 0 else j.val
      split
      · have := j.isLt; omega
      · rfl)
  exact e2.trans e1

/-- Per-column values laid down the 100000 rows, at (r, j). -/
theorem rows64_apply (v : FVec Ideal S64 .f32) (r : Fin 100000) (j : Fin 64) :
    broadcastInDim S100000x64 ![0, 1] bcast_S1x64_S100000x64_0_1 (broadcastInDim S1x64 ![1] bcast_S64_S1x64_1 v) (ix2 r j)
      = v (ix1 j) :=
  rows_apply bcast_S64_S1x64_1 bcast_S1x64_S100000x64_0_1 v r j

/-- Per-column values laid down the head's 2048 rows, at (r, j). -/
theorem rows16_apply (v : FVec Ideal S16 .f32) (r : Fin 2048) (j : Fin 16) :
    broadcastInDim S2048x16 ![0, 1] bcast_S1x16_S2048x16_0_1 (broadcastInDim S1x16 ![1] bcast_S16_S1x16_1 v) (ix2 r j)
      = v (ix1 j) :=
  rows_apply bcast_S16_S1x16_1 bcast_S1x16_S2048x16_0_1 v r j

/-- A scalar constant broadcast over the [100000,64] array reads the value of its word. -/
theorem splat64_apply (b : BitVec 32) (i : S100000x64.Idx) :
    broadcastInDim S100000x64 ![] bcast_S_S100000x64 (constant (F := Ideal) S_ .f32 b) i = Ideal.ofBits .f32 b :=
  broadcastInDim_scalar_apply bcast_S_S100000x64 (constant (F := Ideal) S_ .f32 b) i

/-- A scalar constant broadcast over 64 columns reads the value of its word. -/
theorem splatCol_apply (b : BitVec 32) (i : S64.Idx) :
    broadcastInDim S64 ![] bcast_S_S64 (constant (F := Ideal) S_ .f32 b) i = Ideal.ofBits .f32 b :=
  broadcastInDim_scalar_apply bcast_S_S64 (constant (F := Ideal) S_ .f32 b) i

/-- The host's `expm1` of a vector at an index is `exp` of the element minus one. -/
theorem host_expm1_apply {s : Shape} {φ : FTy} (a : FVec Ideal s φ) (i : s.Idx) : Host.expm1 a i = Ideal.exp (a i) - 1 := rfl
/-- The host's inverse square root of a vector at an index is that of the element. -/
theorem host_rsqrt_apply {s : Shape} {φ : FTy} (a : FVec Ideal s φ) (i : s.Idx) : Host.rsqrt a i = Ideal.rsqrt (a i) := rfl

/-- The reference's guarded form of the exponential linear unit, on one extended real. -/
theorem elu_guarded (n : EReal) : (if 0 < n then n else 1 * (Ideal.exp (if 0 < n then 0 else n) - 1)) = elu n := by
  unfold elu
  by_cases h : 0 < n
  · simp only [h, if_true]
  · simp only [h, if_false, one_mul]

/-! ## The layer terms -/

/-- The first layer: the aggregate times the weights, plus the masked bias array. -/
def lin0 (agg : FVec Ideal S100000x64 .f32) (w : FVec Ideal S64x64 .f32) (bias : FVec Ideal S100000x64 .f32) :
    FVec Ideal S100000x64 .f32 :=
  addf (Host.dotGeneral dot_S100000x64_S64x64_S100000x64_1_0_0_1_n_n none agg w) bias

/-- The reference's exponential linear unit on a whole array. -/
def eluRef (n : FVec Ideal S100000x64 .f32) : FVec Ideal S100000x64 .f32 :=
  select (cmpf .ogt n (broadcastInDim S100000x64 ![] bcast_S_S100000x64 (constant (F := Ideal) S_ .f32 0x00000000#32))) n
    (mulf (broadcastInDim S100000x64 ![] bcast_S_S100000x64 (constant (F := Ideal) S_ .f32 0x3F800000#32))
      (Host.expm1 (select (cmpf .ogt n (broadcastInDim S100000x64 ![] bcast_S_S100000x64 (constant (F := Ideal) S_ .f32 0x00000000#32)))
        (broadcastInDim S100000x64 ![] bcast_S_S100000x64 (id (constant (F := Ideal) S_ .f32 0x00000000#32))) n)))

/-- Normalise by the given column means and variances, scale, shift, and activate. -/
def bnElu (h : FVec Ideal S100000x64 .f32) (mu var gam bet : FVec Ideal S64 .f32) : FVec Ideal S100000x64 .f32 :=
  eluRef
    (addf
      (mulf
        (mulf (subf h (broadcastInDim S100000x64 ![0, 1] bcast_S1x64_S100000x64_0_1 (broadcastInDim S1x64 ![1] bcast_S64_S1x64_1 mu)))
          (broadcastInDim S100000x64 ![0, 1] bcast_S1x64_S100000x64_0_1 (broadcastInDim S1x64 ![1] bcast_S64_S1x64_1 (Host.rsqrt (addf var (broadcastInDim S64 ![] bcast_S_S64 (constant (F := Ideal) S_ .f32 0x3727C5AC#32)))))))
        (broadcastInDim S100000x64 ![0, 1] bcast_S1x64_S100000x64_0_1 (broadcastInDim S1x64 ![1] bcast_S64_S1x64_1 gam)))
      (broadcastInDim S100000x64 ![0, 1] bcast_S1x64_S100000x64_0_1 (broadcastInDim S1x64 ![1] bcast_S64_S1x64_1 bet)))

/-- The second layer: aggregate times its weights, plus the bias, plus the node rows times theirs. -/
def lin1 (agg h : FVec Ideal S100000x64 .f32) (wl : FVec Ideal S64x64 .f32) (bl : FVec Ideal S64 .f32)
    (wr : FVec Ideal S64x64 .f32) : FVec Ideal S100000x64 .f32 :=
  addf (addf (Host.dotGeneral dot_S100000x64_S64x64_S100000x64_1_0_0_1_n_n none agg wl) (broadcastInDim S100000x64 ![0, 1] bcast_S1x64_S100000x64_0_1 (broadcastInDim S1x64 ![1] bcast_S64_S1x64_1 bl)))
    (Host.dotGeneral dot_S100000x64_S64x64_S100000x64_1_0_0_1_n_n none h wr)

/-- The third layer: a two-layer perceptron on the node rows plus their neighbour sums. -/
def lin2 (h s : FVec Ideal S100000x64 .f32) (w2a : FVec Ideal S64x64 .f32) (b2a : FVec Ideal S64 .f32)
    (w2b : FVec Ideal S64x64 .f32) (b2b : FVec Ideal S64 .f32) : FVec Ideal S100000x64 .f32 :=
  addf
    (Host.dotGeneral dot_S100000x64_S64x64_S100000x64_1_0_0_1_n_n none
      (maximumf (addf (Host.dotGeneral dot_S100000x64_S64x64_S100000x64_1_0_0_1_n_n none (addf h s) w2a) (broadcastInDim S100000x64 ![0, 1] bcast_S1x64_S100000x64_0_1 (broadcastInDim S1x64 ![1] bcast_S64_S1x64_1 b2a))) (broadcastInDim S100000x64 ![] bcast_S_S100000x64 (constant (F := Ideal) S_ .f32 0x00000000#32)))
      w2b)
    (broadcastInDim S100000x64 ![0, 1] bcast_S1x64_S100000x64_0_1 (broadcastInDim S1x64 ![1] bcast_S64_S1x64_1 b2b))

/-- The fourth layer: neighbour sums times their weights, plus the bias, plus the node rows times theirs. -/
def lin3 (s h : FVec Ideal S100000x64 .f32) (wrel : FVec Ideal S64x64 .f32) (brel : FVec Ideal S64 .f32)
    (wroot : FVec Ideal S64x64 .f32) : FVec Ideal S100000x64 .f32 :=
  addf (addf (Host.dotGeneral dot_S100000x64_S64x64_S100000x64_1_0_0_1_n_n none s wrel) (broadcastInDim S100000x64 ![0, 1] bcast_S1x64_S100000x64_0_1 (broadcastInDim S1x64 ![1] bcast_S64_S1x64_1 brel)))
    (Host.dotGeneral dot_S100000x64_S64x64_S100000x64_1_0_0_1_n_n none h wroot)

/-- The output head: pooled rows times the weights plus the bias. -/
def head (p : FVec Ideal S2048x64 .f32) (w : FVec Ideal S64x16 .f32) (b : FVec Ideal S16 .f32) : FVec Ideal S2048x16 .f32 :=
  addf (Host.dotGeneral dot_S2048x64_S64x16_S2048x16_1_0_0_1_n_n none p w)
    (broadcastInDim S2048x16 ![0, 1] bcast_S1x16_S2048x16_0_1 (broadcastInDim S1x16 ![1] bcast_S16_S1x16_1 b))

/-! ## The layer terms at an index -/

theorem lin0_apply (agg : FVec Ideal S100000x64 .f32) (w : FVec Ideal S64x64 .f32) (bias : FVec Ideal S100000x64 .f32)
    (r : Fin 100000) (j : Fin 64) :
    lin0 agg w bias (ix2 r j) = (∑ k : Fin 64, agg (ix2 r k) * w (ix2 k j)) + bias (ix2 r j) := by
  unfold lin0
  simp only [addf_apply, dg64_apply]

theorem eluRef_apply (n : FVec Ideal S100000x64 .f32) (r : Fin 100000) (j : Fin 64) :
    eluRef n (ix2 r j) = elu (n (ix2 r j)) := by
  unfold eluRef
  simp only [select_apply, cmpf_apply, mulf_apply, host_expm1_apply, id]
  rw [splat64_apply, splat64_apply]
  simp only [Ideal.cmpf_def, Ideal.ofBits_zero_f32, ofBits_one_f32, select_ogt_zero]
  exact elu_guarded _

theorem bnElu_apply (h : FVec Ideal S100000x64 .f32) (mu var gam bet : FVec Ideal S64 .f32) (r : Fin 100000) (j : Fin 64) :
    bnElu h mu var gam bet (ix2 r j)
      = elu (((h (ix2 r j) - mu (ix1 j)) * Ideal.rsqrt (var (ix1 j) + eps)) * gam (ix1 j) + bet (ix1 j)) := by
  unfold bnElu
  rw [eluRef_apply]
  simp only [addf_apply, mulf_apply, subf_apply]
  rw [rows64_apply, rows64_apply, rows64_apply, rows64_apply]
  simp only [host_rsqrt_apply, addf_apply]
  rw [splatCol_apply]
  rfl

theorem lin1_apply (agg h : FVec Ideal S100000x64 .f32) (wl : FVec Ideal S64x64 .f32) (bl : FVec Ideal S64 .f32)
    (wr : FVec Ideal S64x64 .f32) (r : Fin 100000) (j : Fin 64) :
    lin1 agg h wl bl wr (ix2 r j)
      = ((∑ k : Fin 64, agg (ix2 r k) * wl (ix2 k j)) + bl (ix1 j)) + ∑ k : Fin 64, h (ix2 r k) * wr (ix2 k j) := by
  unfold lin1
  simp only [addf_apply, dg64_apply]
  rw [rows64_apply]

theorem lin2_apply (h s : FVec Ideal S100000x64 .f32) (w2a : FVec Ideal S64x64 .f32) (b2a : FVec Ideal S64 .f32)
    (w2b : FVec Ideal S64x64 .f32) (b2b : FVec Ideal S64 .f32) (r : Fin 100000) (j : Fin 64) :
    lin2 h s w2a b2a w2b b2b (ix2 r j)
      = (∑ k : Fin 64, max ((∑ l : Fin 64, (h (ix2 r l) + s (ix2 r l)) * w2a (ix2 l k)) + b2a (ix1 k)) 0 * w2b (ix2 k j))
          + b2b (ix1 j) := by
  unfold lin2
  rw [addf_apply, dg64_apply, rows64_apply]
  refine congrArg (· + b2b (ix1 j)) (Finset.sum_congr rfl fun k _ => ?_)
  rw [maximumf_apply, addf_apply, dg64_apply, rows64_apply, splat64_apply, Ideal.ofBits_zero_f32]
  simp only [addf_apply]

theorem lin3_apply (s h : FVec Ideal S100000x64 .f32) (wrel : FVec Ideal S64x64 .f32) (brel : FVec Ideal S64 .f32)
    (wroot : FVec Ideal S64x64 .f32) (r : Fin 100000) (j : Fin 64) :
    lin3 s h wrel brel wroot (ix2 r j)
      = ((∑ k : Fin 64, s (ix2 r k) * wrel (ix2 k j)) + brel (ix1 j)) + ∑ k : Fin 64, h (ix2 r k) * wroot (ix2 k j) := by
  unfold lin3
  simp only [addf_apply, dg64_apply]
  rw [rows64_apply]

theorem head_apply (p : FVec Ideal S2048x64 .f32) (w : FVec Ideal S64x16 .f32) (b : FVec Ideal S16 .f32)
    (r : Fin 2048) (j : Fin 16) :
    head p w b (ix2 r j) = (∑ k : Fin 64, p (ix2 r k) * w (ix2 k j)) + b (ix1 j) := by
  unfold head
  simp only [addf_apply, dg16_apply]
  rw [rows16_apply]

end Cert.ReferenceIdeal.Layers

end
-- ==== Proof.Join.lean ====
/-
  Each region's result, block by block over the row tiles of its input arrays, is the reference's layer term as a
  whole array. An index (R, j) of a [100000,64] array lies in block R / 2000 at place (R % 2000, j); the block
  of an array read at place (R % 2000, k) is the array at (R, k), for every column k, since
  2000 * (R / 2000) + R % 2000 = R. So a region's body, read at the index's place inside the index's block, is
  a formula in the entries of row R of its row-tiled operands and in its untiled operands (weights, and
  per-column vectors carried as one-row blocks, whose entry (0, j) is the vector's entry j) — the same formula the
  reference's whole-array layer term has at (R, j).
-/
import proofs.«175823_j87351044866594_1_alg».proof.Proof.PayBn
import proofs.«175823_j87351044866594_1_alg».proof.Proof.PayLin
import proofs.«175823_j87351044866594_1_alg».proof.Proof.RefLayers
import proofs.«175823_j87351044866594_1_alg».proof.Proof.Tiles
import proofs.«175823_j87351044866594_1_alg».proof.Proof.KGlue
import Idealize.ShloMosaic.Lib.ValueLayout

noncomputable section

namespace Cert.Join

open Idealize.ShloMosaic Idealize.ShloMosaic.ValueIdx Cert.KernelIdeal Cert.KernelIdeal.Gen Cert.KernelIdeal.Tiles
  Cert.KernelIdeal.Glue Cert.KernelIdeal.Pay Cert.Spec
open scoped BigOperators

/-- The row of an index inside its block: the row modulo the 2000 rows of a block. -/
abbrev rowIn (R : Fin 100000) : Fin 2000 := Fin.mk (n := 2000) (R.val % 2000) (Nat.mod_lt _ (by decide))

/-- The place of (R, j) inside its block is (R % 2000, j). -/
theorem inBlock_ix2 (R : Fin 100000) (j : Fin 64) : inBlock (ix2 R j) = ix2 (rowIn R) j := by
  funext d
  apply Fin.ext
  match d with
  | ⟨0, _⟩ => rfl
  | ⟨1, _⟩ => rfl

/-- The block of (R, j), read at row R % 2000 and ANY column k, is the array at (R, k). -/
theorem tile_row (a : S100000x64.Idx → EReal) (R : Fin 100000) (j k : Fin 64) :
    tile (F := Ideal) a (blockOf (ix2 R j)) (ix2 (rowIn R) k) = a (ix2 R k) := by
  rw [tile_apply]
  congr 1
  funext d
  apply Fin.ext
  match d with
  | ⟨0, _⟩ =>
    show 2000 * (R.val / 2000) + R.val % 2000 = R.val
    omega
  | ⟨1, _⟩ => rfl

/-- A vector of 64 entries carried as one row reads, at (0, j), its entry j. -/
theorem asRow_apply (v : S64.Idx → EReal) (j : Fin 64) : asRow (F := Ideal) v (ix2 (0 : Fin 1) j) = v (ix1 j) :=
  shapeCast_a_1a_apply v shapeCasts_S64_S1x64 0 j

/-- A vector of 16 entries carried as one row reads, at (0, j), its entry j. -/
theorem asRow16_apply (v : S16.Idx → EReal) (j : Fin 16) : asRow16 (F := Ideal) v (ix2 (0 : Fin 1) j) = v (ix1 j) :=
  shapeCast_a_1a_apply v shapeCasts_S16_S1x16 0 j

/-- The first linear layer. -/
theorem lin0 (agg bias : S100000x64.Idx → EReal) (w : S64x64.Idx → EReal) :
    (fun i => out0_3 (F := Ideal) (tile (F := Ideal) agg (blockOf i)) (tile (F := Ideal) bias (blockOf i)) w (inBlock i))
      = Cert.ReferenceIdeal.Layers.lin0 agg w bias := by
  funext i
  obtain ⟨R, j, rfl⟩ : ∃ (R : Fin 100000) (j : Fin 64), i = ix2 R j := ⟨i 0, i 1, eq_ix2 i⟩
  rw [inBlock_ix2, out0_3_apply, Cert.ReferenceIdeal.Layers.lin0_apply, tile_row]
  refine congrArg (fun x => x + bias (ix2 R j)) (Finset.sum_congr rfl fun k _ => ?_)
  rw [tile_row]

/-- The four normalise-and-activate passes. -/
theorem bn1 (h : S100000x64.Idx → EReal) (mu var gam bet : S64.Idx → EReal) :
    (fun i => out1_5 (F := Ideal) (tile (F := Ideal) h (blockOf i)) (asRow (F := Ideal) mu) (asRow (F := Ideal) var)
        (asRow (F := Ideal) gam) (asRow (F := Ideal) bet) (inBlock i))
      = Cert.ReferenceIdeal.Layers.bnElu h mu var gam bet := by
  funext i
  obtain ⟨R, j, rfl⟩ : ∃ (R : Fin 100000) (j : Fin 64), i = ix2 R j := ⟨i 0, i 1, eq_ix2 i⟩
  rw [inBlock_ix2, out1_5_apply, Cert.ReferenceIdeal.Layers.bnElu_apply, tile_row, asRow_apply, asRow_apply,
    asRow_apply, asRow_apply]

theorem bn3 (h : S100000x64.Idx → EReal) (mu var gam bet : S64.Idx → EReal) :
    (fun i => out3_5 (F := Ideal) (tile (F := Ideal) h (blockOf i)) (asRow (F := Ideal) mu) (asRow (F := Ideal) var)
        (asRow (F := Ideal) gam) (asRow (F := Ideal) bet) (inBlock i))
      = Cert.ReferenceIdeal.Layers.bnElu h mu var gam bet := by
  funext i
  obtain ⟨R, j, rfl⟩ : ∃ (R : Fin 100000) (j : Fin 64), i = ix2 R j := ⟨i 0, i 1, eq_ix2 i⟩
  rw [inBlock_ix2, out3_5_apply, Cert.ReferenceIdeal.Layers.bnElu_apply, tile_row, asRow_apply, asRow_apply,
    asRow_apply, asRow_apply]

theorem bn5 (h : S100000x64.Idx → EReal) (mu var gam bet : S64.Idx → EReal) :
    (fun i => out5_5 (F := Ideal) (tile (F := Ideal) h (blockOf i)) (asRow (F := Ideal) mu) (asRow (F := Ideal) var)
        (asRow (F := Ideal) gam) (asRow (F := Ideal) bet) (inBlock i))
      = Cert.ReferenceIdeal.Layers.bnElu h mu var gam bet := by
  funext i
  obtain ⟨R, j, rfl⟩ : ∃ (R : Fin 100000) (j : Fin 64), i = ix2 R j := ⟨i 0, i 1, eq_ix2 i⟩
  rw [inBlock_ix2, out5_5_apply, Cert.ReferenceIdeal.Layers.bnElu_apply, tile_row, asRow_apply, asRow_apply,
    asRow_apply, asRow_apply]

theorem bn7 (h : S100000x64.Idx → EReal) (mu var gam bet : S64.Idx → EReal) :
    (fun i => out7_5 (F := Ideal) (tile (F := Ideal) h (blockOf i)) (asRow (F := Ideal) mu) (asRow (F := Ideal) var)
        (asRow (F := Ideal) gam) (asRow (F := Ideal) bet) (inBlock i))
      = Cert.ReferenceIdeal.Layers.bnElu h mu var gam bet := by
  funext i
  obtain ⟨R, j, rfl⟩ : ∃ (R : Fin 100000) (j : Fin 64), i = ix2 R j := ⟨i 0, i 1, eq_ix2 i⟩
  rw [inBlock_ix2, out7_5_apply, Cert.ReferenceIdeal.Layers.bnElu_apply, tile_row, asRow_apply, asRow_apply,
    asRow_apply, asRow_apply]

/-- The second linear layer. -/
theorem lin1 (agg h : S100000x64.Idx → EReal) (wl : S64x64.Idx → EReal) (bl : S64.Idx → EReal) (wr : S64x64.Idx → EReal) :
    (fun i => out2_5 (F := Ideal) (tile (F := Ideal) agg (blockOf i)) (tile (F := Ideal) h (blockOf i)) wl
        (asRow (F := Ideal) bl) wr (inBlock i))
      = Cert.ReferenceIdeal.Layers.lin1 agg h wl bl wr := by
  funext i
  obtain ⟨R, j, rfl⟩ : ∃ (R : Fin 100000) (j : Fin 64), i = ix2 R j := ⟨i 0, i 1, eq_ix2 i⟩
  rw [inBlock_ix2, out2_5_apply, Cert.ReferenceIdeal.Layers.lin1_apply, asRow_apply]
  refine congrArg₂ (fun x y => (x + bl (ix1 j)) + y) (Finset.sum_congr rfl fun k _ => ?_)
    (Finset.sum_congr rfl fun k _ => ?_)
  · rw [tile_row]
  · rw [tile_row]

/-- The third layer, a two-layer perceptron. -/
theorem lin2 (h s : S100000x64.Idx → EReal) (w2a : S64x64.Idx → EReal) (b2a : S64.Idx → EReal) (w2b : S64x64.Idx → EReal)
    (b2b : S64.Idx → EReal) :
    (fun i => out4_6 (F := Ideal) (tile (F := Ideal) h (blockOf i)) (tile (F := Ideal) s (blockOf i)) w2a
        (asRow (F := Ideal) b2a) w2b (asRow (F := Ideal) b2b) (inBlock i))
      = Cert.ReferenceIdeal.Layers.lin2 h s w2a b2a w2b b2b := by
  funext i
  obtain ⟨R, j, rfl⟩ : ∃ (R : Fin 100000) (j : Fin 64), i = ix2 R j := ⟨i 0, i 1, eq_ix2 i⟩
  rw [inBlock_ix2, out4_6_apply, Cert.ReferenceIdeal.Layers.lin2_apply, asRow_apply]
  refine congrArg (fun x => x + b2b (ix1 j)) (Finset.sum_congr rfl fun k _ => ?_)
  rw [asRow_apply]
  refine congrArg (fun z => max (z + b2a (ix1 k)) 0 * w2b (ix2 k j)) (Finset.sum_congr rfl fun l _ => ?_)
  rw [tile_row, tile_row]

/-- The fourth linear layer. -/
theorem lin3 (s h : S100000x64.Idx → EReal) (wrel : S64x64.Idx → EReal) (brel : S64.Idx → EReal) (wroot : S64x64.Idx → EReal) :
    (fun i => out6_5 (F := Ideal) (tile (F := Ideal) s (blockOf i)) (tile (F := Ideal) h (blockOf i)) wrel
        (asRow (F := Ideal) brel) wroot (inBlock i))
      = Cert.ReferenceIdeal.Layers.lin3 s h wrel brel wroot := by
  funext i
  obtain ⟨R, j, rfl⟩ : ∃ (R : Fin 100000) (j : Fin 64), i = ix2 R j := ⟨i 0, i 1, eq_ix2 i⟩
  rw [inBlock_ix2, out6_5_apply, Cert.ReferenceIdeal.Layers.lin3_apply, asRow_apply]
  refine congrArg₂ (fun x y => (x + brel (ix1 j)) + y) (Finset.sum_congr rfl fun k _ => ?_)
    (Finset.sum_congr rfl fun k _ => ?_)
  · rw [tile_row]
  · rw [tile_row]

/-- The output head: one block, the whole array. -/
theorem head (p : S2048x64.Idx → EReal) (w : S64x16.Idx → EReal) (b : S16.Idx → EReal) :
    out8_3 (F := Ideal) p w (asRow16 (F := Ideal) b) = Cert.ReferenceIdeal.Layers.head p w b := by
  funext i
  obtain ⟨R, j, rfl⟩ : ∃ (R : Fin 2048) (j : Fin 16), i = ix2 R j := ⟨i 0, i 1, eq_ix2 i⟩
  rw [out8_3_apply, Cert.ReferenceIdeal.Layers.head_apply, asRow16_apply]

end Cert.Join

end
-- ==== Proof.RStages.lean ====
/-
  What each segment of the reference's line of operations leaves at its last buffer, as a function of the contents
  it starts from: the layer's own arithmetic (a linear layer, or batch normalisation followed by the exponential
  linear unit, or the output head) applied to the host-side pieces (neighbour means and sums, masked bias, column
  means and variances, parameter rows, the per-graph pool) of the earlier buffers. The host-side pieces are the SAME
  functions the idealized kernel program applies between its regions.
-/
import proofs.«175823_j87351044866594_1_alg».proof.Proof.RefRun
import proofs.«175823_j87351044866594_1_alg».proof.Proof.RefLayers
import proofs.«175823_j87351044866594_1_alg».proof.Proof.KGlue

set_option maxRecDepth 16384

noncomputable section

namespace Cert.ReferenceIdeal.RStages

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo
open Cert.KernelIdeal.Glue

/-- Segment 0 computes the sources of the edges: row 0 of the edge list. -/
theorem src0 (U : Valuation τ sig (Elt Ideal)) :
    after seg0 U (Proc.devRef .tc main_v1) = src (F := Ideal) (U (Proc.devRef .tc main_arg1)) := by
  dsimp only [seg0, p0]; after_results_simp; rfl

/-- Segment 0 computes the destinations of the edges: row 1 of the edge list. -/
theorem dst0 (U : Valuation τ sig (Elt Ideal)) :
    after seg0 U (Proc.devRef .tc main_v3) = dst (F := Ideal) (U (Proc.devRef .tc main_arg1)) := by
  dsimp only [seg0, p0]; after_results_simp; rfl

/-- Segment 0: the first linear layer on the mean over in-neighbours of the input, plus the masked bias. -/
theorem st0 (U : Valuation τ sig (Elt Ideal)) :
    after seg0 U (Proc.devRef .tc main_v30)
      = Layers.lin0 (meanAgg (F := Ideal) (U (Proc.devRef .tc main_arg0)) (src (U (Proc.devRef .tc main_arg1))) (dst (U (Proc.devRef .tc main_arg1))))
          (U (Proc.devRef .tc main_arg3))
          (maskedBias (F := Ideal) (U (Proc.devRef .tc main_arg4)) (dst (U (Proc.devRef .tc main_arg1)))) := by
  dsimp only [seg0, p0]; after_results_simp; rfl

/-- Segment 1: batch normalisation of the first layer's result with parameter row 0, then the exponential linear unit. -/
theorem st1 (U : Valuation τ sig (Elt Ideal)) :
    after seg1 U (Proc.devRef .tc main_v60)
      = Layers.bnElu (U (Proc.devRef .tc main_v30)) (colMean (F := Ideal) (U (Proc.devRef .tc main_v30))) (colVar (F := Ideal) (U (Proc.devRef .tc main_v30)))
          (pick (F := Ideal) ![0, 0] Cert.KernelIdeal.Facts₀.slices_S4x64_S1x64_0_0 (U (Proc.devRef .tc main_arg15)))
          (pick (F := Ideal) ![0, 0] Cert.KernelIdeal.Facts₀.slices_S4x64_S1x64_0_0 (U (Proc.devRef .tc main_arg16))) := by
  simp only [seg1, p1, p2, eluOps, List.cons_append, List.nil_append, List.append_assoc]
  after_results_simp
  rfl

/-- Segment 2: the second linear layer on the mean over in-neighbours and on the node rows themselves. -/
theorem st2 (U : Valuation τ sig (Elt Ideal)) :
    after seg2 U (Proc.devRef .tc main_v87)
      = Layers.lin1 (meanAgg (F := Ideal) (U (Proc.devRef .tc main_v60)) (U (Proc.devRef .tc main_v1)) (U (Proc.devRef .tc main_v3))) (U (Proc.devRef .tc main_v60))
          (U (Proc.devRef .tc main_arg5)) (U (Proc.devRef .tc main_arg6)) (U (Proc.devRef .tc main_arg7)) := by
  dsimp only [seg2, p3]; after_results_simp; rfl

/-- Segment 3: batch normalisation with parameter row 1, then the exponential linear unit. -/
theorem st3 (U : Valuation τ sig (Elt Ideal)) :
    after seg3 U (Proc.devRef .tc main_v117)
      = Layers.bnElu (U (Proc.devRef .tc main_v87)) (colMean (F := Ideal) (U (Proc.devRef .tc main_v87))) (colVar (F := Ideal) (U (Proc.devRef .tc main_v87)))
          (pick (F := Ideal) ![1, 0] Cert.KernelIdeal.Facts₀.slices_S4x64_S1x64_1_0 (U (Proc.devRef .tc main_arg15)))
          (pick (F := Ideal) ![1, 0] Cert.KernelIdeal.Facts₀.slices_S4x64_S1x64_1_0 (U (Proc.devRef .tc main_arg16))) := by
  simp only [seg3, p4, p5, eluOps, List.cons_append, List.nil_append, List.append_assoc]
  after_results_simp
  rfl

/-- Segment 4: the two-layer perceptron on the node rows plus the sums over their in-neighbours. -/
theorem st4 (U : Valuation τ sig (Elt Ideal)) :
    after seg4 U (Proc.devRef .tc main_v137)
      = Layers.lin2 (U (Proc.devRef .tc main_v117)) (segSum (F := Ideal) (U (Proc.devRef .tc main_v117)) (U (Proc.devRef .tc main_v1)) (U (Proc.devRef .tc main_v3)))
          (U (Proc.devRef .tc main_arg8)) (U (Proc.devRef .tc main_arg9)) (U (Proc.devRef .tc main_arg10)) (U (Proc.devRef .tc main_arg11)) := by
  simp only [seg4, p6, p7, reluOps, List.cons_append, List.nil_append, List.append_assoc]
  after_results_simp
  rfl

/-- Segment 5: batch normalisation with parameter row 2, then the exponential linear unit. -/
theorem st5 (U : Valuation τ sig (Elt Ideal)) :
    after seg5 U (Proc.devRef .tc main_v167)
      = Layers.bnElu (U (Proc.devRef .tc main_v137)) (colMean (F := Ideal) (U (Proc.devRef .tc main_v137))) (colVar (F := Ideal) (U (Proc.devRef .tc main_v137)))
          (pick (F := Ideal) ![2, 0] Cert.KernelIdeal.Facts₀.slices_S4x64_S1x64_2_0 (U (Proc.devRef .tc main_arg15)))
          (pick (F := Ideal) ![2, 0] Cert.KernelIdeal.Facts₀.slices_S4x64_S1x64_2_0 (U (Proc.devRef .tc main_arg16))) := by
  simp only [seg5, p8, p9, eluOps, List.cons_append, List.nil_append, List.append_assoc]
  after_results_simp
  rfl

/-- Segment 6: the fourth linear layer on the sums over in-neighbours and on the node rows themselves. -/
theorem st6 (U : Valuation τ sig (Elt Ideal)) :
    after seg6 U (Proc.devRef .tc main_v183)
      = Layers.lin3 (segSum (F := Ideal) (U (Proc.devRef .tc main_v167)) (U (Proc.devRef .tc main_v1)) (U (Proc.devRef .tc main_v3))) (U (Proc.devRef .tc main_v167))
          (U (Proc.devRef .tc main_arg12)) (U (Proc.devRef .tc main_arg13)) (U (Proc.devRef .tc main_arg14)) := by
  dsimp only [seg6, p10]; after_results_simp; rfl

/-- Segment 7: batch normalisation with parameter row 3, then the exponential linear unit. -/
theorem st7 (U : Valuation τ sig (Elt Ideal)) :
    after seg7 U (Proc.devRef .tc main_v213)
      = Layers.bnElu (U (Proc.devRef .tc main_v183)) (colMean (F := Ideal) (U (Proc.devRef .tc main_v183))) (colVar (F := Ideal) (U (Proc.devRef .tc main_v183)))
          (pick (F := Ideal) ![3, 0] Cert.KernelIdeal.Facts₀.slices_S4x64_S1x64_3_0 (U (Proc.devRef .tc main_arg15)))
          (pick (F := Ideal) ![3, 0] Cert.KernelIdeal.Facts₀.slices_S4x64_S1x64_3_0 (U (Proc.devRef .tc main_arg16))) := by
  simp only [seg7, p11, p12, eluOps, List.cons_append, List.nil_append, List.append_assoc]
  after_results_simp
  rfl

/-- Segment 8: the output head on the per-graph mean of the last activations. -/
theorem st8 (U : Valuation τ sig (Elt Ideal)) :
    after seg8 U (Proc.devRef .tc main_v228)
      = Layers.head (pool (F := Ideal) (U (Proc.devRef .tc main_v213)) (U (Proc.devRef .tc main_arg2))) (U (Proc.devRef .tc main_arg17)) (U (Proc.devRef .tc main_arg18)) := by
  dsimp only [seg8, p13]; after_results_simp; rfl

end Cert.ReferenceIdeal.RStages

end
-- ==== Proof.Stages.lean ====
/-
  Stage by stage, the idealized kernel program and the reference compute the same arrays. A stage of the kernel
  program is a stretch of host operations followed by a tiled region; the matching stage of the reference is a
  segment of its line of host operations. Given that the two programs' buffers agree on what the stage reads (the
  previous stage's result, the two rows of the edge list, the weights), the region's output array — each block the
  body's result on the row tiles of the region's input arrays, which the preceding stretch computed as the host-side
  pieces — is the reference's layer term on the same pieces.
-/
import proofs.«175823_j87351044866594_1_alg».proof.Proof.KHost
import proofs.«175823_j87351044866594_1_alg».proof.Proof.KKeepAll
import proofs.«175823_j87351044866594_1_alg».proof.Proof.Blocks0
import proofs.«175823_j87351044866594_1_alg».proof.Proof.Blocks1
import proofs.«175823_j87351044866594_1_alg».proof.Proof.Blocks2
import proofs.«175823_j87351044866594_1_alg».proof.Proof.Blocks3
import proofs.«175823_j87351044866594_1_alg».proof.Proof.Blocks4
import proofs.«175823_j87351044866594_1_alg».proof.Proof.Blocks5
import proofs.«175823_j87351044866594_1_alg».proof.Proof.Blocks6
import proofs.«175823_j87351044866594_1_alg».proof.Proof.Blocks7
import proofs.«175823_j87351044866594_1_alg».proof.Proof.Blocks8
import proofs.«175823_j87351044866594_1_alg».proof.Proof.Join
import proofs.«175823_j87351044866594_1_alg».proof.Proof.RStages

set_option maxRecDepth 16384

noncomputable section

namespace Cert.Bridge

open Cert.KernelIdeal Cert.KernelIdeal.Gen Cert.KernelIdeal.Blocks
open Idealize.ShloMosaic Idealize.ShloMosaic.TcCoe Idealize.SL.Sem Idealize.ShloMosaic.StableHlo
open Cert.ReferenceIdeal.RefRun (seg0 seg1 seg2 seg3 seg4 seg5 seg6 seg7 seg8)

variable (m : (ℓ : Loc nD τ sig) → Buf (Elt Ideal) ℓ) (ρ : Dev nD → PrngReg) (c : Dev nD)
variable (U : Valuation Cert.ReferenceIdeal.τ Cert.ReferenceIdeal.sig (Elt Ideal))

/-- The two rows of the edge list, which both programs compute first from the same edge list. -/
theorem edges (h1 : U (Proc.devRef .tc Cert.ReferenceIdeal.main_arg1) = W0 m ρ c (Proc.devRef .tc main_arg1)) :
    after seg0 U (Proc.devRef .tc Cert.ReferenceIdeal.main_v1) = W2 m ρ c (Proc.devRef .tc main_v1)
    ∧ after seg0 U (Proc.devRef .tc Cert.ReferenceIdeal.main_v3) = W2 m ρ c (Proc.devRef .tc main_v3) := by
  constructor
  · rw [Cert.ReferenceIdeal.RStages.src0 U, h1]
    exact ((W2_of_ne m ρ c main_v1 (by decide)).trans (KHost.hostOps0_src (W0 m ρ c))).symm
  · rw [Cert.ReferenceIdeal.RStages.dst0 U, h1]
    exact ((W2_of_ne m ρ c main_v3 (by decide)).trans (KHost.hostOps0_dst (W0 m ρ c))).symm

/-- Stage 0: the first linear layer. -/
theorem stage0
    (h0 : U (Proc.devRef .tc Cert.ReferenceIdeal.main_arg0) = W0 m ρ c (Proc.devRef .tc main_arg0))
    (h1 : U (Proc.devRef .tc Cert.ReferenceIdeal.main_arg1) = W0 m ρ c (Proc.devRef .tc main_arg1))
    (h3 : U (Proc.devRef .tc Cert.ReferenceIdeal.main_arg3) = W0 m ρ c (Proc.devRef .tc main_arg3))
    (h4 : U (Proc.devRef .tc Cert.ReferenceIdeal.main_arg4) = W0 m ρ c (Proc.devRef .tc main_arg4)) :
    after seg0 U (Proc.devRef .tc Cert.ReferenceIdeal.main_v30) = W2 m ρ c (Proc.devRef .tc main_v29) := by
  rw [Cert.ReferenceIdeal.RStages.st0 U, h0, h1, h3, h4]
  refine Eq.trans ?_ (W2_arr m ρ c 3).symm
  rw [final0 (V1 m ρ) c,
    show V1 m ρ c main_v21 = _ from KHost.hostOps0_agg (W0 m ρ c),
    show V1 m ρ c main_v28 = _ from KHost.hostOps0_bias (W0 m ρ c),
    show V1 m ρ c main_arg3 = W0 m ρ c (Proc.devRef .tc main_arg3) from KKeep.host0 m ρ c main_arg3 (by decide)]
  exact (Cert.Join.lin0 _ _ _).symm

/-- Stage 1: batch normalisation with parameter row 0 and the exponential linear unit. -/
theorem stage1
    (hp : U (Proc.devRef .tc Cert.ReferenceIdeal.main_v30) = W2 m ρ c (Proc.devRef .tc main_v29))
    (h15 : U (Proc.devRef .tc Cert.ReferenceIdeal.main_arg15) = W2 m ρ c (Proc.devRef .tc main_arg15))
    (h16 : U (Proc.devRef .tc Cert.ReferenceIdeal.main_arg16) = W2 m ρ c (Proc.devRef .tc main_arg16)) :
    after seg1 U (Proc.devRef .tc Cert.ReferenceIdeal.main_v60) = W4 m ρ c (Proc.devRef .tc main_v48) := by
  rw [Cert.ReferenceIdeal.RStages.st1 U, hp, h15, h16]
  refine Eq.trans ?_ (W4_arr m ρ c 5).symm
  rw [final1 (V3 m ρ) c,
    show V3 m ρ c main_v29 = W2 m ρ c (Proc.devRef .tc main_v29) from KKeep.host1 m ρ c main_v29 (by decide),
    show V3 m ρ c main_v40 = _ from KHost.hostOps1_mean (W2 m ρ c),
    show V3 m ρ c main_v41 = _ from KHost.hostOps1_var (W2 m ρ c),
    show V3 m ρ c main_v44 = _ from KHost.hostOps1_gamma (W2 m ρ c),
    show V3 m ρ c main_v47 = _ from KHost.hostOps1_beta (W2 m ρ c)]
  exact (Cert.Join.bn1 _ _ _ _ _).symm

/-- Stage 2: the second linear layer, on the mean over in-neighbours and on the node rows. -/
theorem stage2
    (hp : U (Proc.devRef .tc Cert.ReferenceIdeal.main_v60) = W4 m ρ c (Proc.devRef .tc main_v48))
    (hs : U (Proc.devRef .tc Cert.ReferenceIdeal.main_v1) = W4 m ρ c (Proc.devRef .tc main_v1))
    (hd : U (Proc.devRef .tc Cert.ReferenceIdeal.main_v3) = W4 m ρ c (Proc.devRef .tc main_v3))
    (h5 : U (Proc.devRef .tc Cert.ReferenceIdeal.main_arg5) = W4 m ρ c (Proc.devRef .tc main_arg5))
    (h6 : U (Proc.devRef .tc Cert.ReferenceIdeal.main_arg6) = W4 m ρ c (Proc.devRef .tc main_arg6))
    (h7 : U (Proc.devRef .tc Cert.ReferenceIdeal.main_arg7) = W4 m ρ c (Proc.devRef .tc main_arg7)) :
    after seg2 U (Proc.devRef .tc Cert.ReferenceIdeal.main_v87) = W6 m ρ c (Proc.devRef .tc main_v71) := by
  rw [Cert.ReferenceIdeal.RStages.st2 U, hp, hs, hd, h5, h6, h7]
  refine Eq.trans ?_ (W6_arr m ρ c 5).symm
  rw [final2 (V5 m ρ) c,
    show V5 m ρ c main_v66 = _ from KHost.hostOps2_agg (W4 m ρ c),
    show V5 m ρ c main_v48 = W4 m ρ c (Proc.devRef .tc main_v48) from KKeep.host2 m ρ c main_v48 (by decide),
    show V5 m ρ c main_arg5 = W4 m ρ c (Proc.devRef .tc main_arg5) from KKeep.host2 m ρ c main_arg5 (by decide),
    show V5 m ρ c main_v70 = _ from KHost.hostOps2_bias (W4 m ρ c),
    show V5 m ρ c main_arg7 = W4 m ρ c (Proc.devRef .tc main_arg7) from KKeep.host2 m ρ c main_arg7 (by decide)]
  exact (Cert.Join.lin1 _ _ _ _ _).symm

/-- Stage 3: batch normalisation with parameter row 1 and the exponential linear unit. -/
theorem stage3
    (hp : U (Proc.devRef .tc Cert.ReferenceIdeal.main_v87) = W6 m ρ c (Proc.devRef .tc main_v71))
    (h15 : U (Proc.devRef .tc Cert.ReferenceIdeal.main_arg15) = W6 m ρ c (Proc.devRef .tc main_arg15))
    (h16 : U (Proc.devRef .tc Cert.ReferenceIdeal.main_arg16) = W6 m ρ c (Proc.devRef .tc main_arg16)) :
    after seg3 U (Proc.devRef .tc Cert.ReferenceIdeal.main_v117) = W8 m ρ c (Proc.devRef .tc main_v90) := by
  rw [Cert.ReferenceIdeal.RStages.st3 U, hp, h15, h16]
  refine Eq.trans ?_ (W8_arr m ρ c 5).symm
  rw [final3 (V7 m ρ) c,
    show V7 m ρ c main_v71 = W6 m ρ c (Proc.devRef .tc main_v71) from KKeep.host3 m ρ c main_v71 (by decide),
    show V7 m ρ c main_v82 = _ from KHost.hostOps3_mean (W6 m ρ c),
    show V7 m ρ c main_v83 = _ from KHost.hostOps3_var (W6 m ρ c),
    show V7 m ρ c main_v86 = _ from KHost.hostOps3_gamma (W6 m ρ c),
    show V7 m ρ c main_v89 = _ from KHost.hostOps3_beta (W6 m ρ c)]
  exact (Cert.Join.bn3 _ _ _ _ _).symm

/-- Stage 4: the two-layer perceptron on the node rows plus the sums over their in-neighbours. -/
theorem stage4
    (hp : U (Proc.devRef .tc Cert.ReferenceIdeal.main_v117) = W8 m ρ c (Proc.devRef .tc main_v90))
    (hs : U (Proc.devRef .tc Cert.ReferenceIdeal.main_v1) = W8 m ρ c (Proc.devRef .tc main_v1))
    (hd : U (Proc.devRef .tc Cert.ReferenceIdeal.main_v3) = W8 m ρ c (Proc.devRef .tc main_v3))
    (h8 : U (Proc.devRef .tc Cert.ReferenceIdeal.main_arg8) = W8 m ρ c (Proc.devRef .tc main_arg8))
    (h9 : U (Proc.devRef .tc Cert.ReferenceIdeal.main_arg9) = W8 m ρ c (Proc.devRef .tc main_arg9))
    (h10 : U (Proc.devRef .tc Cert.ReferenceIdeal.main_arg10) = W8 m ρ c (Proc.devRef .tc main_arg10))
    (h11 : U (Proc.devRef .tc Cert.ReferenceIdeal.main_arg11) = W8 m ρ c (Proc.devRef .tc main_arg11)) :
    after seg4 U (Proc.devRef .tc Cert.ReferenceIdeal.main_v137) = W10 m ρ c (Proc.devRef .tc main_v103) := by
  rw [Cert.ReferenceIdeal.RStages.st4 U, hp, hs, hd, h8, h9, h10, h11]
  refine Eq.trans ?_ (W10_arr m ρ c 6).symm
  rw [final4 (V9 m ρ) c,
    show V9 m ρ c main_v90 = W8 m ρ c (Proc.devRef .tc main_v90) from KKeep.host4 m ρ c main_v90 (by decide),
    show V9 m ρ c main_v100 = _ from KHost.hostOps4_sum (W8 m ρ c),
    show V9 m ρ c main_arg8 = W8 m ρ c (Proc.devRef .tc main_arg8) from KKeep.host4 m ρ c main_arg8 (by decide),
    show V9 m ρ c main_v101 = _ from KHost.hostOps4_bias_a (W8 m ρ c),
    show V9 m ρ c main_arg10 = W8 m ρ c (Proc.devRef .tc main_arg10) from KKeep.host4 m ρ c main_arg10 (by decide),
    show V9 m ρ c main_v102 = _ from KHost.hostOps4_bias_b (W8 m ρ c)]
  exact (Cert.Join.lin2 _ _ _ _ _ _).symm

/-- Stage 5: batch normalisation with parameter row 2 and the exponential linear unit. -/
theorem stage5
    (hp : U (Proc.devRef .tc Cert.ReferenceIdeal.main_v137) = W10 m ρ c (Proc.devRef .tc main_v103))
    (h15 : U (Proc.devRef .tc Cert.ReferenceIdeal.main_arg15) = W10 m ρ c (Proc.devRef .tc main_arg15))
    (h16 : U (Proc.devRef .tc Cert.ReferenceIdeal.main_arg16) = W10 m ρ c (Proc.devRef .tc main_arg16)) :
    after seg5 U (Proc.devRef .tc Cert.ReferenceIdeal.main_v167) = W12 m ρ c (Proc.devRef .tc main_v122) := by
  rw [Cert.ReferenceIdeal.RStages.st5 U, hp, h15, h16]
  refine Eq.trans ?_ (W12_arr m ρ c 5).symm
  rw [final5 (V11 m ρ) c,
    show V11 m ρ c main_v103 = W10 m ρ c (Proc.devRef .tc main_v103) from KKeep.host5 m ρ c main_v103 (by decide),
    show V11 m ρ c main_v114 = _ from KHost.hostOps5_mean (W10 m ρ c),
    show V11 m ρ c main_v115 = _ from KHost.hostOps5_var (W10 m ρ c),
    show V11 m ρ c main_v118 = _ from KHost.hostOps5_gamma (W10 m ρ c),
    show V11 m ρ c main_v121 = _ from KHost.hostOps5_beta (W10 m ρ c)]
  exact (Cert.Join.bn5 _ _ _ _ _).symm

/-- Stage 6: the fourth linear layer, on the sums over in-neighbours and on the node rows. -/
theorem stage6
    (hp : U (Proc.devRef .tc Cert.ReferenceIdeal.main_v167) = W12 m ρ c (Proc.devRef .tc main_v122))
    (hs : U (Proc.devRef .tc Cert.ReferenceIdeal.main_v1) = W12 m ρ c (Proc.devRef .tc main_v1))
    (hd : U (Proc.devRef .tc Cert.ReferenceIdeal.main_v3) = W12 m ρ c (Proc.devRef .tc main_v3))
    (h12 : U (Proc.devRef .tc Cert.ReferenceIdeal.main_arg12) = W12 m ρ c (Proc.devRef .tc main_arg12))
    (h13 : U (Proc.devRef .tc Cert.ReferenceIdeal.main_arg13) = W12 m ρ c (Proc.devRef .tc main_arg13))
    (h14 : U (Proc.devRef .tc Cert.ReferenceIdeal.main_arg14) = W12 m ρ c (Proc.devRef .tc main_arg14)) :
    after seg6 U (Proc.devRef .tc Cert.ReferenceIdeal.main_v183) = W14 m ρ c (Proc.devRef .tc main_v134) := by
  rw [Cert.ReferenceIdeal.RStages.st6 U, hp, hs, hd, h12, h13, h14]
  refine Eq.trans ?_ (W14_arr m ρ c 5).symm
  rw [final6 (V13 m ρ) c,
    show V13 m ρ c main_v132 = _ from KHost.hostOps6_sum (W12 m ρ c),
    show V13 m ρ c main_v122 = W12 m ρ c (Proc.devRef .tc main_v122) from KKeep.host6 m ρ c main_v122 (by decide),
    show V13 m ρ c main_arg12 = W12 m ρ c (Proc.devRef .tc main_arg12) from KKeep.host6 m ρ c main_arg12 (by decide),
    show V13 m ρ c main_v133 = _ from KHost.hostOps6_bias (W12 m ρ c),
    show V13 m ρ c main_arg14 = W12 m ρ c (Proc.devRef .tc main_arg14) from KKeep.host6 m ρ c main_arg14 (by decide)]
  exact (Cert.Join.lin3 _ _ _ _ _).symm

/-- Stage 7: batch normalisation with parameter row 3 and the exponential linear unit. -/
theorem stage7
    (hp : U (Proc.devRef .tc Cert.ReferenceIdeal.main_v183) = W14 m ρ c (Proc.devRef .tc main_v134))
    (h15 : U (Proc.devRef .tc Cert.ReferenceIdeal.main_arg15) = W14 m ρ c (Proc.devRef .tc main_arg15))
    (h16 : U (Proc.devRef .tc Cert.ReferenceIdeal.main_arg16) = W14 m ρ c (Proc.devRef .tc main_arg16)) :
    after seg7 U (Proc.devRef .tc Cert.ReferenceIdeal.main_v213) = W16 m ρ c (Proc.devRef .tc main_v153) := by
  rw [Cert.ReferenceIdeal.RStages.st7 U, hp, h15, h16]
  refine Eq.trans ?_ (W16_arr m ρ c 5).symm
  rw [final7 (V15 m ρ) c,
    show V15 m ρ c main_v134 = W14 m ρ c (Proc.devRef .tc main_v134) from KKeep.host7 m ρ c main_v134 (by decide),
    show V15 m ρ c main_v145 = _ from KHost.hostOps7_mean (W14 m ρ c),
    show V15 m ρ c main_v146 = _ from KHost.hostOps7_var (W14 m ρ c),
    show V15 m ρ c main_v149 = _ from KHost.hostOps7_gamma (W14 m ρ c),
    show V15 m ρ c main_v152 = _ from KHost.hostOps7_beta (W14 m ρ c)]
  exact (Cert.Join.bn7 _ _ _ _ _).symm

/-- Stage 8: the output head on the per-graph mean of the last activations. -/
theorem stage8
    (hp : U (Proc.devRef .tc Cert.ReferenceIdeal.main_v213) = W16 m ρ c (Proc.devRef .tc main_v153))
    (h2 : U (Proc.devRef .tc Cert.ReferenceIdeal.main_arg2) = W16 m ρ c (Proc.devRef .tc main_arg2))
    (h17 : U (Proc.devRef .tc Cert.ReferenceIdeal.main_arg17) = W16 m ρ c (Proc.devRef .tc main_arg17))
    (h18 : U (Proc.devRef .tc Cert.ReferenceIdeal.main_arg18) = W16 m ρ c (Proc.devRef .tc main_arg18)) :
    after seg8 U (Proc.devRef .tc Cert.ReferenceIdeal.main_v228) = W18 m ρ c (Proc.devRef .tc main_v166) := by
  rw [Cert.ReferenceIdeal.RStages.st8 U, hp, h2, h17, h18]
  refine Eq.trans ?_ (W18_arr m ρ c 3).symm
  rw [final8 (V17 m ρ) c,
    show V17 m ρ c main_v164 = _ from KHost.hostOps8_pool (W16 m ρ c),
    show V17 m ρ c main_arg17 = W16 m ρ c (Proc.devRef .tc main_arg17) from KKeep.host8 m ρ c main_arg17 (by decide),
    show V17 m ρ c main_v165 = _ from KHost.hostOps8_bias (W16 m ρ c)]
  exact (Cert.Join.head _ _ _).symm

end Cert.Bridge

end
-- ==== Proof.RKeep.lean ====
/-
  Which buffers survive which segment of the reference's line of operations: a segment rewrites exactly the
  buffers its operations write, so a buffer outside its list keeps its contents across it; composed over the
  segments run so far. One instance per segment and per boundary.
-/
import proofs.«175823_j87351044866594_1_alg».proof.Proof.RefRun

set_option maxRecDepth 16384

noncomputable section

namespace Cert.ReferenceIdeal.RKeep

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo

variable {F : FTy → Type} [FloatOps F]

/-- Segment 0 leaves a buffer outside its list alone. -/
theorem keep0 (U : Valuation τ sig (Elt F)) (b : Ref sig .tc) (h : b ∉ wl_0) :
    after seg0 U (Proc.devRef .tc b) = U (Proc.devRef .tc b) :=
  after_of_writes_sub seg0 U seg0_writes h

/-- Segment 1 leaves a buffer outside its list alone. -/
theorem keep1 (U : Valuation τ sig (Elt F)) (b : Ref sig .tc) (h : b ∉ wl_1) :
    after seg1 U (Proc.devRef .tc b) = U (Proc.devRef .tc b) :=
  after_of_writes_sub seg1 U seg1_writes h

/-- Segment 2 leaves a buffer outside its list alone. -/
theorem keep2 (U : Valuation τ sig (Elt F)) (b : Ref sig .tc) (h : b ∉ wl_2) :
    after seg2 U (Proc.devRef .tc b) = U (Proc.devRef .tc b) :=
  after_of_writes_sub seg2 U seg2_writes h

/-- Segment 3 leaves a buffer outside its list alone. -/
theorem keep3 (U : Valuation τ sig (Elt F)) (b : Ref sig .tc) (h : b ∉ wl_3) :
    after seg3 U (Proc.devRef .tc b) = U (Proc.devRef .tc b) :=
  after_of_writes_sub seg3 U seg3_writes h

/-- Segment 4 leaves a buffer outside its list alone. -/
theorem keep4 (U : Valuation τ sig (Elt F)) (b : Ref sig .tc) (h : b ∉ wl_4) :
    after seg4 U (Proc.devRef .tc b) = U (Proc.devRef .tc b) :=
  after_of_writes_sub seg4 U seg4_writes h

/-- Segment 5 leaves a buffer outside its list alone. -/
theorem keep5 (U : Valuation τ sig (Elt F)) (b : Ref sig .tc) (h : b ∉ wl_5) :
    after seg5 U (Proc.devRef .tc b) = U (Proc.devRef .tc b) :=
  after_of_writes_sub seg5 U seg5_writes h

/-- Segment 6 leaves a buffer outside its list alone. -/
theorem keep6 (U : Valuation τ sig (Elt F)) (b : Ref sig .tc) (h : b ∉ wl_6) :
    after seg6 U (Proc.devRef .tc b) = U (Proc.devRef .tc b) :=
  after_of_writes_sub seg6 U seg6_writes h

/-- Segment 7 leaves a buffer outside its list alone. -/
theorem keep7 (U : Valuation τ sig (Elt F)) (b : Ref sig .tc) (h : b ∉ wl_7) :
    after seg7 U (Proc.devRef .tc b) = U (Proc.devRef .tc b) :=
  after_of_writes_sub seg7 U seg7_writes h

/-- Segment 8 leaves a buffer outside its list alone. -/
theorem keep8 (U : Valuation τ sig (Elt F)) (b : Ref sig .tc) (h : b ∉ wl_8) :
    after seg8 U (Proc.devRef .tc b) = U (Proc.devRef .tc b) :=
  after_of_writes_sub seg8 U seg8_writes h

/-- A buffer outside the lists of segments 0…1 has, after them, the contents it started with. -/
theorem start2 (U : Valuation τ sig (Elt F)) (b : Ref sig .tc) (h : b ∉ wl_0 ∧ b ∉ wl_1) :
    after seg1 (after seg0 (U)) (Proc.devRef .tc b) = U (Proc.devRef .tc b) := by
  obtain ⟨h0, h1⟩ := h
  exact (keep1 _ b h1).trans (keep0 _ b h0)

/-- A buffer outside the lists of segments 0…2 has, after them, the contents it started with. -/
theorem start3 (U : Valuation τ sig (Elt F)) (b : Ref sig .tc) (h : b ∉ wl_0 ∧ b ∉ wl_1 ∧ b ∉ wl_2) :
    after seg2 (after seg1 (after seg0 (U))) (Proc.devRef .tc b) = U (Proc.devRef .tc b) := by
  obtain ⟨h0, h1, h2⟩ := h
  exact ((keep2 _ b h2).trans (keep1 _ b h1)).trans (keep0 _ b h0)

/-- A buffer outside the lists of segments 0…3 has, after them, the contents it started with. -/
theorem start4 (U : Valuation τ sig (Elt F)) (b : Ref sig .tc) (h : b ∉ wl_0 ∧ b ∉ wl_1 ∧ b ∉ wl_2 ∧ b ∉ wl_3) :
    after seg3 (after seg2 (after seg1 (after seg0 (U)))) (Proc.devRef .tc b) = U (Proc.devRef .tc b) := by
  obtain ⟨h0, h1, h2, h3⟩ := h
  exact (((keep3 _ b h3).trans (keep2 _ b h2)).trans (keep1 _ b h1)).trans (keep0 _ b h0)

/-- A buffer outside the lists of segments 0…4 has, after them, the contents it started with. -/
theorem start5 (U : Valuation τ sig (Elt F)) (b : Ref sig .tc) (h : b ∉ wl_0 ∧ b ∉ wl_1 ∧ b ∉ wl_2 ∧ b ∉ wl_3 ∧ b ∉ wl_4) :
    after seg4 (after seg3 (after seg2 (after seg1 (after seg0 (U))))) (Proc.devRef .tc b) = U (Proc.devRef .tc b) := by
  obtain ⟨h0, h1, h2, h3, h4⟩ := h
  exact ((((keep4 _ b h4).trans (keep3 _ b h3)).trans (keep2 _ b h2)).trans (keep1 _ b h1)).trans (keep0 _ b h0)

/-- A buffer outside the lists of segments 0…5 has, after them, the contents it started with. -/
theorem start6 (U : Valuation τ sig (Elt F)) (b : Ref sig .tc) (h : b ∉ wl_0 ∧ b ∉ wl_1 ∧ b ∉ wl_2 ∧ b ∉ wl_3 ∧ b ∉ wl_4 ∧ b ∉ wl_5) :
    after seg5 (after seg4 (after seg3 (after seg2 (after seg1 (after seg0 (U)))))) (Proc.devRef .tc b) = U (Proc.devRef .tc b) := by
  obtain ⟨h0, h1, h2, h3, h4, h5⟩ := h
  exact (((((keep5 _ b h5).trans (keep4 _ b h4)).trans (keep3 _ b h3)).trans (keep2 _ b h2)).trans (keep1 _ b h1)).trans (keep0 _ b h0)

/-- A buffer outside the lists of segments 0…6 has, after them, the contents it started with. -/
theorem start7 (U : Valuation τ sig (Elt F)) (b : Ref sig .tc) (h : b ∉ wl_0 ∧ b ∉ wl_1 ∧ b ∉ wl_2 ∧ b ∉ wl_3 ∧ b ∉ wl_4 ∧ b ∉ wl_5 ∧ b ∉ wl_6) :
    after seg6 (after seg5 (after seg4 (after seg3 (after seg2 (after seg1 (after seg0 (U))))))) (Proc.devRef .tc b) = U (Proc.devRef .tc b) := by
  obtain ⟨h0, h1, h2, h3, h4, h5, h6⟩ := h
  exact ((((((keep6 _ b h6).trans (keep5 _ b h5)).trans (keep4 _ b h4)).trans (keep3 _ b h3)).trans (keep2 _ b h2)).trans (keep1 _ b h1)).trans (keep0 _ b h0)

/-- A buffer outside the lists of segments 0…7 has, after them, the contents it started with. -/
theorem start8 (U : Valuation τ sig (Elt F)) (b : Ref sig .tc) (h : b ∉ wl_0 ∧ b ∉ wl_1 ∧ b ∉ wl_2 ∧ b ∉ wl_3 ∧ b ∉ wl_4 ∧ b ∉ wl_5 ∧ b ∉ wl_6 ∧ b ∉ wl_7) :
    after seg7 (after seg6 (after seg5 (after seg4 (after seg3 (after seg2 (after seg1 (after seg0 (U)))))))) (Proc.devRef .tc b) = U (Proc.devRef .tc b) := by
  obtain ⟨h0, h1, h2, h3, h4, h5, h6, h7⟩ := h
  exact (((((((keep7 _ b h7).trans (keep6 _ b h6)).trans (keep5 _ b h5)).trans (keep4 _ b h4)).trans (keep3 _ b h3)).trans (keep2 _ b h2)).trans (keep1 _ b h1)).trans (keep0 _ b h0)

/-- A buffer outside the lists of segments 1…1 has, after them, the contents it had after segment 0. -/
theorem since2 (U : Valuation τ sig (Elt F)) (b : Ref sig .tc) (h : b ∉ wl_1) :
    after seg1 (U) (Proc.devRef .tc b) = U (Proc.devRef .tc b) := by
  have h1 := h
  exact keep1 _ b h1

/-- A buffer outside the lists of segments 1…3 has, after them, the contents it had after segment 0. -/
theorem since4 (U : Valuation τ sig (Elt F)) (b : Ref sig .tc) (h : b ∉ wl_1 ∧ b ∉ wl_2 ∧ b ∉ wl_3) :
    after seg3 (after seg2 (after seg1 (U))) (Proc.devRef .tc b) = U (Proc.devRef .tc b) := by
  obtain ⟨h1, h2, h3⟩ := h
  exact ((keep3 _ b h3).trans (keep2 _ b h2)).trans (keep1 _ b h1)

/-- A buffer outside the lists of segments 1…5 has, after them, the contents it had after segment 0. -/
theorem since6 (U : Valuation τ sig (Elt F)) (b : Ref sig .tc) (h : b ∉ wl_1 ∧ b ∉ wl_2 ∧ b ∉ wl_3 ∧ b ∉ wl_4 ∧ b ∉ wl_5) :
    after seg5 (after seg4 (after seg3 (after seg2 (after seg1 (U))))) (Proc.devRef .tc b) = U (Proc.devRef .tc b) := by
  obtain ⟨h1, h2, h3, h4, h5⟩ := h
  exact ((((keep5 _ b h5).trans (keep4 _ b h4)).trans (keep3 _ b h3)).trans (keep2 _ b h2)).trans (keep1 _ b h1)

end Cert.ReferenceIdeal.RKeep

end
-- ==== Proof.Bridge.lean ====
/-
  The two programs end with the same result. The reference's line of operations is nine segments run one after
  the other; the idealized kernel program's boundaries are a fold of nine stretch-and-region stages. From memories
  that agree on the arguments, stage by stage the segment's result is the region's output array: what a stage
  reads besides the previous stage's result — an argument, or a row of the edge list — is untouched on both sides
  by everything that ran before.
-/
import proofs.«175823_j87351044866594_1_alg».proof.Proof.Stages
import proofs.«175823_j87351044866594_1_alg».proof.Proof.RKeep

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Cert.ReferenceIdeal.RefRun (seg0 seg1 seg2 seg3 seg4 seg5 seg6 seg7 seg8)

variable (m : (ℓ : Loc nD τ sig) → Buf (Elt Ideal) ℓ) (ρ : Dev nD → PrngReg) (c : Dev nD)
variable (m' : (ℓ : Loc Cert.ReferenceIdeal.nD Cert.ReferenceIdeal.τ Cert.ReferenceIdeal.sig) → Buf (Elt Ideal) ℓ)

/-- From memories agreeing on the nineteen arguments, the reference's result buffer after its whole line of
    operations holds what the kernel program's result buffer holds at its last boundary. -/
theorem result_eq
    (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    after Cert.ReferenceIdeal.RefRun.ops (launchContents m' c) (Proc.devRef .tc Cert.ReferenceIdeal.main_v228)
      = W18 m ρ c (Proc.devRef .tc main_v166) := by
  obtain ⟨a0, a1, a2, a3, a4, a5, a6, a7, a8, a9, a10, a11, a12, a13, a14, a15, a16, a17, a18⟩ := ha
  rw [Cert.ReferenceIdeal.RefRun.after_ops]
  -- stage 0, and the two rows of the edge list
  have e0 := stage0 m ρ c (launchContents m' c) a0 a1 a3 a4
  obtain ⟨s0, d0⟩ := edges m ρ c (launchContents m' c) a1
  -- stage 1
  have e1 := stage1 m ρ c _ e0
    ((Cert.ReferenceIdeal.RKeep.keep0 _ Cert.ReferenceIdeal.main_arg15 (by decide)).trans (a15.trans (KKeep.launch1 m ρ c main_arg15 (by decide)).symm))
    ((Cert.ReferenceIdeal.RKeep.keep0 _ Cert.ReferenceIdeal.main_arg16 (by decide)).trans (a16.trans (KKeep.launch1 m ρ c main_arg16 (by decide)).symm))
  -- stage 2
  have e2 := stage2 m ρ c _ e1
    ((Cert.ReferenceIdeal.RKeep.keep1 _ Cert.ReferenceIdeal.main_v1 (by decide)).trans (s0.trans (KKeep.pair1 m ρ c main_v1 (by decide) (by decide)).symm))
    ((Cert.ReferenceIdeal.RKeep.keep1 _ Cert.ReferenceIdeal.main_v3 (by decide)).trans (d0.trans (KKeep.pair1 m ρ c main_v3 (by decide) (by decide)).symm))
    ((Cert.ReferenceIdeal.RKeep.start2 _ Cert.ReferenceIdeal.main_arg5 (by decide)).trans (a5.trans (KKeep.launch2 m ρ c main_arg5 (by decide)).symm))
    ((Cert.ReferenceIdeal.RKeep.start2 _ Cert.ReferenceIdeal.main_arg6 (by decide)).trans (a6.trans (KKeep.launch2 m ρ c main_arg6 (by decide)).symm))
    ((Cert.ReferenceIdeal.RKeep.start2 _ Cert.ReferenceIdeal.main_arg7 (by decide)).trans (a7.trans (KKeep.launch2 m ρ c main_arg7 (by decide)).symm))
  -- stage 3
  have e3 := stage3 m ρ c _ e2
    ((Cert.ReferenceIdeal.RKeep.start3 _ Cert.ReferenceIdeal.main_arg15 (by decide)).trans (a15.trans (KKeep.launch3 m ρ c main_arg15 (by decide)).symm))
    ((Cert.ReferenceIdeal.RKeep.start3 _ Cert.ReferenceIdeal.main_arg16 (by decide)).trans (a16.trans (KKeep.launch3 m ρ c main_arg16 (by decide)).symm))
  -- stage 4
  have e4 := stage4 m ρ c _ e3
    ((Cert.ReferenceIdeal.RKeep.since4 _ Cert.ReferenceIdeal.main_v1 (by decide)).trans (s0.trans (KKeep.later4 m ρ c main_v1 (by decide)).symm))
    ((Cert.ReferenceIdeal.RKeep.since4 _ Cert.ReferenceIdeal.main_v3 (by decide)).trans (d0.trans (KKeep.later4 m ρ c main_v3 (by decide)).symm))
    ((Cert.ReferenceIdeal.RKeep.start4 _ Cert.ReferenceIdeal.main_arg8 (by decide)).trans (a8.trans (KKeep.launch4 m ρ c main_arg8 (by decide)).symm))
    ((Cert.ReferenceIdeal.RKeep.start4 _ Cert.ReferenceIdeal.main_arg9 (by decide)).trans (a9.trans (KKeep.launch4 m ρ c main_arg9 (by decide)).symm))
    ((Cert.ReferenceIdeal.RKeep.start4 _ Cert.ReferenceIdeal.main_arg10 (by decide)).trans (a10.trans (KKeep.launch4 m ρ c main_arg10 (by decide)).symm))
    ((Cert.ReferenceIdeal.RKeep.start4 _ Cert.ReferenceIdeal.main_arg11 (by decide)).trans (a11.trans (KKeep.launch4 m ρ c main_arg11 (by decide)).symm))
  -- stage 5
  have e5 := stage5 m ρ c _ e4
    ((Cert.ReferenceIdeal.RKeep.start5 _ Cert.ReferenceIdeal.main_arg15 (by decide)).trans (a15.trans (KKeep.launch5 m ρ c main_arg15 (by decide)).symm))
    ((Cert.ReferenceIdeal.RKeep.start5 _ Cert.ReferenceIdeal.main_arg16 (by decide)).trans (a16.trans (KKeep.launch5 m ρ c main_arg16 (by decide)).symm))
  -- stage 6
  have e6 := stage6 m ρ c _ e5
    ((Cert.ReferenceIdeal.RKeep.since6 _ Cert.ReferenceIdeal.main_v1 (by decide)).trans (s0.trans (KKeep.later6 m ρ c main_v1 (by decide)).symm))
    ((Cert.ReferenceIdeal.RKeep.since6 _ Cert.ReferenceIdeal.main_v3 (by decide)).trans (d0.trans (KKeep.later6 m ρ c main_v3 (by decide)).symm))
    ((Cert.ReferenceIdeal.RKeep.start6 _ Cert.ReferenceIdeal.main_arg12 (by decide)).trans (a12.trans (KKeep.launch6 m ρ c main_arg12 (by decide)).symm))
    ((Cert.ReferenceIdeal.RKeep.start6 _ Cert.ReferenceIdeal.main_arg13 (by decide)).trans (a13.trans (KKeep.launch6 m ρ c main_arg13 (by decide)).symm))
    ((Cert.ReferenceIdeal.RKeep.start6 _ Cert.ReferenceIdeal.main_arg14 (by decide)).trans (a14.trans (KKeep.launch6 m ρ c main_arg14 (by decide)).symm))
  -- stage 7
  have e7 := stage7 m ρ c _ e6
    ((Cert.ReferenceIdeal.RKeep.start7 _ Cert.ReferenceIdeal.main_arg15 (by decide)).trans (a15.trans (KKeep.launch7 m ρ c main_arg15 (by decide)).symm))
    ((Cert.ReferenceIdeal.RKeep.start7 _ Cert.ReferenceIdeal.main_arg16 (by decide)).trans (a16.trans (KKeep.launch7 m ρ c main_arg16 (by decide)).symm))
  -- stage 8
  exact stage8 m ρ c _ e7
    ((Cert.ReferenceIdeal.RKeep.start8 _ Cert.ReferenceIdeal.main_arg2 (by decide)).trans (a2.trans (KKeep.launch8 m ρ c main_arg2 (by decide)).symm))
    ((Cert.ReferenceIdeal.RKeep.start8 _ Cert.ReferenceIdeal.main_arg17 (by decide)).trans (a17.trans (KKeep.launch8 m ρ c main_arg17 (by decide)).symm))
    ((Cert.ReferenceIdeal.RKeep.start8 _ Cert.ReferenceIdeal.main_arg18 (by decide)).trans (a18.trans (KKeep.launch8 m ρ c main_arg18 (by decide)).symm))

end Cert.Bridge

end
-- ==== Proof.lean ====
/-
  The certificate of one graph network written twice. The kernel program runs four message-passing layers and an
  output head as nine tiled regions — per-node linear maps (matrix products on row tiles of 2000 nodes), batch
  normalisation fused with the exponential linear unit, and the head on the per-graph means — among stretches of
  host operations (gathers along the edges' sources, scatter-adds along their destinations, column means and
  variances, the pool); the reference runs the same network as one line of whole-array host operations.

  At the ideal instance a float is an extended real, a change of float format is the identity, a matrix product
  into a zero accumulator is the plain sum over the contracted axis, and `expm1 x` is `exp x - 1`; so each region's
  output array — block by block the body's result on its row tile — is, index by index, the reference's layer term:
  the same sums over the 64 features, the same normalisation `(x - mean) · rsqrt (var + ε) · γ + β`, and for the
  activation `if x > 0 then x else exp x - 1` on both sides (the reference's form `1 · expm1 (if x > 0 then 0 else x)`
  agrees with it in either case). The host-side pieces between the regions are the very operations the reference
  applies, so they are carried as the same functions of equal arguments and never opened. No law used needs
  finiteness: the precondition is not consulted.

  The three frames: the two kernel programs' are the launch theorem over their regions; the reference's is its
  straight line of host operations, none of which writes an argument. The idealization rewrote nothing, so
  `preserves` is trivial.
-/
import proofs.«175823_j87351044866594_1_alg».proof.Defs
import proofs.«175823_j87351044866594_1_alg».proof.Proof.Gen.Kernel
import proofs.«175823_j87351044866594_1_alg».proof.Proof.Gen.Kernel.Frame
import proofs.«175823_j87351044866594_1_alg».proof.Proof.Gen.KernelIdeal
import proofs.«175823_j87351044866594_1_alg».proof.Proof.Gen.KernelIdeal.Frame
import proofs.«175823_j87351044866594_1_alg».proof.Proof.Gen.ReferenceIdeal
import proofs.«175823_j87351044866594_1_alg».proof.Proof.Gen.Pre_finite_inputs
import proofs.«175823_j87351044866594_1_alg».proof.Proof.KRun
import proofs.«175823_j87351044866594_1_alg».proof.Proof.RefFrame
import proofs.«175823_j87351044866594_1_alg».proof.Proof.Bridge
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The word-level kernel program terminates, faultless, with its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: a straight line of host operations that write no argument. -/
theorem frame_ri : Cert.frame_ReferenceIdeal := Cert.ReferenceIdeal.RefFrame.frame

/-- The idealization rewrote no operation. -/
theorem preserves : Cert.preserves_Kernel_KernelIdeal := trivial

/-- From memories agreeing on the arguments both idealized programs run to the same [2048, 16] result: the kernel
    program's result buffer ends at its last boundary's contents, the reference's at its line's fold, and the two
    are equal stage by stage. -/
theorem algebraic : Cert.algebraic_KernelIdeal_ReferenceIdeal := by
  intro m ρ m' ρ' _ hagree
  refine ⟨fun c => Cert.KernelIdeal.Gen.W18 m ρ c (Proc.devRef .tc Cert.KernelIdeal.main_v166),
    Cert.KernelIdeal.KRun.run_value (F := Ideal) m ρ, ?_⟩
  exact (θ_run Cert.ReferenceIdeal.defs _ _).mono
    (fun _ h c => ⟨(h c).1.trans (Cert.Bridge.result_eq m ρ c m' (hagree c)), (h c).2⟩)
    (Cert.ReferenceIdeal.RefFrame.run_value (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
